-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x5 : Shape := ⟨2, ![4096, 5]⟩
abbrev S_ : Shape := ⟨0, ![]⟩

class Facts : Prop where
  bcast_S_S4096x5 : S_.BroadcastsInDim S4096x5 (![] : Fin 0 → Fin S4096x5.rank)
  reducesTo_S4096x5_S_d0_1 : S4096x5.ReducesTo [0, 1] S_
  h_S_ : 0 < S_.numel

variable [Facts]

def fn {F : FTy → Type} [FloatOps F] (main_arg0 : FVec F S4096x5 .f32) : IVec S_ 1 :=
  let main_v0 : FVec F S4096x5 .f32 := Host.absf main_arg0
  let main_cst : FVec F S_ .f32 := constant S_ .f32 0x7F800000#32
  let main_v1 : FVec F S4096x5 .f32 := broadcastInDim S4096x5 ![] bcast_S_S4096x5 main_cst
  let main_v2 : IVec S4096x5 1 := cmpf .olt main_v0 main_v1
  let main_c : IVec S_ 1 := constantI S_ 1 1#1
  let main_v3 : IVec S_ 1 := (fun x v => Host.reduce IntOp.andi x v reducesTo_S4096x5_S_d0_1 h_S_) main_v2 main_c
  main_v3
-- ==== Kernel.lean ====
abbrev S4096x5 : Shape := ⟨2, ![4096, 5]⟩
abbrev S4x2 : Shape := ⟨2, ![4, 2]⟩
abbrev S4096x2 : Shape := ⟨2, ![4096, 2]⟩
abbrev S4096x1 : Shape := ⟨2, ![4096, 1]⟩
abbrev S4096 : Shape := ⟨1, ![4096]⟩
abbrev S1x4x2 : Shape := ⟨3, ![1, 4, 2]⟩
abbrev S_ : Shape := ⟨0, ![]⟩
abbrev S4096x1x2 : Shape := ⟨3, ![4096, 1, 2]⟩
abbrev S4096x4x2 : Shape := ⟨3, ![4096, 4, 2]⟩
abbrev S4096x2x2 : Shape := ⟨3, ![4096, 2, 2]⟩
abbrev S4096x4x1 : Shape := ⟨3, ![4096, 4, 1]⟩
abbrev S4096x4 : Shape := ⟨2, ![4096, 4]⟩
abbrev S4096x2x1 : Shape := ⟨3, ![4096, 2, 1]⟩
abbrev S4x4096 : Shape := ⟨2, ![4, 4096]⟩
abbrev S2x4096 : Shape := ⟨2, ![2, 4096]⟩
abbrev S4096x4096 : Shape := ⟨2, ![4096, 4096]⟩
abbrev S256x4 : Shape := ⟨2, ![256, 4]⟩
abbrev S256x2 : Shape := ⟨2, ![256, 2]⟩
abbrev S4x256 : Shape := ⟨2, ![4, 256]⟩
abbrev S2x256 : Shape := ⟨2, ![2, 256]⟩
abbrev S256x256 : Shape := ⟨2, ![256, 256]⟩
abbrev S1x256 : Shape := ⟨2, ![1, 256]⟩
abbrev S256x1 : Shape := ⟨2, ![256, 1]⟩

abbrev nBuf : Space → Nat
  | .hbm => 56
  | .vmem => 18
  | .smem => 0
  | _ => 0

abbrev bufTy : (tb : Table) → Fin (tcTables nBuf tb) → BufTy
  | .hbm, ⟨0, _⟩ => ⟨S4096x5, .f32⟩
  | .hbm, ⟨1, _⟩ => ⟨S4x2, .f32⟩
  | .hbm, ⟨2, _⟩ => ⟨S4096x2, .f32⟩
  | .hbm, ⟨3, _⟩ => ⟨S4096x2, .f32⟩
  | .hbm, ⟨4, _⟩ => ⟨S4096x1, .f32⟩
  | .hbm, ⟨5, _⟩ => ⟨S4096, .f32⟩
  | .hbm, ⟨6, _⟩ => ⟨S1x4x2, .f32⟩
  | .hbm, ⟨7, _⟩ => ⟨S_, .f32⟩
  | .hbm, ⟨8, _⟩ => ⟨S4096x2, .f32⟩
  | .hbm, ⟨9, _⟩ => ⟨S4096x2, .f32⟩
  | .hbm, ⟨10, _⟩ => ⟨S4096x1x2, .f32⟩
  | .hbm, ⟨11, _⟩ => ⟨S4096x4x2, .f32⟩
  | .hbm, ⟨12, _⟩ => ⟨S4096x4x2, .f32⟩
  | .hbm, ⟨13, _⟩ => ⟨S4096x4x2, .f32⟩
  | .hbm, ⟨14, _⟩ => ⟨S4096, .f32⟩
  | .hbm, ⟨15, _⟩ => ⟨S4096, .f32⟩
  | .hbm, ⟨16, _⟩ => ⟨S4096, .f32⟩
  | .hbm, ⟨17, _⟩ => ⟨S4096x1, .f32⟩
  | .hbm, ⟨18, _⟩ => ⟨S4096x1, .f32⟩
  | .hbm, ⟨19, _⟩ => ⟨S4096x2, .f32⟩
  | .hbm, ⟨20, _⟩ => ⟨S4096x1, .f32⟩
  | .hbm, ⟨21, _⟩ => ⟨S4096x1, .f32⟩
  | .hbm, ⟨22, _⟩ => ⟨S4096x2, .f32⟩
  | .hbm, ⟨23, _⟩ => ⟨S4096x1x2, .f32⟩
  | .hbm, ⟨24, _⟩ => ⟨S4096x1x2, .f32⟩
  | .hbm, ⟨25, _⟩ => ⟨S4096x2x2, .f32⟩
  | .hbm, ⟨26, _⟩ => ⟨S4096x4x2, .f32⟩
  | .hbm, ⟨27, _⟩ => ⟨S4096x1x2, .f32⟩
  | .hbm, ⟨28, _⟩ => ⟨S4096x4x2, .f32⟩
  | .hbm, ⟨29, _⟩ => ⟨S4096x4x2, .f32⟩
  | .hbm, ⟨30, _⟩ => ⟨S4096x1x2, .f32⟩
  | .hbm, ⟨31, _⟩ => ⟨S4096x2, .f32⟩
  | .hbm, ⟨32, _⟩ => ⟨S4096x1x2, .f32⟩
  | .hbm, ⟨33, _⟩ => ⟨S4096x2, .f32⟩
  | .hbm, ⟨34, _⟩ => ⟨S4096x2, .f32⟩
  | .hbm, ⟨35, _⟩ => ⟨S4096x1x2, .f32⟩
  | .hbm, ⟨36, _⟩ => ⟨S4096x2, .f32⟩
  | .hbm, ⟨37, _⟩ => ⟨S4096x1x2, .f32⟩
  | .hbm, ⟨38, _⟩ => ⟨S4096x2, .f32⟩
  | .hbm, ⟨39, _⟩ => ⟨S4096x2, .f32⟩
  | .hbm, ⟨40, _⟩ => ⟨S4096x1x2, .f32⟩
  | .hbm, ⟨41, _⟩ => ⟨S4096x1x2, .f32⟩
  | .hbm, ⟨42, _⟩ => ⟨S4096x2x2, .f32⟩
  | .hbm, ⟨43, _⟩ => ⟨S4096x4x1, .f32⟩
  | .hbm, ⟨44, _⟩ => ⟨S4096x4, .f32⟩
  | .hbm, ⟨45, _⟩ => ⟨S4096x4x1, .f32⟩
  | .hbm, ⟨46, _⟩ => ⟨S4096x4, .f32⟩
  | .hbm, ⟨47, _⟩ => ⟨S4096x2x1, .f32⟩
  | .hbm, ⟨48, _⟩ => ⟨S4096x2, .f32⟩
  | .hbm, ⟨49, _⟩ => ⟨S4096x2x1, .f32⟩
  | .hbm, ⟨50, _⟩ => ⟨S4096x2, .f32⟩
  | .hbm, ⟨51, _⟩ => ⟨S4x4096, .f32⟩
  | .hbm, ⟨52, _⟩ => ⟨S4x4096, .f32⟩
  | .hbm, ⟨53, _⟩ => ⟨S2x4096, .f32⟩
  | .hbm, ⟨54, _⟩ => ⟨S2x4096, .f32⟩
  | .hbm, ⟨55, _⟩ => ⟨S4096x4096, .f32⟩
  | .local _ .vmem, ⟨0, _⟩ => ⟨S256x4, .f32⟩
  | .local _ .vmem, ⟨1, _⟩ => ⟨S256x4, .f32⟩
  | .local _ .vmem, ⟨2, _⟩ => ⟨S256x4, .f32⟩
  | .local _ .vmem, ⟨3, _⟩ => ⟨S256x4, .f32⟩
  | .local _ .vmem, ⟨4, _⟩ => ⟨S256x2, .f32⟩
  | .local _ .vmem, ⟨5, _⟩ => ⟨S256x2, .f32⟩
  | .local _ .vmem, ⟨6, _⟩ => ⟨S256x2, .f32⟩
  | .local _ .vmem, ⟨7, _⟩ => ⟨S256x2, .f32⟩
  | .local _ .vmem, ⟨8, _⟩ => ⟨S4x256, .f32⟩
  | .local _ .vmem, ⟨9, _⟩ => ⟨S4x256, .f32⟩
  | .local _ .vmem, ⟨10, _⟩ => ⟨S4x256, .f32⟩
  | .local _ .vmem, ⟨11, _⟩ => ⟨S4x256, .f32⟩
  | .local _ .vmem, ⟨12, _⟩ => ⟨S2x256, .f32⟩
  | .local _ .vmem, ⟨13, _⟩ => ⟨S2x256, .f32⟩
  | .local _ .vmem, ⟨14, _⟩ => ⟨S2x256, .f32⟩
  | .local _ .vmem, ⟨15, _⟩ => ⟨S2x256, .f32⟩
  | .local _ .vmem, ⟨16, _⟩ => ⟨S256x256, .f32⟩
  | .local _ .vmem, ⟨17, _⟩ => ⟨S256x256, .f32⟩
  | _, _ => ⟨S4096x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_v41 : Ref sig .tc := ⟨.hbm, 44, rfl⟩
abbrev main_v42 : Ref sig .tc := ⟨.hbm, 45, rfl⟩
abbrev main_v43 : Ref sig .tc := ⟨.hbm, 46, rfl⟩
abbrev main_v44 : Ref sig .tc := ⟨.hbm, 47, rfl⟩
abbrev main_v45 : Ref sig .tc := ⟨.hbm, 48, rfl⟩
abbrev main_v46 : Ref sig .tc := ⟨.hbm, 49, rfl⟩
abbrev main_v47 : Ref sig .tc := ⟨.hbm, 50, rfl⟩
abbrev main_v48 : Ref sig .tc := ⟨.hbm, 51, rfl⟩
abbrev main_v49 : Ref sig .tc := ⟨.hbm, 52, rfl⟩
abbrev main_v50 : Ref sig .tc := ⟨.hbm, 53, rfl⟩
abbrev main_v51 : Ref sig .tc := ⟨.hbm, 54, rfl⟩
abbrev main_v52 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x2 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S4x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S2x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

class Facts₀ : Prop where
  slices_S4096x5_S4096x2_0_0 : S4096x5.Slices ![0, 0] S4096x2
  slices_S4096x5_S4096x2_0_2 : S4096x5.Slices ![0, 2] S4096x2
  slices_S4096x5_S4096x1_0_4 : S4096x5.Slices ![0, 4] S4096x1
  shapeCasts_S4096x1_S4096 : S4096x1.ShapeCasts S4096
  bcast_S4x2_S1x4x2_1_2 : S4x2.BroadcastsInDim S1x4x2 (![1, 2] : Fin 2 → Fin S1x4x2.rank)
  bcast_S_S4096x2 : S_.BroadcastsInDim S4096x2 (![] : Fin 0 → Fin S4096x2.rank)
  bcast_S4096x2_S4096x1x2_0_2 : S4096x2.BroadcastsInDim S4096x1x2 (![0, 2] : Fin 2 → Fin S4096x1x2.rank)
  bcast_S1x4x2_S4096x4x2_0_1_2 : S1x4x2.BroadcastsInDim S4096x4x2 (![0, 1, 2] : Fin 3 → Fin S4096x4x2.rank)
  bcast_S4096x1x2_S4096x4x2_0_1_2 : S4096x1x2.BroadcastsInDim S4096x4x2 (![0, 1, 2] : Fin 3 → Fin S4096x4x2.rank)
  bcast_S4096_S4096x1_0 : S4096.BroadcastsInDim S4096x1 (![0] : Fin 1 → Fin S4096x1.rank)
  concatenates_S4096x1_S4096x1_S4096x2_d1 : Shape.Concatenates [S4096x1, S4096x1] S4096x2 1
  concatenates_S4096x1x2_S4096x1x2_S4096x2x2_d1 : Shape.Concatenates [S4096x1x2, S4096x1x2] S4096x2x2 1
  slices_S4096x4x2_S4096x1x2_0_1_0 : S4096x4x2.Slices ![0, 1, 0] S4096x1x2
  shapeCasts_S4096x1x2_S4096x2 : S4096x1x2.ShapeCasts S4096x2
  slices_S4096x4x2_S4096x1x2_0_0_0 : S4096x4x2.Slices ![0, 0, 0] S4096x1x2
  slices_S4096x4x2_S4096x1x2_0_3_0 : S4096x4x2.Slices ![0, 3, 0] S4096x1x2
  slices_S4096x4x2_S4096x4x1_0_0_0 : S4096x4x2.Slices ![0, 0, 0] S4096x4x1
  shapeCasts_S4096x4x1_S4096x4 : S4096x4x1.ShapeCasts S4096x4
  slices_S4096x4x2_S4096x4x1_0_0_1 : S4096x4x2.Slices ![0, 0, 1] S4096x4x1
  slices_S4096x2x2_S4096x2x1_0_0_0 : S4096x2x2.Slices ![0, 0, 0] S4096x2x1
  shapeCasts_S4096x2x1_S4096x2 : S4096x2x1.ShapeCasts S4096x2
  slices_S4096x2x2_S4096x2x1_0_0_1 : S4096x2x2.Slices ![0, 0, 1] S4096x2x1
  transposes_S4096x4_S4x4096_1_0 : S4096x4.Transposes [1, 0] S4x4096
  transposes_S4096x2_S2x4096_1_0 : S4096x2.Transposes [1, 0] S2x4096
  inb_S256x4_S256x4_0_0 : ∀ a, (![0, 0] : Fin 2 → Nat) a + S256x4.size a ≤ S256x4.size a
  h_S256x4 : 0 < S256x4.numel
  shapeCasts_S256x4_S256x4 : S256x4.ShapeCasts S256x4
  inb_S256x2_S256x2_0_0 : ∀ a, (![0, 0] : Fin 2 → Nat) a + S256x2.size a ≤ S256x2.size a
  h_S256x2 : 0 < S256x2.numel
  shapeCasts_S256x2_S256x2 : S256x2.ShapeCasts S256x2
  inb_S4x256_S4x256_0_0 : ∀ a, (![0, 0] : Fin 2 → Nat) a + S4x256.size a ≤ S4x256.size a
  h_S4x256 : 0 < S4x256.numel
  shapeCasts_S4x256_S4x256 : S4x256.ShapeCasts S4x256
  inb_S2x256_S2x256_0_0 : ∀ a, (![0, 0] : Fin 2 → Nat) a + S2x256.size a ≤ S2x256.size a
  h_S2x256 : 0 < S2x256.numel
  shapeCasts_S2x256_S2x256 : S2x256.ShapeCasts S2x256
  slices_S2x256_o0_0_S1x256 : S2x256.Slices ![0, 0] S1x256
  slices_S256x2_o0_0_S256x1 : S256x2.Slices ![0, 0] S256x1
  slices_S256x4_o0_0_S256x1 : S256x4.Slices ![0, 0] S256x1
  slices_S256x4_o0_1_S256x1 : S256x4.Slices ![0, 1] S256x1
  slices_S256x4_o0_2_S256x1 : S256x4.Slices ![0, 2] S256x1
  slices_S256x4_o0_3_S256x1 : S256x4.Slices ![0, 3] S256x1
  slices_S4x256_o0_0_S1x256 : S4x256.Slices ![0, 0] S1x256
  slices_S4x256_o1_0_S1x256 : S4x256.Slices ![1, 0] S1x256
  slices_S4x256_o2_0_S1x256 : S4x256.Slices ![2, 0] S1x256
  slices_S4x256_o3_0_S1x256 : S4x256.Slices ![3, 0] S1x256
  broadcasts_S256x1_S256x256 : S256x1.Broadcasts S256x256
  broadcasts_S1x256_S256x256 : S1x256.Broadcasts S256x256
  slices_S2x256_o1_0_S1x256 : S2x256.Slices ![1, 0] S1x256
  slices_S256x2_o0_1_S256x1 : S256x2.Slices ![0, 1] S256x1
  iota_S256x256_d0_w32 : S256x256.Iotas .tc 32 [0]
  iota_S256x256_d1_w32 : S256x256.Iotas .tc 32 [1]
  inb_S256x256_S256x256_0_0 : ∀ a, (![0, 0] : Fin 2 → Nat) a + S256x256.size a ≤ S256x256.size a
  h_S256x256 : 0 < S256x256.numel
  dot_S4096x4x2_S4096x2x2_S4096x4x2_2_1_1_2_0_0_wf : DotDims.WF S4096x4x2 S4096x2x2 S4096x4x2 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4.size a ≤ S4096x4.size a
  hwx0_0 : ∀ i : grid0.Coords, EltTy.bits .f32 = 32 ∨ (Rect.block (s := S4096x4) S256x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4.size a ≤ S4096x4.size a
  hwx0_1 : ∀ i : grid0.Coords, EltTy.bits .f32 = 32 ∨ (Rect.block (s := S4096x4) S256x4.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x2.size a ≤ S4096x2.size a
  hwx0_2 : ∀ i : grid0.Coords, EltTy.bits .f32 = 32 ∨ (Rect.block (s := S4096x2) S256x2.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x2.size a ≤ S4096x2.size a
  hwx0_3 : ∀ i : grid0.Coords, EltTy.bits .f32 = 32 ∨ (Rect.block (s := S4096x2) S256x2.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4x256.size a ≤ S4x4096.size a
  hwx0_4 : ∀ i : grid0.Coords, EltTy.bits .f32 = 32 ∨ (Rect.block (s := S4x4096) S4x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4x256.size a ≤ S4x4096.size a
  hwx0_5 : ∀ i : grid0.Coords, EltTy.bits .f32 = 32 ∨ (Rect.block (s := S4x4096) S4x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2x256.size a ≤ S2x4096.size a
  hwx0_6 : ∀ i : grid0.Coords, EltTy.bits .f32 = 32 ∨ (Rect.block (s := S2x4096) S2x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2x256.size a ≤ S2x4096.size a
  hwx0_7 : ∀ i : grid0.Coords, EltTy.bits .f32 = 32 ∨ (Rect.block (s := S2x4096) S2x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x256.size a ≤ S4096x4096.size a
  hwx0_8 : ∀ i : grid0.Coords, EltTy.bits .f32 = 32 ∨ (Rect.block (s := S4096x4096) S256x256.size (cc0_transform_8 i) (hinb0_8 i)).WholeWords (EltTy.packing .f32)

variable [Facts₀]

def dot_S4096x4x2_S4096x2x2_S4096x4x2_2_1_1_2_0_0 : DotDims S4096x4x2 S4096x2x2 S4096x4x2 where
  lhsContracting := [2]
  rhsContracting := [1]
  lhsNonContracting := [1]
  rhsNonContracting := [2]
  lhsBatch := [0]
  rhsBatch := [0]
  wf := dot_S4096x4x2_S4096x2x2_S4096x4x2_2_1_1_2_0_0_wf

abbrev win0_0 : Pipeline.Window sig grid0 :=
  Pipeline.Window.ofSpec (Memref.whole main_v41) S256x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v43) S256x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v45) S256x2.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v47) S256x2.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v48) S4x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v49) S4x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v50) S2x256.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v51) S2x256.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v52) S256x256.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S4096x5 : Shape := ⟨2, ![4096, 5]⟩
abbrev S4x2 : Shape := ⟨2, ![4, 2]⟩
abbrev S4096x2 : Shape := ⟨2, ![4096, 2]⟩
abbrev S4096x1 : Shape := ⟨2, ![4096, 1]⟩
abbrev S4096 : Shape := ⟨1, ![4096]⟩
abbrev S1x4x2 : Shape := ⟨3, ![1, 4, 2]⟩
abbrev S_ : Shape := ⟨0, ![]⟩
abbrev S4096x1x2 : Shape := ⟨3, ![4096, 1, 2]⟩
abbrev S4096x4x2 : Shape := ⟨3, ![4096, 4, 2]⟩
abbrev S4096x2x2 : Shape := ⟨3, ![4096, 2, 2]⟩
abbrev S4096x2x4 : Shape := ⟨3, ![4096, 2, 4]⟩
abbrev S4096x2x4096x4 : Shape := ⟨4, ![4096, 2, 4096, 4]⟩
abbrev S4096x4096x2x4 : Shape := ⟨4, ![4096, 4096, 2, 4]⟩
abbrev S4096x4096x2 : Shape := ⟨3, ![4096, 4096, 2]⟩
abbrev S1x4096x2 : Shape := ⟨3, ![1, 4096, 2]⟩
abbrev S4096x4096x4 : Shape := ⟨3, ![4096, 4096, 4]⟩
abbrev S4096x4096 : Shape := ⟨2, ![4096, 4096]⟩

abbrev nBuf : Space → Nat
  | .hbm => 134
  | .vmem => 0
  | .smem => 0
  | _ => 0

abbrev hbmTy0_0 (i : Nat) : BufTy := match i % 128 with
  | 0 => ⟨S4096x5, .f32⟩
  | 1 => ⟨S4x2, .f32⟩
  | 2 => ⟨S4096x2, .f32⟩
  | 3 => ⟨S4096x2, .f32⟩
  | 4 => ⟨S4096x1, .f32⟩
  | 5 => ⟨S4096, .f32⟩
  | 6 => ⟨S1x4x2, .f32⟩
  | 7 => ⟨S_, .f32⟩
  | 8 => ⟨S4096x2, .f32⟩
  | 9 => ⟨S4096x2, .f32⟩
  | 10 => ⟨S4096x1x2, .f32⟩
  | 11 => ⟨S4096x4x2, .f32⟩
  | 12 => ⟨S4096x4x2, .f32⟩
  | 13 => ⟨S4096x4x2, .f32⟩
  | 14 => ⟨S4096, .f32⟩
  | 15 => ⟨S4096, .f32⟩
  | 16 => ⟨S4096, .f32⟩
  | 17 => ⟨S4096x1, .f32⟩
  | 18 => ⟨S4096x1, .f32⟩
  | 19 => ⟨S4096x2, .f32⟩
  | 20 => ⟨S4096x1, .f32⟩
  | 21 => ⟨S4096x1, .f32⟩
  | 22 => ⟨S4096x2, .f32⟩
  | 23 => ⟨S4096x1x2, .f32⟩
  | 24 => ⟨S4096x1x2, .f32⟩
  | 25 => ⟨S4096x2x2, .f32⟩
  | 26 => ⟨S4096x4x2, .f32⟩
  | 27 => ⟨S4096x1x2, .f32⟩
  | 28 => ⟨S4096x4x2, .f32⟩
  | 29 => ⟨S4096x4x2, .f32⟩
  | 30 => ⟨S4096x1x2, .f32⟩
  | 31 => ⟨S4096x2, .f32⟩
  | 32 => ⟨S4096x1x2, .f32⟩
  | 33 => ⟨S4096x2, .f32⟩
  | 34 => ⟨S4096x2, .f32⟩
  | 35 => ⟨S4096x1x2, .f32⟩
  | 36 => ⟨S4096x2, .f32⟩
  | 37 => ⟨S4096x1x2, .f32⟩
  | 38 => ⟨S4096x2, .f32⟩
  | 39 => ⟨S4096x2, .f32⟩
  | 40 => ⟨S4096x1x2, .f32⟩
  | 41 => ⟨S4096x1x2, .f32⟩
  | 42 => ⟨S4096x2x2, .f32⟩
  | 43 => ⟨S4096x2x4, .f32⟩
  | 44 => ⟨S_, .f32⟩
  | 45 => ⟨S4096x2, .f32⟩
  | 46 => ⟨S_, .f32⟩
  | 47 => ⟨S4096x2, .f32⟩
  | 48 => ⟨S4096x2x4096x4, .f32⟩
  | 49 => ⟨S4096x4096x2x4, .f32⟩
  | 50 => ⟨S_, .f32⟩
  | 51 => ⟨S4096x4096x2, .f32⟩
  | 52 => ⟨S_, .f32⟩
  | 53 => ⟨S4096x4096x2, .f32⟩
  | 54 => ⟨S4096x4096x2, .f32⟩
  | 55 => ⟨S4096x4096x2, .f32⟩
  | 56 => ⟨S4096x1x2, .f32⟩
  | 57 => ⟨S4096x1x2, .f32⟩
  | 58 => ⟨S4096x4096x2, .f32⟩
  | 59 => ⟨S4096x4096x2, .f32⟩
  | 60 => ⟨S4096x4096x2, .f32⟩
  | 61 => ⟨S4096x4096x2, .f32⟩
  | 62 => ⟨S4096x4096x2, .f32⟩
  | 63 => ⟨S_, .f32⟩
  | 64 => ⟨S_, .f32⟩
  | 65 => ⟨S4096x4096x2, .f32⟩
  | 66 => ⟨S4096x4096x2, .f32⟩
  | 67 => ⟨S4096x1x2, .f32⟩
  | 68 => ⟨S4096x4096x2, .f32⟩
  | 69 => ⟨S4096x4096x2, .f32⟩
  | 70 => ⟨S4096x4096x2, .f32⟩
  | 71 => ⟨S4096x4096x2, .f32⟩
  | 72 => ⟨S4096x4096x2, .f32⟩
  | 73 => ⟨S4096x4096x2, .f32⟩
  | 74 => ⟨S4096x4096x2, .f32⟩
  | 75 => ⟨S4096x4096x2, .f32⟩
  | 76 => ⟨S4096x4096x2, .f32⟩
  | 77 => ⟨S4096x4096x2, .f32⟩
  | 78 => ⟨S4096x4096x2, .f32⟩
  | 79 => ⟨S4096x4096x2, .f32⟩
  | 80 => ⟨S4096x4096x2, .f32⟩
  | 81 => ⟨S1x4096x2, .f32⟩
  | 82 => ⟨S1x4096x2, .f32⟩
  | 83 => ⟨S4096x4096x2, .f32⟩
  | 84 => ⟨S4096x4096x2, .f32⟩
  | 85 => ⟨S4096x4096x2, .f32⟩
  | 86 => ⟨S4096x4096x2, .f32⟩
  | 87 => ⟨S4096x4096x2, .f32⟩
  | 88 => ⟨S_, .f32⟩
  | 89 => ⟨S_, .f32⟩
  | 90 => ⟨S4096x4096x2, .f32⟩
  | 91 => ⟨S4096x4096x2, .f32⟩
  | 92 => ⟨S4096x4096x2, .f32⟩
  | 93 => ⟨S1x4096x2, .f32⟩
  | 94 => ⟨S4096x4096x2, .f32⟩
  | 95 => ⟨S4096x4096x2, .f32⟩
  | 96 => ⟨S4096x4096x2, .f32⟩
  | 97 => ⟨S4096x4096x2, .f32⟩
  | 98 => ⟨S4096x4096x2, .f32⟩
  | 99 => ⟨S4096x4096x2, .f32⟩
  | 100 => ⟨S4096x4096x2, .f32⟩
  | 101 => ⟨S4096x4096x2, .f32⟩
  | 102 => ⟨S4096x4096x2, .f32⟩
  | 103 => ⟨S4096x4096x2, .f32⟩
  | 104 => ⟨S4096x4096x2, .f32⟩
  | 105 => ⟨S4096x4096x2, .f32⟩
  | 106 => ⟨S4096x4096x4, .f32⟩
  | 107 => ⟨S_, .f32⟩
  | 108 => ⟨S4096x4096, .f32⟩
  | 109 => ⟨S_, .f32⟩
  | 110 => ⟨S_, .f32⟩
  | 111 => ⟨S4096x4096, .f32⟩
  | 112 => ⟨S4096x4096, .f32⟩
  | 113 => ⟨S4096, .i32⟩
  | 114 => ⟨S_, .i32⟩
  | 115 => ⟨S4096, .i32⟩
  | 116 => ⟨S4096, .i1⟩
  | 117 => ⟨S_, .i32⟩
  | 118 => ⟨S4096, .i32⟩
  | 119 => ⟨S4096, .i32⟩
  | 120 => ⟨S4096, .i32⟩
  | 121 => ⟨S_, .i32⟩
  | 122 => ⟨S4096, .i32⟩
  | 123 => ⟨S4096, .i1⟩
  | 124 => ⟨S_, .i32⟩
  | 125 => ⟨S4096, .i32⟩
  | 126 => ⟨S4096, .i32⟩
  | 127 => ⟨S4096, .i32⟩
  | _ => ⟨S4096x5, .f32⟩

abbrev hbmTy0_1 (i : Nat) : BufTy := match i % 128 with
  | 0 => ⟨S4096x1, .i32⟩
  | 1 => ⟨S4096x1, .i32⟩
  | 2 => ⟨S4096x2, .i32⟩
  | 3 => ⟨S_, .f32⟩
  | 4 => ⟨S4096, .f32⟩
  | 5 => ⟨S4096x4096, .f32⟩
  | _ => ⟨S4096x5, .f32⟩

abbrev hbmTy (i : Nat) : BufTy := match i / 128 with
  | 0 => hbmTy0_0 i
  | 1 => hbmTy0_1 i
  | _ => ⟨S4096x5, .f32⟩

abbrev bufTy : (tb : Table) → Fin (tcTables nBuf tb) → BufTy
  | .hbm, ⟨i, _⟩ => hbmTy i
  | _, _ => ⟨S4096x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_cst_1 : Ref sig .tc := ⟨.hbm, 44, rfl⟩
abbrev main_v41 : Ref sig .tc := ⟨.hbm, 45, rfl⟩
abbrev main_cst_2 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_cst_3 : Ref sig .tc := ⟨.hbm, 50, rfl⟩
abbrev main_v45 : Ref sig .tc := ⟨.hbm, 51, rfl⟩
abbrev main_cst_4 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_cst_5 : Ref sig .tc := ⟨.hbm, 63, rfl⟩
abbrev main_call0_v0 : Ref sig .tc := ⟨.hbm, 64, rfl⟩
abbrev main_call0_v1 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_cst_6 : Ref sig .tc := ⟨.hbm, 88, rfl⟩
abbrev main_call1_v0 : Ref sig .tc := ⟨.hbm, 89, rfl⟩
abbrev main_call1_v1 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_cst_7 : Ref sig .tc := ⟨.hbm, 107, rfl⟩
abbrev main_v94 : Ref sig .tc := ⟨.hbm, 108, rfl⟩
abbrev main_cst_8 : Ref sig .tc := ⟨.hbm, 109, rfl⟩
abbrev main_call2_v0 : Ref sig .tc := ⟨.hbm, 110, rfl⟩
abbrev main_call2_v1 : Ref sig .tc := ⟨.hbm, 111, rfl⟩
abbrev main_v95 : Ref sig .tc := ⟨.hbm, 112, rfl⟩
abbrev main_v96 : Ref sig .tc := ⟨.hbm, 113, rfl⟩
abbrev main_c : Ref sig .tc := ⟨.hbm, 114, rfl⟩
abbrev main_v97 : Ref sig .tc := ⟨.hbm, 115, rfl⟩
abbrev main_v98 : Ref sig .tc := ⟨.hbm, 116, rfl⟩
abbrev main_c_9 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_c_10 : Ref sig .tc := ⟨.hbm, 121, rfl⟩
abbrev main_v102 : Ref sig .tc := ⟨.hbm, 122, rfl⟩
abbrev main_v103 : Ref sig .tc := ⟨.hbm, 123, rfl⟩
abbrev main_c_11 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_cst_12 : Ref sig .tc := ⟨.hbm, 131, rfl⟩
abbrev main_v110 : Ref sig .tc := ⟨.hbm, 132, rfl⟩
abbrev main_v111 : Ref sig .tc := ⟨.hbm, 133, rfl⟩

abbrev nD : Nat := 1
abbrev τ : Topo := Topo.v7x

variable {F : FTy → Type} [FloatOps F]

class Facts₀ : Prop where
  slices_S4096x5_S4096x2_0_0 : S4096x5.Slices ![0, 0] S4096x2
  slices_S4096x5_S4096x2_0_2 : S4096x5.Slices ![0, 2] S4096x2
  slices_S4096x5_S4096x1_0_4 : S4096x5.Slices ![0, 4] S4096x1
  shapeCasts_S4096x1_S4096 : S4096x1.ShapeCasts S4096
  bcast_S4x2_S1x4x2_1_2 : S4x2.BroadcastsInDim S1x4x2 (![1, 2] : Fin 2 → Fin S1x4x2.rank)
  bcast_S_S4096x2 : S_.BroadcastsInDim S4096x2 (![] : Fin 0 → Fin S4096x2.rank)
  bcast_S4096x2_S4096x1x2_0_2 : S4096x2.BroadcastsInDim S4096x1x2 (![0, 2] : Fin 2 → Fin S4096x1x2.rank)
  bcast_S1x4x2_S4096x4x2_0_1_2 : S1x4x2.BroadcastsInDim S4096x4x2 (![0, 1, 2] : Fin 3 → Fin S4096x4x2.rank)
  bcast_S4096x1x2_S4096x4x2_0_1_2 : S4096x1x2.BroadcastsInDim S4096x4x2 (![0, 1, 2] : Fin 3 → Fin S4096x4x2.rank)
  bcast_S4096_S4096x1_0 : S4096.BroadcastsInDim S4096x1 (![0] : Fin 1 → Fin S4096x1.rank)
  concatenates_S4096x1_S4096x1_S4096x2_d1 : Shape.Concatenates [S4096x1, S4096x1] S4096x2 1
  concatenates_S4096x1x2_S4096x1x2_S4096x2x2_d1 : Shape.Concatenates [S4096x1x2, S4096x1x2] S4096x2x2 1
  slices_S4096x4x2_S4096x1x2_0_1_0 : S4096x4x2.Slices ![0, 1, 0] S4096x1x2
  shapeCasts_S4096x1x2_S4096x2 : S4096x1x2.ShapeCasts S4096x2
  slices_S4096x4x2_S4096x1x2_0_0_0 : S4096x4x2.Slices ![0, 0, 0] S4096x1x2
  slices_S4096x4x2_S4096x1x2_0_3_0 : S4096x4x2.Slices ![0, 3, 0] S4096x1x2
  reducesTo_S4096x2x4_S4096x2_d2 : S4096x2x4.ReducesTo [2] S4096x2
  h_S_ : 0 < S_.numel
  transposes_S4096x2x4096x4_S4096x4096x2x4_2_0_1_3 : S4096x2x4096x4.Transposes [2, 0, 1, 3] S4096x4096x2x4
  reducesTo_S4096x4096x2x4_S4096x4096x2_d3 : S4096x4096x2x4.ReducesTo [3] S4096x4096x2
  transposes_S4096x4096x2_S4096x4096x2_1_0_2 : S4096x4096x2.Transposes [1, 0, 2] S4096x4096x2
  bcast_S4096x1x2_S4096x4096x2_0_1_2 : S4096x1x2.BroadcastsInDim S4096x4096x2 (![0, 1, 2] : Fin 3 → Fin S4096x4096x2.rank)
  bcast_S_S4096x4096x2 : S_.BroadcastsInDim S4096x4096x2 (![] : Fin 0 → Fin S4096x4096x2.rank)
  bcast_S4096x2_S1x4096x2_1_2 : S4096x2.BroadcastsInDim S1x4096x2 (![1, 2] : Fin 2 → Fin S1x4096x2.rank)
  bcast_S1x4096x2_S4096x4096x2_0_1_2 : S1x4096x2.BroadcastsInDim S4096x4096x2 (![0, 1, 2] : Fin 3 → Fin S4096x4096x2.rank)
  concatenates_S4096x4096x2_S4096x4096x2_S4096x4096x4_d2 : Shape.Concatenates [S4096x4096x2, S4096x4096x2] S4096x4096x4 2
  reducesTo_S4096x4096x4_S4096x4096_d2 : S4096x4096x4.ReducesTo [2] S4096x4096
  bcast_S_S4096x4096 : S_.BroadcastsInDim S4096x4096 (![] : Fin 0 → Fin S4096x4096.rank)
  bcast_S_S4096 : S_.BroadcastsInDim S4096 (![] : Fin 0 → Fin S4096.rank)
  dot_S4096x4x2_S4096x2x2_S4096x4x2_2_1_1_2_0_0_wf : DotDims.WF S4096x4x2 S4096x2x2 S4096x4x2 [2] [1] [1] [2] [0] [0]
  dot_S4096x2x2_S4096x4x2_S4096x2x4_2_2_1_1_0_0_wf : DotDims.WF S4096x2x2 S4096x4x2 S4096x2x4 [2] [2] [1] [1] [0] [0]
  dot_S4096x2x2_S4096x4x2_S4096x2x4096x4_2_2_01_01_n_n_wf : DotDims.WF S4096x2x2 S4096x4x2 S4096x2x4096x4 [2] [2] [0, 1] [0, 1] [] []
  scatter_S4096x4096_S4096x2_S4096_n_01_01_1_wf : ScatterDims.WF S4096x4096 S4096x2 S4096 [] [0, 1] [0, 1] 1

variable [Facts₀]

def dot_S4096x4x2_S4096x2x2_S4096x4x2_2_1_1_2_0_0 : DotDims S4096x4x2 S4096x2x2 S4096x4x2 where
  lhsContracting := [2]
  rhsContracting := [1]
  lhsNonContracting := [1]
  rhsNonContracting := [2]
  lhsBatch := [0]
  rhsBatch := [0]
  wf := dot_S4096x4x2_S4096x2x2_S4096x4x2_2_1_1_2_0_0_wf
def dot_S4096x2x2_S4096x4x2_S4096x2x4_2_2_1_1_0_0 : DotDims S4096x2x2 S4096x4x2 S4096x2x4 where
  lhsContracting := [2]
  rhsContracting := [2]
  lhsNonContracting := [1]
  rhsNonContracting := [1]
  lhsBatch := [0]
  rhsBatch := [0]
  wf := dot_S4096x2x2_S4096x4x2_S4096x2x4_2_2_1_1_0_0_wf
def dot_S4096x2x2_S4096x4x2_S4096x2x4096x4_2_2_01_01_n_n : DotDims S4096x2x2 S4096x4x2 S4096x2x4096x4 where
  lhsContracting := [2]
  rhsContracting := [2]
  lhsNonContracting := [0, 1]
  rhsNonContracting := [0, 1]
  lhsBatch := []
  rhsBatch := []
  wf := dot_S4096x2x2_S4096x4x2_S4096x2x4096x4_2_2_01_01_n_n_wf
def scatter_S4096x4096_S4096x2_S4096_n_01_01_1 : ScatterDims S4096x4096 S4096x2 S4096 where
  updateWindowDims := []
  insertedWindowDims := [0, 1]
  scatterDimsToOperandDims := [0, 1]
  indexVectorDim := 1
  wf := scatter_S4096x4096_S4096x2_S4096_n_01_01_1_wf

class Facts : Prop extends Facts₀ where

variable [Facts]
-- ==== Proof.KWin.lean ====
/-
  The eight input arrays of the tile program, read at an index.

  Before the tiles run, the host lines cut the corners C[b,k,·] and the axes A[b,a,·] into four coordinate tables —
  cix[b,k] = C[b,k,0], ciy[b,k] = C[b,k,1], aix[b,a] = A[b,a,0], aiy[b,a] = A[b,a,1] (a slice of the last axis and a cast
  dropping it) — and their transposes cjx[k,b], cjy[k,b], ajx[a,b], ajy[a,b].  Each is read here at an index as an
  element of C or A.
-/
import proofs.«131896_j59760174957246_2_alg».proof.Proof.FramePKernelIdeal
import Idealize.ShloMosaic.Lib.Pipeline.Value
import Idealize.ShloMosaic.Lib.ValueIdx
import Idealize.ShloMosaic.Lib.StableHlo.Run

noncomputable section

namespace Cert.KernelIdeal.KVal

open Cert.KernelIdeal Cert.KernelIdeal.Gen Cert.KernelIdeal.GenP
open Idealize.ShloMosaic Idealize.ShloMosaic.TcCoe Idealize.ShloMosaic.ValueIdx Idealize.SL.Sem Idealize.ShloMosaic.StableHlo

/-! ## Layout steps over variables -/

/-- The last coordinate `d` of a rank-3 array [n,p,2] cut out and the unit axis dropped: entry (b,k) is the array at (b,k,d). -/
theorem lastCoord_apply {α : Type} {n p : Nat} (X : (⟨3, ![n, p, 2]⟩ : Shape).Idx → α) (o : Nat) (d : Fin 2) (hd : d.val = o)
    (hs : (⟨3, ![n, p, 2]⟩ : Shape).Slices ![0, 0, o] ⟨3, ![n, p, 1]⟩)
    (hc : (⟨3, ![n, p, 1]⟩ : Shape).ShapeCasts ⟨2, ![n, p]⟩) (b : Fin n) (k : Fin p) :
    shapeCast ⟨2, ![n, p]⟩ (extractStridedSlice ⟨3, ![n, p, 1]⟩ ![0, 0, o] X hs) hc (ix2 b k) = X (ix3 b k d) := by
  refine (shapeCast_apply _ hc (ix2 b k) (ix3 b k (0 : Fin 1)) ?_).trans ?_
  · rw [Shape.rowMajor_val_three, Shape.rowMajor_val_two]
    show (b.val * p + k.val) * 1 + 0 = b.val * p + k.val
    omega
  · refine extractStridedSlice_apply _ X hs (ix3 b k (0 : Fin 1)) (ix3 b k d) fun a => ?_
    match a with
    | ⟨0, _⟩ => show b.val = 0 + b.val; omega
    | ⟨1, _⟩ => show k.val = 0 + k.val; omega
    | ⟨2, _⟩ => show d.val = o + 0; omega

/-- The transpose of a matrix: entry (k,b) is the matrix at (b,k). -/
theorem transpose2_apply {α : Type} {n p : Nat} (X : (⟨2, ![n, p]⟩ : Shape).Idx → α)
    (h : (⟨2, ![n, p]⟩ : Shape).Transposes [1, 0] ⟨2, ![p, n]⟩) (k : Fin p) (b : Fin n) :
    transpose ⟨2, ![p, n]⟩ [1, 0] X h (ix2 k b) = X (ix2 b k) := by
  refine transpose_apply _ X h (ix2 k b) (ix2 b k) fun a => ?_
  match a with
  | ⟨0, _⟩ => rfl
  | ⟨1, _⟩ => rfl

/-! ## The eight tables as the host lines leave them -/

variable {F : FTy → Type} [FloatOps F]
variable (m : (ℓ : Loc nD τ sig) → Buf (Elt F) ℓ)

/-- The corners C[b,k,·] and the axes A[b,a,·] as the tile region finds them. -/
abbrev cornersK (c : Dev nD) : S4096x4x2.Idx → Elt F .f32 := V m c main_v26
abbrev axesK (c : Dev nD) : S4096x2x2.Idx → Elt F .f32 := V m c main_v39

theorem V41_eq (c : Dev nD) : (V m c main_v41 : S4096x4.Idx → Elt F .f32)
    = shapeCast S4096x4 (extractStridedSlice S4096x4x1 ![0, 0, 0] (cornersK m c) slices_S4096x4x2_S4096x4x1_0_0_0) shapeCasts_S4096x4x1_S4096x4 := by
  dsimp only [cornersK, axesK, V, hostOps0]
  after_results_simp
  rfl

theorem V43_eq (c : Dev nD) : (V m c main_v43 : S4096x4.Idx → Elt F .f32)
    = shapeCast S4096x4 (extractStridedSlice S4096x4x1 ![0, 0, 1] (cornersK m c) slices_S4096x4x2_S4096x4x1_0_0_1) shapeCasts_S4096x4x1_S4096x4 := by
  dsimp only [cornersK, axesK, V, hostOps0]
  after_results_simp
  rfl

theorem V45_eq (c : Dev nD) : (V m c main_v45 : S4096x2.Idx → Elt F .f32)
    = shapeCast S4096x2 (extractStridedSlice S4096x2x1 ![0, 0, 0] (axesK m c) slices_S4096x2x2_S4096x2x1_0_0_0) shapeCasts_S4096x2x1_S4096x2 := by
  dsimp only [cornersK, axesK, V, hostOps0]
  after_results_simp
  rfl

theorem V47_eq (c : Dev nD) : (V m c main_v47 : S4096x2.Idx → Elt F .f32)
    = shapeCast S4096x2 (extractStridedSlice S4096x2x1 ![0, 0, 1] (axesK m c) slices_S4096x2x2_S4096x2x1_0_0_1) shapeCasts_S4096x2x1_S4096x2 := by
  dsimp only [cornersK, axesK, V, hostOps0]
  after_results_simp
  rfl

theorem V48_eq (c : Dev nD) : (V m c main_v48 : S4x4096.Idx → Elt F .f32)
    = transpose S4x4096 [1, 0] (V m c main_v41 : S4096x4.Idx → Elt F .f32) transposes_S4096x4_S4x4096_1_0 := by
  dsimp only [cornersK, axesK, V, hostOps0]
  after_results_simp

theorem V49_eq (c : Dev nD) : (V m c main_v49 : S4x4096.Idx → Elt F .f32)
    = transpose S4x4096 [1, 0] (V m c main_v43 : S4096x4.Idx → Elt F .f32) transposes_S4096x4_S4x4096_1_0 := by
  dsimp only [cornersK, axesK, V, hostOps0]
  after_results_simp

theorem V50_eq (c : Dev nD) : (V m c main_v50 : S2x4096.Idx → Elt F .f32)
    = transpose S2x4096 [1, 0] (V m c main_v45 : S4096x2.Idx → Elt F .f32) transposes_S4096x2_S2x4096_1_0 := by
  dsimp only [cornersK, axesK, V, hostOps0]
  after_results_simp

theorem V51_eq (c : Dev nD) : (V m c main_v51 : S2x4096.Idx → Elt F .f32)
    = transpose S2x4096 [1, 0] (V m c main_v47 : S4096x2.Idx → Elt F .f32) transposes_S4096x2_S2x4096_1_0 := by
  dsimp only [cornersK, axesK, V, hostOps0]
  after_results_simp

/-- cix[b,k] = C[b,k,0], ciy[b,k] = C[b,k,1], aix[b,a] = A[b,a,0], aiy[b,a] = A[b,a,1] -/
theorem V41_apply (c : Dev nD) (b : Fin 4096) (k : Fin 4) : (V m c main_v41 : S4096x4.Idx → Elt F .f32) (ix2 b k) = cornersK m c (ix3 b k 0) := by
  rw [V41_eq]; exact lastCoord_apply _ 0 0 rfl _ _ b k
theorem V43_apply (c : Dev nD) (b : Fin 4096) (k : Fin 4) : (V m c main_v43 : S4096x4.Idx → Elt F .f32) (ix2 b k) = cornersK m c (ix3 b k 1) := by
  rw [V43_eq]; exact lastCoord_apply _ 1 1 rfl _ _ b k
theorem V45_apply (c : Dev nD) (b : Fin 4096) (a : Fin 2) : (V m c main_v45 : S4096x2.Idx → Elt F .f32) (ix2 b a) = axesK m c (ix3 b a 0) := by
  rw [V45_eq]; exact lastCoord_apply _ 0 0 rfl _ _ b a
theorem V47_apply (c : Dev nD) (b : Fin 4096) (a : Fin 2) : (V m c main_v47 : S4096x2.Idx → Elt F .f32) (ix2 b a) = axesK m c (ix3 b a 1) := by
  rw [V47_eq]; exact lastCoord_apply _ 1 1 rfl _ _ b a
/-- the transposed tables: cjx[k,b] = C[b,k,0], cjy[k,b] = C[b,k,1], ajx[a,b] = A[b,a,0], ajy[a,b] = A[b,a,1] -/
theorem V48_apply (c : Dev nD) (k : Fin 4) (b : Fin 4096) : (V m c main_v48 : S4x4096.Idx → Elt F .f32) (ix2 k b) = cornersK m c (ix3 b k 0) := by
  rw [V48_eq]; exact (transpose2_apply _ _ k b).trans (V41_apply m c b k)
theorem V49_apply (c : Dev nD) (k : Fin 4) (b : Fin 4096) : (V m c main_v49 : S4x4096.Idx → Elt F .f32) (ix2 k b) = cornersK m c (ix3 b k 1) := by
  rw [V49_eq]; exact (transpose2_apply _ _ k b).trans (V43_apply m c b k)
theorem V50_apply (c : Dev nD) (a : Fin 2) (b : Fin 4096) : (V m c main_v50 : S2x4096.Idx → Elt F .f32) (ix2 a b) = axesK m c (ix3 b a 0) := by
  rw [V50_eq]; exact (transpose2_apply _ _ a b).trans (V45_apply m c b a)
theorem V51_apply (c : Dev nD) (a : Fin 2) (b : Fin 4096) : (V m c main_v51 : S2x4096.Idx → Elt F .f32) (ix2 a b) = axesK m c (ix3 b a 1) := by
  rw [V51_eq]; exact (transpose2_apply _ _ a b).trans (V47_apply m c b a)

end Cert.KernelIdeal.KVal

end
-- ==== Proof.Spec.lean ====
/-
  The mathematics of the pairwise separating-axis score, stated once over abstract data.

  A box b has four corners C(b,k,·) (k < 4) and two edge axes A(b,a,·) (a < 2), each a point of the plane
  (two extended-real coordinates).  For an ordered pair of boxes (i, j) and an axis the score compares two
  intervals — the projections of one box's corners on the axis — by the one-dimensional generalized IoU
  `giou`; the pair's score is the least of the four axis scores (two axes of each box), clipped below at 0, and
  the diagonal (i = j) is set to 0.

  Two arrangements of the same number are defined here: `kval`, the order in which a tile program computes it
  from eight small tables (x and y coordinates of the row box's corners and axes, and of the column box's), and
  `rval`, the order in which the array program computes it from contractions over the coordinate axis and folds of
  min / max from ±∞.  `rval_eq_kval` says they agree on all extended reals: only commutativity and associativity of
  +, ·, min and max are used, so no finiteness is needed.
-/
import Idealize.ShloMosaic.PureOps.Ideal
import Idealize.ShloMosaic.PureOps.Ideal.Laws
import Idealize.ShloMosaic.Lib.ValueIdx

noncomputable section

open scoped BigOperators

namespace Cert.MGIoU

open Idealize.ShloMosaic Idealize.ShloMosaic.ValueIdx

/-- corners: box, corner, coordinate -/
abbrev SC : Shape := ⟨3, ![4096, 4, 2]⟩
/-- axes: box, axis, coordinate -/
abbrev SA : Shape := ⟨3, ![4096, 2, 2]⟩

/-- The one-dimensional generalized IoU of the intervals [m1, M1] and [m2, M2]:
    inter / union − (hull − union) / hull, the intersection's length clipped below at 0 (written max(·, 0)). -/
def giou (m1 M1 m2 M2 : EReal) : EReal :=
  Ideal.div (max (min M1 M2 - max m1 m2) 0) ((M1 - m1) + (M2 - m2) - max (min M1 M2 - max m1 m2) 0)
    - Ideal.div ((max M1 M2 - min m1 m2) - ((M1 - m1) + (M2 - m2) - max (min M1 M2 - max m1 m2) 0)) (max M1 M2 - min m1 m2)

/-- The same with the clip written max(0, ·). -/
def giou' (m1 M1 m2 M2 : EReal) : EReal :=
  Ideal.div (max 0 (min M1 M2 - max m1 m2)) ((M1 - m1) + (M2 - m2) - max 0 (min M1 M2 - max m1 m2))
    - Ideal.div ((max M1 M2 - min m1 m2) - ((M1 - m1) + (M2 - m2) - max 0 (min M1 M2 - max m1 m2))) (max M1 M2 - min m1 m2)

theorem giou'_eq (m1 M1 m2 M2 : EReal) : giou' m1 M1 m2 M2 = giou m1 M1 m2 M2 := by
  unfold giou' giou; rw [max_comm (0 : EReal)]

/-- least and greatest of four numbers, nested to the left -/
def min4 (f : Fin 4 → EReal) : EReal := min (min (min (f 0) (f 1)) (f 2)) (f 3)
def max4 (f : Fin 4 → EReal) : EReal := max (max (max (f 0) (f 1)) (f 2)) (f 3)

/-- The tile program's order.  cix, ciy: the row box's corner coordinates; aix, aiy: its axes' coordinates; cjx, cjy,
    ajx, ajy: the column box's.  `d` is the one-bit "on the diagonal" flag. -/
def kval (cix ciy : Fin 4 → EReal) (aix aiy : Fin 2 → EReal) (cjx cjy : Fin 4 → EReal) (ajx ajy : Fin 2 → EReal)
    (d : BitVec 1) : EReal :=
  Scalar.select d 0
    (max (min (min (min
      (giou (min4 fun k => cix k * ajx 0 + ciy k * ajy 0) (max4 fun k => cix k * ajx 0 + ciy k * ajy 0)
            (min4 fun k => cjx k * ajx 0 + cjy k * ajy 0) (max4 fun k => cjx k * ajx 0 + cjy k * ajy 0))
      (giou (min4 fun k => cix k * aix 0 + ciy k * aiy 0) (max4 fun k => cix k * aix 0 + ciy k * aiy 0)
            (min4 fun k => aix 0 * cjx k + aiy 0 * cjy k) (max4 fun k => aix 0 * cjx k + aiy 0 * cjy k)))
      (giou (min4 fun k => cix k * ajx 1 + ciy k * ajy 1) (max4 fun k => cix k * ajx 1 + ciy k * ajy 1)
            (min4 fun k => cjx k * ajx 1 + cjy k * ajy 1) (max4 fun k => cjx k * ajx 1 + cjy k * ajy 1)))
      (giou (min4 fun k => cix k * aix 1 + ciy k * aiy 1) (max4 fun k => cix k * aix 1 + ciy k * aiy 1)
            (min4 fun k => aix 1 * cjx k + aiy 1 * cjy k) (max4 fun k => aix 1 * cjx k + aiy 1 * cjy k))) 0)

/-- Projection of corner k of box i on axis a of box j: the contraction over the coordinate, axis factor first. -/
def cp (C : SC.Idx → EReal) (A : SA.Idx → EReal) (i j : Fin 4096) (a : Fin 2) (k : Fin 4) : EReal :=
  ∑ d : Fin 2, A (ix3 j a d) * C (ix3 i k d)

/-- least / greatest projection of box i's corners on axis a of box j, folded from +∞ / −∞ -/
def cmin (C : SC.Idx → EReal) (A : SA.Idx → EReal) (i j : Fin 4096) (a : Fin 2) : EReal :=
  (Finset.univ : Finset (Fin 4)).fold min ⊤ (cp C A i j a)
def cmax (C : SC.Idx → EReal) (A : SA.Idx → EReal) (i j : Fin 4096) (a : Fin 2) : EReal :=
  (Finset.univ : Finset (Fin 4)).fold max ⊥ (cp C A i j a)

/-- The four axis scores of the pair (i, j) in the array program's order: the two axes of box i
    (box i's own interval against box j's projected one), then the two axes of box j. -/
def gAll (C : SC.Idx → EReal) (A : SA.Idx → EReal) (i j : Fin 4096) : Fin 4 → EReal :=
  ![giou' (cmin C A i i 0) (cmax C A i i 0) (cmin C A j i 0) (cmax C A j i 0),
    giou' (cmin C A i i 1) (cmax C A i i 1) (cmin C A j i 1) (cmax C A j i 1),
    giou' (cmin C A i j 0) (cmax C A i j 0) (cmin C A j j 0) (cmax C A j j 0),
    giou' (cmin C A i j 1) (cmax C A i j 1) (cmin C A j j 1) (cmax C A j j 1)]

/-- The array program's order: off the diagonal the clipped least axis score, on it 0. -/
def rval (C : SC.Idx → EReal) (A : SA.Idx → EReal) (i j : Fin 4096) : EReal :=
  if i = j then 0 else max 0 ((Finset.univ : Finset (Fin 4)).fold min ⊤ (gAll C A i j))

end Cert.MGIoU

end
-- ==== Proof.KBody1.lean ====
/-
  The tile program's value at one position of a tile, first part.

  A tile holds 256 row boxes and 256 column boxes.  The row box's tables are laid out [256, k] (row r of the tile,
  corner or axis k), the column box's [k, 256] (corner or axis k, column c of the tile).  The tile program takes one
  column of a row table or one row of a column table, spreads it over the 256 x 256 tile, and combines the spread
  tables pointwise.  Here: how each of those layout steps reads at an index, and, from them, the least and greatest
  projections that involve ONE box only (the row box's corners on its own two axes, at (r, 0); the column box's
  corners on its own two axes, at (0, c)), each as the least / greatest of four numbers nested to the left.
-/
import proofs.«131896_j59760174957246_2_alg».proof.Proof.Gen.KernelIdeal.Skeleton
import proofs.«131896_j59760174957246_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KBody

open Idealize.ShloMosaic Idealize.ShloMosaic.ValueIdx
open Cert.KernelIdeal Cert.KernelIdeal.Gen Cert.MGIoU

/-! ## Layout steps read at an index -/

section Layout
variable {α : Type}

/-- A column [a,1] spread to [a,b] reads, at (p, c), the column's entry in row p. -/
theorem bcol_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column of the tile spread over it reads its entry in the position's row. -/
theorem bcol (v : S256x1.Idx → α) (h : S256x1.Broadcasts S256x256) (r c : Fin 256) :
    broadcastTo S256x256 v h (ix2 r c) = v (ix2 r (0 : Fin 1)) := bcol_apply v h r c
/-- A row of the tile spread over it reads its entry in the position's column. -/
theorem brow (v : S1x256.Idx → α) (h : S1x256.Broadcasts S256x256) (r c : Fin 256) :
    broadcastTo S256x256 v h (ix2 r c) = v (ix2 (0 : Fin 1) c) := broadcastTo_1b_ab_apply v h r c

/-- Column k of a [256,4] table, at row r. -/
theorem col4_0 (X : S256x4.Idx → α) (h : S256x4.Slices ![0, 0] S256x1) (r : Fin 256) :
    extractStridedSlice S256x1 ![0, 0] X h (ix2 r (0 : Fin 1)) = X (ix2 r (0 : Fin 4)) := slice2_axis1_apply 0 X h r 0 0 rfl
theorem col4_1 (X : S256x4.Idx → α) (h : S256x4.Slices ![0, 1] S256x1) (r : Fin 256) :
    extractStridedSlice S256x1 ![0, 1] X h (ix2 r (0 : Fin 1)) = X (ix2 r (1 : Fin 4)) := slice2_axis1_apply 1 X h r 0 1 rfl
theorem col4_2 (X : S256x4.Idx → α) (h : S256x4.Slices ![0, 2] S256x1) (r : Fin 256) :
    extractStridedSlice S256x1 ![0, 2] X h (ix2 r (0 : Fin 1)) = X (ix2 r (2 : Fin 4)) := slice2_axis1_apply 2 X h r 0 2 rfl
theorem col4_3 (X : S256x4.Idx → α) (h : S256x4.Slices ![0, 3] S256x1) (r : Fin 256) :
    extractStridedSlice S256x1 ![0, 3] X h (ix2 r (0 : Fin 1)) = X (ix2 r (3 : Fin 4)) := slice2_axis1_apply 3 X h r 0 3 rfl
/-- Column a of a [256,2] table, at row r. -/
theorem col2_0 (X : S256x2.Idx → α) (h : S256x2.Slices ![0, 0] S256x1) (r : Fin 256) :
    extractStridedSlice S256x1 ![0, 0] X h (ix2 r (0 : Fin 1)) = X (ix2 r (0 : Fin 2)) := slice2_axis1_apply 0 X h r 0 0 rfl
theorem col2_1 (X : S256x2.Idx → α) (h : S256x2.Slices ![0, 1] S256x1) (r : Fin 256) :
    extractStridedSlice S256x1 ![0, 1] X h (ix2 r (0 : Fin 1)) = X (ix2 r (1 : Fin 2)) := slice2_axis1_apply 1 X h r 0 1 rfl
/-- Row k of a [4,256] table, at column c. -/
theorem row4_0 (X : S4x256.Idx → α) (h : S4x256.Slices ![0, 0] S1x256) (c : Fin 256) :
    extractStridedSlice S1x256 ![0, 0] X h (ix2 (0 : Fin 1) c) = X (ix2 (0 : Fin 4) c) := slice2_axis0_apply 0 X h 0 c 0 rfl
theorem row4_1 (X : S4x256.Idx → α) (h : S4x256.Slices ![1, 0] S1x256) (c : Fin 256) :
    extractStridedSlice S1x256 ![1, 0] X h (ix2 (0 : Fin 1) c) = X (ix2 (1 : Fin 4) c) := slice2_axis0_apply 1 X h 0 c 1 rfl
theorem row4_2 (X : S4x256.Idx → α) (h : S4x256.Slices ![2, 0] S1x256) (c : Fin 256) :
    extractStridedSlice S1x256 ![2, 0] X h (ix2 (0 : Fin 1) c) = X (ix2 (2 : Fin 4) c) := slice2_axis0_apply 2 X h 0 c 2 rfl
theorem row4_3 (X : S4x256.Idx → α) (h : S4x256.Slices ![3, 0] S1x256) (c : Fin 256) :
    extractStridedSlice S1x256 ![3, 0] X h (ix2 (0 : Fin 1) c) = X (ix2 (3 : Fin 4) c) := slice2_axis0_apply 3 X h 0 c 3 rfl
/-- Row a of a [2,256] table, at column c. -/
theorem row2_0 (X : S2x256.Idx → α) (h : S2x256.Slices ![0, 0] S1x256) (c : Fin 256) :
    extractStridedSlice S1x256 ![0, 0] X h (ix2 (0 : Fin 1) c) = X (ix2 (0 : Fin 2) c) := slice2_axis0_apply 0 X h 0 c 0 rfl
theorem row2_1 (X : S2x256.Idx → α) (h : S2x256.Slices ![1, 0] S1x256) (c : Fin 256) :
    extractStridedSlice S1x256 ![1, 0] X h (ix2 (0 : Fin 1) c) = X (ix2 (1 : Fin 2) c) := slice2_axis0_apply 1 X h 0 c 1 rfl

end Layout

/-! ## The eight tables as loaded: a cast to the same shape changes nothing -/

theorem pay2_eq (v : Vec Ideal S256x4 .f32) : k0_pay2 v = v := shapeCast_self v _
theorem pay3_eq (v : Vec Ideal S256x4 .f32) : k0_pay3 v = v := shapeCast_self v _
theorem pay4_eq (v : Vec Ideal S256x2 .f32) : k0_pay4 v = v := shapeCast_self v _
theorem pay5_eq (v : Vec Ideal S256x2 .f32) : k0_pay5 v = v := shapeCast_self v _
theorem pay6_eq (v : Vec Ideal S4x256 .f32) : k0_pay6 v = v := shapeCast_self v _
theorem pay7_eq (v : Vec Ideal S4x256 .f32) : k0_pay7 v = v := shapeCast_self v _
theorem pay8_eq (v : Vec Ideal S2x256 .f32) : k0_pay8 v = v := shapeCast_self v _
theorem pay9_eq (v : Vec Ideal S2x256 .f32) : k0_pay9 v = v := shapeCast_self v _

/-- The zero word is the number 0. -/
theorem lit0 : (Scalar.ofBits (F := Ideal) .f32 0x00000000#32) = (0 : EReal) := Ideal.ofBits_zero_f32

/-- Push an index through the pointwise operations and the layout steps (after unfolding the named intermediate values
    given in the brackets). -/
macro "kb_push" "[" xs:Lean.Parser.Tactic.simpLemma,* "]" : tactic =>
  `(tactic| simp only [$xs,*, pay2_eq, pay3_eq, pay4_eq, pay5_eq, pay6_eq, pay7_eq, pay8_eq, pay9_eq,
    mulf_apply, addf_apply, subf_apply, divf_apply, minimumf_apply, maximumf_apply, broadcast_apply,
    col4_0, col4_1, col4_2, col4_3, col2_0, col2_1, row4_0, row4_1, row4_2, row4_3, row2_0, row2_1, bcol, brow,
    lit0, Ideal.ofBits_zero_f32, min4, max4])

/-! ## Projections that involve one box

X0, X1: the row box's corner coordinates; X2, X3: its axes' coordinates.  X4, X5, X6, X7: the column box's. -/

section OneBox
variable (X0 X1 : FVec Ideal S256x4 .f32) (X2 X3 : FVec Ideal S256x2 .f32)
  (X4 X5 : FVec Ideal S4x256 .f32) (X6 X7 : FVec Ideal S2x256 .f32) (r c : Fin 256)

/-- least projection of the row box's corners on its own axis 0 -/
theorem self0_min : k0_pay22 X0 X1 X2 X3 (k0_pay16 X0 X1 X2 X3) (k0_pay18 X0 X2) (k0_pay19 X1 X3) (ix2 r (0 : Fin 1))
    = min4 fun k => X0 (ix2 r k) * X2 (ix2 r 0) + X1 (ix2 r k) * X3 (ix2 r 0) := by
  kb_push [k0_pay22, k0_pay20, k0_pay21, k0_pay16, k0_pay14, k0_pay15, k0_pay18, k0_pay19]
/-- greatest projection of the row box's corners on its own axis 0 -/
theorem self0_max : k0_pay23 X0 X1 X2 X3 (k0_pay17 X0 X1 X2 X3) (k0_pay18 X0 X2) (k0_pay19 X1 X3) (ix2 r (0 : Fin 1))
    = max4 fun k => X0 (ix2 r k) * X2 (ix2 r 0) + X1 (ix2 r k) * X3 (ix2 r 0) := by
  kb_push [k0_pay23, k0_pay20, k0_pay21, k0_pay17, k0_pay14, k0_pay15, k0_pay18, k0_pay19]
/-- least projection of the row box's corners on its own axis 1 -/
theorem self1_min : k0_pay46 X0 X1 X2 X3 (k0_pay41 X0) (ix2 r (0 : Fin 1))
    = min4 fun k => X0 (ix2 r k) * X2 (ix2 r 1) + X1 (ix2 r k) * X3 (ix2 r 1) := by
  kb_push [k0_pay46, k0_pay42, k0_pay43, k0_pay44, k0_pay45, k0_pay41]
/-- greatest projection of the row box's corners on its own axis 1 -/
theorem self1_max : k0_pay47 X0 X1 X2 X3 (k0_pay41 X0) (ix2 r (0 : Fin 1))
    = max4 fun k => X0 (ix2 r k) * X2 (ix2 r 1) + X1 (ix2 r k) * X3 (ix2 r 1) := by
  kb_push [k0_pay47, k0_pay42, k0_pay43, k0_pay44, k0_pay45, k0_pay41]
/-- least projection of the column box's corners on its own axis 0 -/
theorem other0_min : k0_pay28 X4 X5 X6 X7 (ix2 (0 : Fin 1) c)
    = min4 fun k => X4 (ix2 k c) * X6 (ix2 0 c) + X5 (ix2 k c) * X7 (ix2 0 c) := by
  kb_push [k0_pay28, k0_pay24, k0_pay25, k0_pay26, k0_pay27]
/-- greatest projection of the column box's corners on its own axis 0 -/
theorem other0_max : k0_pay29 X4 X5 X6 X7 (ix2 (0 : Fin 1) c)
    = max4 fun k => X4 (ix2 k c) * X6 (ix2 0 c) + X5 (ix2 k c) * X7 (ix2 0 c) := by
  kb_push [k0_pay29, k0_pay24, k0_pay25, k0_pay26, k0_pay27]
/-- least projection of the column box's corners on its own axis 1 -/
theorem other1_min : k0_pay56 X5 X7 (k0_pay51 X4 X5 X6 X7) (k0_pay53 X4) (k0_pay54 X6) (ix2 (0 : Fin 1) c)
    = min4 fun k => X4 (ix2 k c) * X6 (ix2 1 c) + X5 (ix2 k c) * X7 (ix2 1 c) := by
  kb_push [k0_pay56, k0_pay55, k0_pay51, k0_pay48, k0_pay49, k0_pay50, k0_pay53, k0_pay54]
/-- greatest projection of the column box's corners on its own axis 1 -/
theorem other1_max : k0_pay57 X5 X7 (k0_pay52 X4 X5 X6 X7) (k0_pay53 X4) (k0_pay54 X6) (ix2 (0 : Fin 1) c)
    = max4 fun k => X4 (ix2 k c) * X6 (ix2 1 c) + X5 (ix2 k c) * X7 (ix2 1 c) := by
  kb_push [k0_pay57, k0_pay55, k0_pay52, k0_pay48, k0_pay49, k0_pay50, k0_pay53, k0_pay54]

end OneBox

end Cert.KernelIdeal.KBody

end
-- ==== Proof.KBody2.lean ====
/-
  The tile program's value at one position of a tile, second part: the projections that involve BOTH boxes (the row
  box's corners on a column box's axis, the column box's corners on a row box's axis), read at (r, c), and the four axis
  scores built from them.  Each score is the one-dimensional generalized IoU of two intervals; the tile program folds
  the four scores with min in the order  column axis 0, row axis 0, column axis 1, row axis 1,  so each lemma here
  carries the running minimum `g` of the scores before it.
-/
import proofs.«131896_j59760174957246_2_alg».proof.Proof.KBody1

noncomputable section

namespace Cert.KernelIdeal.KBody

open Idealize.ShloMosaic Idealize.ShloMosaic.ValueIdx
open Cert.KernelIdeal Cert.KernelIdeal.Gen Cert.MGIoU

variable (X0 X1 : FVec Ideal S256x4 .f32) (X2 X3 : FVec Ideal S256x2 .f32)
  (X4 X5 : FVec Ideal S4x256 .f32) (X6 X7 : FVec Ideal S2x256 .f32) (r c : Fin 256)

/-! ## Projections that involve both boxes -/

/-- least projection of the row box's corners on the column box's axis 1 -/
theorem crossB1_min : k0_pay62 X0 X1 (k0_pay37 X6) (k0_pay38 X7) (ix2 r c)
    = min4 fun k => X0 (ix2 r k) * X6 (ix2 1 c) + X1 (ix2 r k) * X7 (ix2 1 c) := by
  kb_push [k0_pay62, k0_pay58, k0_pay59, k0_pay60, k0_pay61, k0_pay37, k0_pay38]
/-- greatest projection of the row box's corners on the column box's axis 1 -/
theorem crossB1_max : k0_pay63 X0 X1 (k0_pay37 X6) (k0_pay38 X7) (ix2 r c)
    = max4 fun k => X0 (ix2 r k) * X6 (ix2 1 c) + X1 (ix2 r k) * X7 (ix2 1 c) := by
  kb_push [k0_pay63, k0_pay58, k0_pay59, k0_pay60, k0_pay61, k0_pay37, k0_pay38]
/-- least projection of the column box's corners on the row box's axis 1 -/
theorem crossA1_min : k0_pay72 X4 X5 (k0_pay39 X2) (k0_pay40 X3) (ix2 r c)
    = min4 fun k => X2 (ix2 r 1) * X4 (ix2 k c) + X3 (ix2 r 1) * X5 (ix2 k c) := by
  kb_push [k0_pay72, k0_pay68, k0_pay69, k0_pay70, k0_pay71, k0_pay39, k0_pay40]
/-- greatest projection of the column box's corners on the row box's axis 1 -/
theorem crossA1_max : k0_pay73 X4 X5 (k0_pay39 X2) (k0_pay40 X3) (ix2 r c)
    = max4 fun k => X2 (ix2 r 1) * X4 (ix2 k c) + X3 (ix2 r 1) * X5 (ix2 k c) := by
  kb_push [k0_pay73, k0_pay68, k0_pay69, k0_pay70, k0_pay71, k0_pay39, k0_pay40]

/-! ## The four axis scores -/

/-- The score on the column box's axis 0: the row box's corners projected on it against the column box's own
    interval [m2, M2] there (a row of the tile). -/
theorem scoreB0 (m2 M2 : FVec Ideal S1x256 .f32) :
    k0_pay33 X0 X1 (k0_pay10 X6) (k0_pay11 X7) m2 M2 (k0_pay30 X0 X1 (k0_pay10 X6) (k0_pay11 X7))
        (k0_pay31 X0 (k0_pay10 X6)) (k0_pay32 X1) (ix2 r c)
      = giou (min4 fun k => X0 (ix2 r k) * X6 (ix2 0 c) + X1 (ix2 r k) * X7 (ix2 0 c))
          (max4 fun k => X0 (ix2 r k) * X6 (ix2 0 c) + X1 (ix2 r k) * X7 (ix2 0 c))
          (m2 (ix2 (0 : Fin 1) c)) (M2 (ix2 (0 : Fin 1) c)) := by
  kb_push [k0_pay33, k0_pay30, k0_pay31, k0_pay32, k0_pay10, k0_pay11, giou]

/-- The score on the row box's axis 0, folded into the running minimum: the row box's own interval [m1, M1] there (a
    column of the tile) against the column box's corners projected on it. -/
theorem scoreA0 (m1 M1 : FVec Ideal S256x1 .f32) (g : FVec Ideal S256x256 .f32) :
    k0_pay36 X4 X5 (k0_pay12 X2) (k0_pay13 X3) m1 M1 g (k0_pay34 X4 X5 (k0_pay12 X2) (k0_pay13 X3)) (k0_pay35 X4) (ix2 r c)
      = min (g (ix2 r c)) (giou (m1 (ix2 r (0 : Fin 1))) (M1 (ix2 r (0 : Fin 1)))
          (min4 fun k => X2 (ix2 r 0) * X4 (ix2 k c) + X3 (ix2 r 0) * X5 (ix2 k c))
          (max4 fun k => X2 (ix2 r 0) * X4 (ix2 k c) + X3 (ix2 r 0) * X5 (ix2 k c))) := by
  kb_push [k0_pay36, k0_pay34, k0_pay35, k0_pay12, k0_pay13, giou]

/-- The score on the column box's axis 1, folded into the running minimum. -/
theorem scoreB1 (g : FVec Ideal S256x256 .f32) :
    k0_pay67 g (k0_pay56 X5 X7 (k0_pay51 X4 X5 X6 X7) (k0_pay53 X4) (k0_pay54 X6))
        (k0_pay57 X5 X7 (k0_pay52 X4 X5 X6 X7) (k0_pay53 X4) (k0_pay54 X6))
        (k0_pay62 X0 X1 (k0_pay37 X6) (k0_pay38 X7)) (k0_pay63 X0 X1 (k0_pay37 X6) (k0_pay38 X7))
        (k0_pay64 X0 X1 X5 X7 (k0_pay37 X6) (k0_pay38 X7) (k0_pay51 X4 X5 X6 X7) (k0_pay52 X4 X5 X6 X7) (k0_pay53 X4) (k0_pay54 X6))
        (k0_pay65 X0 X1 (k0_pay37 X6) (k0_pay38 X7))
        (k0_pay66 X5 X7 (k0_pay51 X4 X5 X6 X7) (k0_pay52 X4 X5 X6 X7) (k0_pay53 X4) (k0_pay54 X6)) (ix2 r c)
      = min (g (ix2 r c)) (giou (min4 fun k => X0 (ix2 r k) * X6 (ix2 1 c) + X1 (ix2 r k) * X7 (ix2 1 c))
          (max4 fun k => X0 (ix2 r k) * X6 (ix2 1 c) + X1 (ix2 r k) * X7 (ix2 1 c))
          (min4 fun k => X4 (ix2 k c) * X6 (ix2 1 c) + X5 (ix2 k c) * X7 (ix2 1 c))
          (max4 fun k => X4 (ix2 k c) * X6 (ix2 1 c) + X5 (ix2 k c) * X7 (ix2 1 c))) := by
  simp only [k0_pay67, k0_pay64, k0_pay65, k0_pay66, mulf_apply, addf_apply, subf_apply, divf_apply, minimumf_apply,
    maximumf_apply, broadcast_apply, bcol, brow, lit0, Ideal.ofBits_zero_f32, giou,
    crossB1_min, crossB1_max, other1_min, other1_max]

/-- The diagonal flag of the tile program read at (r, c): the row's global number against the column's. -/
theorem diag_apply (a0 a1 : BitVec 32) (h0 : S256x256.Iotas .tc 32 [0]) (h1 : S256x256.Iotas .tc 32 [1]) :
    cmpi .eq (addi (broadcast S256x256 (Scalar.muli a0 256#32)) (iota .tc S256x256 32 [0] h0))
        (addi (broadcast S256x256 (Scalar.muli a1 256#32)) (iota .tc S256x256 32 [1] h1)) (ix2 r c)
      = IntOp.cmpi .eq (IntOp.addi (Scalar.muli a0 256#32) (BitVec.ofNat 32 r.val))
          (IntOp.addi (Scalar.muli a1 256#32) (BitVec.ofNat 32 c.val)) := by
  show IntOp.cmpi .eq (IntOp.addi (Scalar.muli a0 256#32) (iota .tc S256x256 32 [0] h0 (ix2 r c)))
      (IntOp.addi (Scalar.muli a1 256#32) (iota .tc S256x256 32 [1] h1 (ix2 r c))) = _
  rw [iota_single_apply, iota_single_apply]

/-- The score on the row box's axis 1 folded into the running minimum, the clip at 0, and the diagonal set to 0. -/
theorem last_apply (a0 a1 : BitVec 32) (g : FVec Ideal S256x256 .f32) :
    k0_pay1 a0 a1 (k0_pay46 X0 X1 X2 X3 (k0_pay41 X0)) (k0_pay47 X0 X1 X2 X3 (k0_pay41 X0)) g
        (k0_pay72 X4 X5 (k0_pay39 X2) (k0_pay40 X3)) (k0_pay73 X4 X5 (k0_pay39 X2) (k0_pay40 X3))
        (k0_pay74 X4 X5 (k0_pay39 X2) (k0_pay40 X3) (k0_pay46 X0 X1 X2 X3 (k0_pay41 X0)) (k0_pay47 X0 X1 X2 X3 (k0_pay41 X0)))
        (Scalar.ofBits .f32 0x00000000#32) (ix2 r c)
      = Scalar.select (IntOp.cmpi .eq (IntOp.addi (Scalar.muli a0 256#32) (BitVec.ofNat 32 r.val))
            (IntOp.addi (Scalar.muli a1 256#32) (BitVec.ofNat 32 c.val))) 0
          (max (min (g (ix2 r c)) (giou (min4 fun k => X0 (ix2 r k) * X2 (ix2 r 1) + X1 (ix2 r k) * X3 (ix2 r 1))
            (max4 fun k => X0 (ix2 r k) * X2 (ix2 r 1) + X1 (ix2 r k) * X3 (ix2 r 1))
            (min4 fun k => X2 (ix2 r 1) * X4 (ix2 k c) + X3 (ix2 r 1) * X5 (ix2 k c))
            (max4 fun k => X2 (ix2 r 1) * X4 (ix2 k c) + X3 (ix2 r 1) * X5 (ix2 k c)))) 0) := by
  simp only [k0_pay1, k0_pay74, mulf_apply, addf_apply, subf_apply, divf_apply, minimumf_apply,
    maximumf_apply, broadcast_apply, select_apply, bcol, brow, lit0, Ideal.ofBits_zero_f32, giou,
    self1_min, self1_max, crossA1_min, crossA1_max]
  rw [diag_apply]

end Cert.KernelIdeal.KBody

end
-- ==== Proof.KBody.lean ====
/-
  The tile program's value at one position of a tile.

  What the tile program leaves at in-tile position (r, c) of the tile with grid coordinates i is the pairwise
  separating-axis score `kval` of the row box in the tile's row r and the column box in its column c: the least of the
  four axis scores, clipped below at 0, and 0 where the pair lies on the diagonal of the whole array.  The diagonal flag
  compares the row's global number  i0 * 256 + r  with the column's  i1 * 256 + c  as 32-bit words; for grid coordinates
  below 16 neither side wraps, so the flag is 1 exactly when the two numbers are equal.
-/
import proofs.«131896_j59760174957246_2_alg».proof.Proof.FramePKernelIdeal
import proofs.«131896_j59760174957246_2_alg».proof.Proof.KBody2
import Idealize.ShloMosaic.Lib.Affine

noncomputable section

namespace Cert.KernelIdeal.KBody

open Idealize.ShloMosaic Idealize.ShloMosaic.ValueIdx
open Cert.KernelIdeal Cert.KernelIdeal.Gen Cert.MGIoU

/-- the diagonal flag at in-tile position (r,c) of the tile whose grid coordinates are the words i0, i1 -/
def kdiag (i0 i1 : BitVec 32) (r c : Fin 256) : BitVec 1 :=
  IntOp.cmpi .eq (IntOp.addi (Scalar.muli i0 256#32) (BitVec.ofNat 32 r.val))
    (IntOp.addi (Scalar.muli i1 256#32) (BitVec.ofNat 32 c.val))

/-- For grid coordinates below 16 the two global numbers are below 2^32, so the words are equal exactly when the
    numbers are. -/
theorem kdiag_eq_one_iff (a b : Nat) (ha : a < 16) (hb : b < 16) (r c : Fin 256) :
    kdiag (BitVec.ofNat 32 a) (BitVec.ofNat 32 b) r c = 1#1 ↔ a * 256 + r.val = b * 256 + c.val := by
  unfold kdiag
  rw [IntOp.cmpi_eq]
  unfold IntOp.addi Scalar.muli IntOp.muli
  rw [← BitVec.toNat_inj]
  simp only [BitVec.toNat_add, BitVec.toNat_mul, BitVec.toNat_ofNat]
  have := r.isLt; have := c.isLt
  omega

/-- the zero offsets of a whole-block access -/
theorem hz : (![0, 0] : Fin 2 → Nat) = fun _ => 0 := funext fun a => by fin_cases a <;> rfl

/-- The tile at (r, c): one store of the whole block, whose value reads the eight tables whole; the four scores are
    folded from the last one inwards. -/
theorem out_apply (i : grid0.Coords) (x0 x1 : Vec Ideal S256x4 .f32) (x2 x3 : Vec Ideal S256x2 .f32)
    (x4 x5 : Vec Ideal S4x256 .f32) (x6 x7 : Vec Ideal S2x256 .f32) (r c : Fin 256) :
    Cert.KernelIdeal.GenP.out0_8 (F := Ideal) i x0 x1 x2 x3 x4 x5 x6 x7 (ix2 r c)
      = Cert.MGIoU.kval (fun k => x0 (ix2 r k)) (fun k => x1 (ix2 r k)) (fun a => x2 (ix2 r a)) (fun a => x3 (ix2 r a))
          (fun k => x4 (ix2 k c)) (fun k => x5 (ix2 k c)) (fun a => x6 (ix2 a c)) (fun a => x7 (ix2 a c))
          (kdiag (BitVec.ofNat 32 (i 0).val) (BitVec.ofNat 32 (i 1).val) r c) := by
  unfold Cert.KernelIdeal.GenP.out0_8
  rw [View.canon_unit_zero hz]
  simp only [View.ld_unit_zero (S := S256x4) hz, View.ld_unit_zero (S := S256x2) hz, View.ld_unit_zero (S := S4x256) hz,
    View.ld_unit_zero (S := S2x256) hz, pay2_eq, pay3_eq, pay4_eq, pay5_eq, pay6_eq, pay7_eq, pay8_eq, pay9_eq]
  rw [last_apply, scoreB1, scoreA0, scoreB0, self0_min, self0_max, other0_min, other0_max]
  rfl

end Cert.KernelIdeal.KBody

end
-- ==== Proof.Bridge.lean ====
/-
  The two arrangements of the pair score agree on all extended reals.

  A fold of min (max) from +∞ (−∞) over four terms is the left-nested min (max) of them; a contraction over the two
  coordinates is the sum of two products; the products commute; the four axis scores are met in a different order and
  min is commutative and associative; the clip max(·, 0) is max(0, ·); on the diagonal both give 0.  No finiteness is used.
-/
import proofs.«131896_j59760174957246_2_alg».proof.Proof.Spec

noncomputable section

open scoped BigOperators

namespace Cert.MGIoU

open Idealize.ShloMosaic Idealize.ShloMosaic.ValueIdx

theorem univ4 : (Finset.univ : Finset (Fin 4)) = {0, 1, 2, 3} := by decide

theorem fold_min4 (f : Fin 4 → EReal) : (Finset.univ : Finset (Fin 4)).fold min ⊤ f = min4 f := by
  rw [univ4, Finset.fold_insert (by decide), Finset.fold_insert (by decide), Finset.fold_insert (by decide), Finset.fold_singleton]
  unfold min4
  rw [min_top_right, min_assoc, min_assoc]

theorem fold_max4 (f : Fin 4 → EReal) : (Finset.univ : Finset (Fin 4)).fold max ⊥ f = max4 f := by
  rw [univ4, Finset.fold_insert (by decide), Finset.fold_insert (by decide), Finset.fold_insert (by decide), Finset.fold_singleton]
  unfold max4
  rw [max_bot_right, max_assoc, max_assoc]

theorem cp_eq (C : SC.Idx → EReal) (A : SA.Idx → EReal) (i j : Fin 4096) (a : Fin 2) (k : Fin 4) :
    cp C A i j a k = A (ix3 j a 0) * C (ix3 i k 0) + A (ix3 j a 1) * C (ix3 i k 1) := by
  unfold cp; rw [Fin.sum_univ_two]

/-- corner factor first -/
theorem cp_comm (C : SC.Idx → EReal) (A : SA.Idx → EReal) (i j : Fin 4096) (a : Fin 2) :
    (fun k => C (ix3 i k 0) * A (ix3 j a 0) + C (ix3 i k 1) * A (ix3 j a 1)) = cp C A i j a :=
  funext fun k => by rw [cp_eq, mul_comm (A (ix3 j a 0)), mul_comm (A (ix3 j a 1))]

/-- axis factor first -/
theorem cp_same (C : SC.Idx → EReal) (A : SA.Idx → EReal) (i j : Fin 4096) (a : Fin 2) :
    (fun k => A (ix3 j a 0) * C (ix3 i k 0) + A (ix3 j a 1) * C (ix3 i k 1)) = cp C A i j a :=
  funext fun k => (cp_eq C A i j a k).symm

/-- The tile program's arrangement at the pair (i, j) of boxes. -/
def kAt (C : SC.Idx → EReal) (A : SA.Idx → EReal) (i j : Fin 4096) : EReal :=
  kval (fun k => C (ix3 i k 0)) (fun k => C (ix3 i k 1)) (fun a => A (ix3 i a 0)) (fun a => A (ix3 i a 1))
    (fun k => C (ix3 j k 0)) (fun k => C (ix3 j k 1)) (fun a => A (ix3 j a 0)) (fun a => A (ix3 j a 1))
    (if i = j then 1#1 else 0#1)

theorem min4_vec (a b c d : EReal) : min4 ![a, b, c, d] = min (min (min a b) c) d := rfl

theorem rval_eq_kAt (C : SC.Idx → EReal) (A : SA.Idx → EReal) (i j : Fin 4096) : rval C A i j = kAt C A i j := by
  unfold rval kAt kval
  by_cases h : i = j
  · rw [if_pos h, if_pos h]; rfl
  · rw [if_neg h, if_neg h, select_zero, fold_min4]
    unfold gAll
    rw [min4_vec]
    simp only [giou'_eq, cmin, cmax, fold_min4, fold_max4]
    rw [cp_comm C A i j 0, cp_comm C A i j 1, cp_comm C A j j 0, cp_comm C A j j 1, cp_comm C A i i 0, cp_comm C A i i 1,
      cp_same C A j i 0, cp_same C A j i 1]
    rw [max_comm]
    congr 1
    ac_rfl

end Cert.MGIoU

end
-- ==== Proof.KVal.lean ====
/-
  The tile program's result array.

  Tile (p, q) of the 16 × 16 grid writes rows 256p … 256p+255 and columns 256q … 256q+255 of the result.  Its row tables
  are rows 256p … of cix, ciy, aix, aiy, its column tables are columns 256q … of cjx, cjy, ajx, ajy, so entry (r, c) of the
  tile is the pair score of boxes i = 256p + r and j = 256q + c in the tile program's arrangement, and the in-tile
  diagonal test 256p + r = 256q + c is i = j.  The 256 tiles cover the array, so after the run the whole array is that
  function of the corners and the axes.
-/
import proofs.«131896_j59760174957246_2_alg».proof.Proof.KWin
import proofs.«131896_j59760174957246_2_alg».proof.Proof.KBody
import proofs.«131896_j59760174957246_2_alg».proof.Proof.Bridge
import Idealize.ShloMosaic.Lib.Pipeline.Value

noncomputable section

namespace Cert.KernelIdeal.KVal

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The result array as one function of the corners and the axes: entry (i, j) is the pair score of boxes i and j. -/
def scoreArr (c : Dev nD) : S4096x4096.Idx → EReal := fun idx =>
  Cert.MGIoU.kAt (cornersK m c) (axesK m c) ⟨(idx 0).val, idx2_lt0 idx⟩ ⟨(idx 1).val, idx2_lt1 idx⟩

theorem scoreArr_apply (c : Dev nD) (idx : S4096x4096.Idx) (gi gj : Fin 4096) (hi : (idx 0).val = gi.val) (hj : (idx 1).val = gj.val) :
    scoreArr m c idx = Cert.MGIoU.kAt (cornersK m c) (axesK m c) gi gj := by
  unfold scoreArr
  rw [show (⟨(idx 0).val, idx2_lt0 idx⟩ : Fin 4096) = gi from Fin.ext hi, show (⟨(idx 1).val, idx2_lt1 idx⟩ : Fin 4096) = gj from Fin.ext hj]

theorem kval_congr {cix cix' ciy ciy' : Fin 4 → EReal} {aix aix' aiy aiy' : Fin 2 → EReal} {cjx cjx' cjy cjy' : Fin 4 → EReal}
    {ajx ajx' ajy ajy' : Fin 2 → EReal} {d d' : BitVec 1}
    (h0 : ∀ k, cix k = cix' k) (h1 : ∀ k, ciy k = ciy' k) (h2 : ∀ a, aix a = aix' a) (h3 : ∀ a, aiy a = aiy' a)
    (h4 : ∀ k, cjx k = cjx' k) (h5 : ∀ k, cjy k = cjy' k) (h6 : ∀ a, ajx a = ajx' a) (h7 : ∀ a, ajy a = ajy' a) (hd : d = d') :
    Cert.MGIoU.kval cix ciy aix aiy cjx cjy ajx ajy d = Cert.MGIoU.kval cix' ciy' aix' aiy' cjx' cjy' ajx' ajy' d' := by
  obtain rfl : cix = cix' := funext h0
  obtain rfl : ciy = ciy' := funext h1
  obtain rfl : aix = aix' := funext h2
  obtain rfl : aiy = aiy' := funext h3
  obtain rfl : cjx = cjx' := funext h4
  obtain rfl : cjy = cjy' := funext h5
  obtain rfl : ajx = ajx' := funext h6
  obtain rfl : ajy = ajy' := funext h7
  subst hd
  rfl

/-- The printed index maps, decided over the 256 tiles: the row tables move with the tile's row block, the column tables
    with its column block, and the tile's grid coordinates are its block indices. -/
theorem idx_facts : ∀ t : Fin cfg0.N,
    (win0_0.index t (0 : Fin 2) = win0_8.index t (0 : Fin 2) ∧ win0_0.index t (1 : Fin 2) = 0)
    ∧ (win0_1.index t (0 : Fin 2) = win0_8.index t (0 : Fin 2) ∧ win0_1.index t (1 : Fin 2) = 0)
    ∧ (win0_2.index t (0 : Fin 2) = win0_8.index t (0 : Fin 2) ∧ win0_2.index t (1 : Fin 2) = 0)
    ∧ (win0_3.index t (0 : Fin 2) = win0_8.index t (0 : Fin 2) ∧ win0_3.index t (1 : Fin 2) = 0)
    ∧ (win0_4.index t (0 : Fin 2) = 0 ∧ win0_4.index t (1 : Fin 2) = win0_8.index t (1 : Fin 2))
    ∧ (win0_5.index t (0 : Fin 2) = 0 ∧ win0_5.index t (1 : Fin 2) = win0_8.index t (1 : Fin 2))
    ∧ (win0_6.index t (0 : Fin 2) = 0 ∧ win0_6.index t (1 : Fin 2) = win0_8.index t (1 : Fin 2))
    ∧ (win0_7.index t (0 : Fin 2) = 0 ∧ win0_7.index t (1 : Fin 2) = win0_8.index t (1 : Fin 2))
    ∧ ((grid0.coords t 0).val = win0_8.index t (0 : Fin 2) ∧ (grid0.coords t 1).val = win0_8.index t (1 : Fin 2))
    ∧ (win0_8.index t (0 : Fin 2) ≤ 15 ∧ win0_8.index t (1 : Fin 2) ≤ 15) :=
  (by decide +kernel : ∀ t : Fin grid0.N, _)

/-- Every block of the result is some tile's. -/
theorem idx_onto : ∀ (q0 q1 : Fin 16), ∃ t : Fin cfg0.N, win0_8.index t = ![q0.val, q1.val] :=
  (by decide +kernel : ∀ (q0 q1 : Fin 16), ∃ t : Fin grid0.N, win0_8.index t = ![q0.val, q1.val])

/-! ## A tile's tables are rows (columns) of the whole tables -/

theorem iblk0_apply (c : Dev nD) (t : Fin cfg0.N) (r : Fin 256) (k : Fin 4) (b : Fin 4096)
    (hb : b.val = win0_8.index t (0 : Fin 2) * 256 + r.val) :
    (iblk m c 0 t : Vec Ideal S256x4 .f32) (ix2 r k) = cornersK m c (ix3 b k 0) := by
  obtain ⟨e0, e1⟩ := (idx_facts t).1
  refine Eq.trans ?_ (V41_apply m c b k)
  show V m c main_v41 (((cfg0.win 0).blk t).view.emb (ix2 r k)) = V m c main_v41 (ix2 b k)
  rw [show ((cfg0.win 0).blk t).view.emb (ix2 r k) = ix2 b k from funext fun ax => Fin.ext (by
    match ax with
    | ⟨0, _⟩ => show win0_0.index t (0 : Fin 2) * 256 + 1 * r.val = b.val; omega
    | ⟨1, _⟩ => show win0_0.index t (1 : Fin 2) * 4 + 1 * k.val = k.val; omega)]

theorem iblk1_apply (c : Dev nD) (t : Fin cfg0.N) (r : Fin 256) (k : Fin 4) (b : Fin 4096)
    (hb : b.val = win0_8.index t (0 : Fin 2) * 256 + r.val) :
    (iblk m c 1 t : Vec Ideal S256x4 .f32) (ix2 r k) = cornersK m c (ix3 b k 1) := by
  obtain ⟨e0, e1⟩ := (idx_facts t).2.1
  refine Eq.trans ?_ (V43_apply m c b k)
  show V m c main_v43 (((cfg0.win 1).blk t).view.emb (ix2 r k)) = V m c main_v43 (ix2 b k)
  rw [show ((cfg0.win 1).blk t).view.emb (ix2 r k) = ix2 b k from funext fun ax => Fin.ext (by
    match ax with
    | ⟨0, _⟩ => show win0_1.index t (0 : Fin 2) * 256 + 1 * r.val = b.val; omega
    | ⟨1, _⟩ => show win0_1.index t (1 : Fin 2) * 4 + 1 * k.val = k.val; omega)]

theorem iblk2_apply (c : Dev nD) (t : Fin cfg0.N) (r : Fin 256) (a : Fin 2) (b : Fin 4096)
    (hb : b.val = win0_8.index t (0 : Fin 2) * 256 + r.val) :
    (iblk m c 2 t : Vec Ideal S256x2 .f32) (ix2 r a) = axesK m c (ix3 b a 0) := by
  obtain ⟨e0, e1⟩ := (idx_facts t).2.2.1
  refine Eq.trans ?_ (V45_apply m c b a)
  show V m c main_v45 (((cfg0.win 2).blk t).view.emb (ix2 r a)) = V m c main_v45 (ix2 b a)
  rw [show ((cfg0.win 2).blk t).view.emb (ix2 r a) = ix2 b a from funext fun ax => Fin.ext (by
    match ax with
    | ⟨0, _⟩ => show win0_2.index t (0 : Fin 2) * 256 + 1 * r.val = b.val; omega
    | ⟨1, _⟩ => show win0_2.index t (1 : Fin 2) * 2 + 1 * a.val = a.val; omega)]

theorem iblk3_apply (c : Dev nD) (t : Fin cfg0.N) (r : Fin 256) (a : Fin 2) (b : Fin 4096)
    (hb : b.val = win0_8.index t (0 : Fin 2) * 256 + r.val) :
    (iblk m c 3 t : Vec Ideal S256x2 .f32) (ix2 r a) = axesK m c (ix3 b a 1) := by
  obtain ⟨e0, e1⟩ := (idx_facts t).2.2.2.1
  refine Eq.trans ?_ (V47_apply m c b a)
  show V m c main_v47 (((cfg0.win 3).blk t).view.emb (ix2 r a)) = V m c main_v47 (ix2 b a)
  rw [show ((cfg0.win 3).blk t).view.emb (ix2 r a) = ix2 b a from funext fun ax => Fin.ext (by
    match ax with
    | ⟨0, _⟩ => show win0_3.index t (0 : Fin 2) * 256 + 1 * r.val = b.val; omega
    | ⟨1, _⟩ => show win0_3.index t (1 : Fin 2) * 2 + 1 * a.val = a.val; omega)]

theorem iblk4_apply (c : Dev nD) (t : Fin cfg0.N) (k : Fin 4) (cc : Fin 256) (b : Fin 4096)
    (hb : b.val = win0_8.index t (1 : Fin 2) * 256 + cc.val) :
    (iblk m c 4 t : Vec Ideal S4x256 .f32) (ix2 k cc) = cornersK m c (ix3 b k 0) := by
  obtain ⟨e0, e1⟩ := (idx_facts t).2.2.2.2.1
  refine Eq.trans ?_ (V48_apply m c k b)
  show V m c main_v48 (((cfg0.win 4).blk t).view.emb (ix2 k cc)) = V m c main_v48 (ix2 k b)
  rw [show ((cfg0.win 4).blk t).view.emb (ix2 k cc) = ix2 k b from funext fun ax => Fin.ext (by
    match ax with
    | ⟨0, _⟩ => show win0_4.index t (0 : Fin 2) * 4 + 1 * k.val = k.val; omega
    | ⟨1, _⟩ => show win0_4.index t (1 : Fin 2) * 256 + 1 * cc.val = b.val; omega)]

theorem iblk5_apply (c : Dev nD) (t : Fin cfg0.N) (k : Fin 4) (cc : Fin 256) (b : Fin 4096)
    (hb : b.val = win0_8.index t (1 : Fin 2) * 256 + cc.val) :
    (iblk m c 5 t : Vec Ideal S4x256 .f32) (ix2 k cc) = cornersK m c (ix3 b k 1) := by
  obtain ⟨e0, e1⟩ := (idx_facts t).2.2.2.2.2.1
  refine Eq.trans ?_ (V49_apply m c k b)
  show V m c main_v49 (((cfg0.win 5).blk t).view.emb (ix2 k cc)) = V m c main_v49 (ix2 k b)
  rw [show ((cfg0.win 5).blk t).view.emb (ix2 k cc) = ix2 k b from funext fun ax => Fin.ext (by
    match ax with
    | ⟨0, _⟩ => show win0_5.index t (0 : Fin 2) * 4 + 1 * k.val = k.val; omega
    | ⟨1, _⟩ => show win0_5.index t (1 : Fin 2) * 256 + 1 * cc.val = b.val; omega)]

theorem iblk6_apply (c : Dev nD) (t : Fin cfg0.N) (a : Fin 2) (cc : Fin 256) (b : Fin 4096)
    (hb : b.val = win0_8.index t (1 : Fin 2) * 256 + cc.val) :
    (iblk m c 6 t : Vec Ideal S2x256 .f32) (ix2 a cc) = axesK m c (ix3 b a 0) := by
  obtain ⟨e0, e1⟩ := (idx_facts t).2.2.2.2.2.2.1
  refine Eq.trans ?_ (V50_apply m c a b)
  show V m c main_v50 (((cfg0.win 6).blk t).view.emb (ix2 a cc)) = V m c main_v50 (ix2 a b)
  rw [show ((cfg0.win 6).blk t).view.emb (ix2 a cc) = ix2 a b from funext fun ax => Fin.ext (by
    match ax with
    | ⟨0, _⟩ => show win0_6.index t (0 : Fin 2) * 2 + 1 * a.val = a.val; omega
    | ⟨1, _⟩ => show win0_6.index t (1 : Fin 2) * 256 + 1 * cc.val = b.val; omega)]

theorem iblk7_apply (c : Dev nD) (t : Fin cfg0.N) (a : Fin 2) (cc : Fin 256) (b : Fin 4096)
    (hb : b.val = win0_8.index t (1 : Fin 2) * 256 + cc.val) :
    (iblk m c 7 t : Vec Ideal S2x256 .f32) (ix2 a cc) = axesK m c (ix3 b a 1) := by
  obtain ⟨e0, e1⟩ := (idx_facts t).2.2.2.2.2.2.2.1
  refine Eq.trans ?_ (V51_apply m c a b)
  show V m c main_v51 (((cfg0.win 7).blk t).view.emb (ix2 a cc)) = V m c main_v51 (ix2 a b)
  rw [show ((cfg0.win 7).blk t).view.emb (ix2 a cc) = ix2 a b from funext fun ax => Fin.ext (by
    match ax with
    | ⟨0, _⟩ => show win0_7.index t (0 : Fin 2) * 2 + 1 * a.val = a.val; omega
    | ⟨1, _⟩ => show win0_7.index t (1 : Fin 2) * 256 + 1 * cc.val = b.val; omega)]

/-! ## What a tile writes back, the cover, the array -/

/-- What tile `t` writes back is block `t` of the score array. -/
theorem flushed_eq (c : Dev nD) (t : Fin cfg0.N) :
    (dats m 0 c).flushed 8 t = ((cfg0.win 8).blk t).view.read (Elt Ideal) (scoreArr m c) := by
  show (cfg0.win 8).cut (grid0.coords t) ((dats m 0 c).after 8 t) = _
  rw [after0_8]
  funext y
  obtain ⟨r, cc, rfl⟩ : ∃ (r cc : Fin 256), y = ix2 r cc := ⟨y 0, y 1, eq_ix2 y⟩
  obtain ⟨⟨g0, g1⟩, ⟨l0, l1⟩⟩ := (idx_facts t).2.2.2.2.2.2.2.2
  have hgi : win0_8.index t (0 : Fin 2) * 256 + r.val < 4096 := by have := r.isLt; omega
  have hgj : win0_8.index t (1 : Fin 2) * 256 + cc.val < 4096 := by have := cc.isLt; omega
  show out0_8 (grid0.coords t) (iblk m c 0 t) (iblk m c 1 t) (iblk m c 2 t) (iblk m c 3 t) (iblk m c 4 t) (iblk m c 5 t)
      (iblk m c 6 t) (iblk m c 7 t) (ix2 r cc) = scoreArr m c (((cfg0.win 8).blk t).view.emb (ix2 r cc))
  refine (Cert.KernelIdeal.KBody.out_apply (grid0.coords t) (iblk m c 0 t) (iblk m c 1 t) (iblk m c 2 t) (iblk m c 3 t)
    (iblk m c 4 t) (iblk m c 5 t) (iblk m c 6 t) (iblk m c 7 t) r cc).trans ?_
  refine Eq.trans ?_ (scoreArr_apply m c _ ⟨_, hgi⟩ ⟨_, hgj⟩
    (show win0_8.index t (0 : Fin 2) * 256 + 1 * r.val = _ by show _ = win0_8.index t (0 : Fin 2) * 256 + r.val; omega)
    (show win0_8.index t (1 : Fin 2) * 256 + 1 * cc.val = _ by show _ = win0_8.index t (1 : Fin 2) * 256 + cc.val; omega)).symm
  unfold Cert.MGIoU.kAt
  refine kval_congr (fun k => iblk0_apply m c t r k _ rfl) (fun k => iblk1_apply m c t r k _ rfl)
    (fun a => iblk2_apply m c t r a _ rfl) (fun a => iblk3_apply m c t r a _ rfl)
    (fun k => iblk4_apply m c t k cc _ rfl) (fun k => iblk5_apply m c t k cc _ rfl)
    (fun a => iblk6_apply m c t a cc _ rfl) (fun a => iblk7_apply m c t a cc _ rfl) ?_
  rw [g0, g1]
  by_cases h : (⟨win0_8.index t (0 : Fin 2) * 256 + r.val, hgi⟩ : Fin 4096) = ⟨win0_8.index t (1 : Fin 2) * 256 + cc.val, hgj⟩
  · rw [if_pos h]
    exact (Cert.KernelIdeal.KBody.kdiag_eq_one_iff _ _ (by omega) (by omega) r cc).mpr (congrArg Fin.val h)
  · rw [if_neg h]
    exact eq_zero_of_ne_one fun h1 => h (Fin.ext ((Cert.KernelIdeal.KBody.kdiag_eq_one_iff _ _ (by omega) (by omega) r cc).mp h1))

/-- An index of the array is in tile `t`'s block iff each coordinate is in the block's range on its axis. -/
theorem mem_blk8 (t : Fin cfg0.N) (i : S4096x4096.Idx) :
    i ∈ ((cfg0.win 8).blk t).view.set ↔ ∀ a : Fin 2, win0_8.index t a * S256x256.size a ≤ (i a).val ∧ (i a).val < win0_8.index t a * S256x256.size a + S256x256.size a := by
  show i ∈ ((View.whole main_v52).slice (win0_8.rect t)).set ↔ _
  rw [View.set_slice_whole, Rect.mem_set_unit]
  exact Iff.rfl

/-- The tiles cover the array: entry (i, j) is in the tile of row block i / 256 and column block j / 256. -/
theorem cover (i : S4096x4096.Idx) : ∃ t : Fin cfg0.N, (cfg0.win 8).flush t = true ∧ i ∈ ((cfg0.win 8).blk t).view.set := by
  have hi0 : (i 0).val < 4096 := idx2_lt0 i
  have hi1 : (i 1).val < 4096 := idx2_lt1 i
  obtain ⟨t, ht⟩ := idx_onto ⟨(i 0).val / 256, by omega⟩ ⟨(i 1).val / 256, by omega⟩
  have q0 : win0_8.index t (0 : Fin 2) = (i 0).val / 256 := congrFun ht 0
  have q1 : win0_8.index t (1 : Fin 2) = (i 1).val / 256 := congrFun ht 1
  refine ⟨t, flush0_8 t, ?_⟩
  rw [mem_blk8]
  intro a
  match a with
  | ⟨0, _⟩ => show win0_8.index t (0 : Fin 2) * 256 ≤ (i 0).val ∧ (i 0).val < win0_8.index t (0 : Fin 2) * 256 + 256; omega
  | ⟨1, _⟩ => show win0_8.index t (1 : Fin 2) * 256 ≤ (i 1).val ∧ (i 1).val < win0_8.index t (1 : Fin 2) * 256 + 256; omega

/-- After the run the result array is the score array. -/
theorem final (c : Dev nD) : (dats m 0 c).arrAt 8 cfg0.N = scoreArr m c :=
  (dats m 0 c).arrAt_eq_of_cover 8 (scoreArr m c) (fun t _ => flushed_eq m c t) cover

/-- The run, read: the result array at the score array, the argument unchanged. -/
theorem run : θ_run defs (onTc (τ := τ) (main (F := Ideal))) ⟨m, fun _ => 0, ρ⟩ fun r => ∀ c : Dev nD,
      r.2.mem ((c : Thread nD τ).loc main_v52) = scoreArr m c
      ∧ r.2.mem ((c : Thread nD τ).loc main_arg0) = m ((c : Thread nD τ).loc main_arg0) :=
  (θ_run defs _ _).mono (fun r h c => ⟨((h c).1 8).trans (final m c),
      ((h c).2 main_arg0 (Pipeline.mem_restRefs_of main_arg0 (by decide) (by decide))).trans (V_main_arg0 m c)⟩)
    (run_main m ρ)

end Cert.KernelIdeal.KVal

end
-- ==== Proof.RefTerms.lean ====
/-
  The reference program's result, as three named pure terms of the argument: the boxes' corners, the two
  edge axes read off the corners, and the clipped pairwise scores — each the composition of the printed
  program's operations over that stretch, a value the program reads more than once a definition of its own — and the
  index array and update of the closing scatter, which zeroes the diagonal.
-/
import proofs.«131896_j59760174957246_2_alg».proof.ReferenceIdeal

noncomputable section

namespace Cert.ReferenceIdeal.RefRun

open Cert.ReferenceIdeal Idealize.ShloMosaic Idealize.SL.Sem
open Cert.ReferenceIdeal.Facts₀ Cert.ReferenceIdeal.Facts

variable {F : FTy → Type} [FloatOps F] [Facts]

/-! ## The corners (operations %cst … %26) -/

/-- %2, %3: the boxes' angles f32[4096], column 4 of the argument. -/
def angle (x : (⟨S4096x5, .f32⟩ : BufTy).Contents (Elt F)) : (⟨S4096, .f32⟩ : BufTy).Contents (Elt F) :=
  shapeCast S4096 (extractStridedSlice S4096x1 ![0, 4] x slices_S4096x5_S4096x1_0_4 : (⟨S4096x1, .f32⟩ : BufTy).Contents (Elt F)) shapeCasts_S4096x1_S4096

/-- %11: the angles' cosines. -/
def cosA (x : (⟨S4096x5, .f32⟩ : BufTy).Contents (Elt F)) : (⟨S4096, .f32⟩ : BufTy).Contents (Elt F) := Host.cos (angle x)

/-- %12: the angles' sines. -/
def sinA (x : (⟨S4096x5, .f32⟩ : BufTy).Contents (Elt F)) : (⟨S4096, .f32⟩ : BufTy).Contents (Elt F) := Host.sin (angle x)

/-- %cst, %1, %4 … %10: the four sign pairs (±1, ±1) scaled by the half extents (columns 2, 3 of the argument, halved). -/
def halfCorners (x : (⟨S4096x5, .f32⟩ : BufTy).Contents (Elt F)) : (⟨S4096x4x2, .f32⟩ : BufTy).Contents (Elt F) :=
  mulf
    (broadcastInDim S4096x4x2 ![0, 1, 2] bcast_S1x4x2_S4096x4x2_0_1_2
      (broadcastInDim S1x4x2 ![1, 2] bcast_S4x2_S1x4x2_1_2
        (fun i => FloatOps.ofBits .f32 (lit0 (S4x2.rowMajor i)) : (⟨S4x2, .f32⟩ : BufTy).Contents (Elt F)) : (⟨S1x4x2, .f32⟩ : BufTy).Contents (Elt F)) : (⟨S4096x4x2, .f32⟩ : BufTy).Contents (Elt F))
    (broadcastInDim S4096x4x2 ![0, 1, 2] bcast_S4096x1x2_S4096x4x2_0_1_2
      (broadcastInDim S4096x1x2 ![0, 2] bcast_S4096x2_S4096x1x2_0_2
        (mulf (extractStridedSlice S4096x2 ![0, 2] x slices_S4096x5_S4096x2_0_2 : (⟨S4096x2, .f32⟩ : BufTy).Contents (Elt F))
          (broadcastInDim S4096x2 ![] bcast_S_S4096x2 (constant S_ .f32 0x3F000000#32 : (⟨S_, .f32⟩ : BufTy).Contents (Elt F)) : (⟨S4096x2, .f32⟩ : BufTy).Contents (Elt F)) : (⟨S4096x2, .f32⟩ : BufTy).Contents (Elt F)) : (⟨S4096x1x2, .f32⟩ : BufTy).Contents (Elt F)) : (⟨S4096x4x2, .f32⟩ : BufTy).Contents (Elt F))

/-- %13 … %22: the rotation matrices f32[4096,2,2]: row 0 is (cos, −sin), row 1 is (sin, cos). -/
def rot (x : (⟨S4096x5, .f32⟩ : BufTy).Contents (Elt F)) : (⟨S4096x2x2, .f32⟩ : BufTy).Contents (Elt F) :=
  concatenate S4096x2x2 1
    [⟨S4096x1x2, (broadcastInDim S4096x1x2 ![0, 2] bcast_S4096x2_S4096x1x2_0_2
        (concatenate S4096x2 1 [⟨S4096x1, (broadcastInDim S4096x1 ![0] bcast_S4096_S4096x1_0 (cosA x) : (⟨S4096x1, .f32⟩ : BufTy).Contents (Elt F))⟩, ⟨S4096x1, (broadcastInDim S4096x1 ![0] bcast_S4096_S4096x1_0 (Host.negf (sinA x) : (⟨S4096, .f32⟩ : BufTy).Contents (Elt F)) : (⟨S4096x1, .f32⟩ : BufTy).Contents (Elt F))⟩] concatenates_S4096x1_S4096x1_S4096x2_d1 : (⟨S4096x2, .f32⟩ : BufTy).Contents (Elt F)) : (⟨S4096x1x2, .f32⟩ : BufTy).Contents (Elt F))⟩,
     ⟨S4096x1x2, (broadcastInDim S4096x1x2 ![0, 2] bcast_S4096x2_S4096x1x2_0_2
        (concatenate S4096x2 1 [⟨S4096x1, (broadcastInDim S4096x1 ![0] bcast_S4096_S4096x1_0 (sinA x) : (⟨S4096x1, .f32⟩ : BufTy).Contents (Elt F))⟩, ⟨S4096x1, (broadcastInDim S4096x1 ![0] bcast_S4096_S4096x1_0 (cosA x) : (⟨S4096x1, .f32⟩ : BufTy).Contents (Elt F))⟩] concatenates_S4096x1_S4096x1_S4096x2_d1 : (⟨S4096x2, .f32⟩ : BufTy).Contents (Elt F)) : (⟨S4096x1x2, .f32⟩ : BufTy).Contents (Elt F))⟩]
    concatenates_S4096x1x2_S4096x1x2_S4096x2x2_d1

/-- operations %cst … %26: the corners f32[4096,4,2] of the boxes: the scaled sign pairs times the rotation matrix
    (a batched product contracting the coordinate with the matrix's row index), plus the centre (columns 0, 1). -/
def corners (x : (⟨S4096x5, .f32⟩ : BufTy).Contents (Elt F)) : (⟨S4096x4x2, .f32⟩ : BufTy).Contents (Elt F) :=
  addf
    (Host.dotGeneral dot_S4096x4x2_S4096x2x2_S4096x4x2_2_1_1_2_0_0 none (halfCorners x) (rot x) : (⟨S4096x4x2, .f32⟩ : BufTy).Contents (Elt F))
    (broadcastInDim S4096x4x2 ![0, 1, 2] bcast_S4096x1x2_S4096x4x2_0_1_2
      (broadcastInDim S4096x1x2 ![0, 2] bcast_S4096x2_S4096x1x2_0_2 (extractStridedSlice S4096x2 ![0, 0] x slices_S4096x5_S4096x2_0_0 : (⟨S4096x2, .f32⟩ : BufTy).Contents (Elt F)) : (⟨S4096x1x2, .f32⟩ : BufTy).Contents (Elt F)) : (⟨S4096x4x2, .f32⟩ : BufTy).Contents (Elt F))

/-! ## The axes (operations %27 … %39) -/

/-- operations %27 … %39: the two edge axes f32[4096,2,2], from the corners: corner 1 minus corner 0 and corner 3
    minus corner 0, one above the other. -/
def axes (C : (⟨S4096x4x2, .f32⟩ : BufTy).Contents (Elt F)) : (⟨S4096x2x2, .f32⟩ : BufTy).Contents (Elt F) :=
  concatenate S4096x2x2 1
    [⟨S4096x1x2, (broadcastInDim S4096x1x2 ![0, 2] bcast_S4096x2_S4096x1x2_0_2
        (subf
          (shapeCast S4096x2 (extractStridedSlice S4096x1x2 ![0, 1, 0] C slices_S4096x4x2_S4096x1x2_0_1_0 : (⟨S4096x1x2, .f32⟩ : BufTy).Contents (Elt F)) shapeCasts_S4096x1x2_S4096x2 : (⟨S4096x2, .f32⟩ : BufTy).Contents (Elt F))
          (shapeCast S4096x2 (extractStridedSlice S4096x1x2 ![0, 0, 0] C slices_S4096x4x2_S4096x1x2_0_0_0 : (⟨S4096x1x2, .f32⟩ : BufTy).Contents (Elt F)) shapeCasts_S4096x1x2_S4096x2 : (⟨S4096x2, .f32⟩ : BufTy).Contents (Elt F)) : (⟨S4096x2, .f32⟩ : BufTy).Contents (Elt F)) : (⟨S4096x1x2, .f32⟩ : BufTy).Contents (Elt F))⟩,
     ⟨S4096x1x2, (broadcastInDim S4096x1x2 ![0, 2] bcast_S4096x2_S4096x1x2_0_2
        (subf
          (shapeCast S4096x2 (extractStridedSlice S4096x1x2 ![0, 3, 0] C slices_S4096x4x2_S4096x1x2_0_3_0 : (⟨S4096x1x2, .f32⟩ : BufTy).Contents (Elt F)) shapeCasts_S4096x1x2_S4096x2 : (⟨S4096x2, .f32⟩ : BufTy).Contents (Elt F))
          (shapeCast S4096x2 (extractStridedSlice S4096x1x2 ![0, 0, 0] C slices_S4096x4x2_S4096x1x2_0_0_0 : (⟨S4096x1x2, .f32⟩ : BufTy).Contents (Elt F)) shapeCasts_S4096x1x2_S4096x2 : (⟨S4096x2, .f32⟩ : BufTy).Contents (Elt F)) : (⟨S4096x2, .f32⟩ : BufTy).Contents (Elt F)) : (⟨S4096x1x2, .f32⟩ : BufTy).Contents (Elt F))⟩]
    concatenates_S4096x1x2_S4096x1x2_S4096x2x2_d1

/-! ## The scores (operations %40 … %95) -/

/-- %40: every box's corners projected on its own two axes, f32[4096,2,4]. -/
def projSelf (C : (⟨S4096x4x2, .f32⟩ : BufTy).Contents (Elt F)) (A : (⟨S4096x2x2, .f32⟩ : BufTy).Contents (Elt F)) : (⟨S4096x2x4, .f32⟩ : BufTy).Contents (Elt F) :=
  Host.dotGeneral dot_S4096x2x2_S4096x4x2_S4096x2x4_2_2_1_1_0_0 none A C

/-- %41: the least of a box's four projections on each of its own axes, f32[4096,2]. -/
def loSelf (C : (⟨S4096x4x2, .f32⟩ : BufTy).Contents (Elt F)) (A : (⟨S4096x2x2, .f32⟩ : BufTy).Contents (Elt F)) : (⟨S4096x2, .f32⟩ : BufTy).Contents (Elt F) :=
  Host.reduce FloatOps.minimumf (projSelf C A) (constant S_ .f32 0x7F800000#32 : (⟨S_, .f32⟩ : BufTy).Contents (Elt F)) reducesTo_S4096x2x4_S4096x2_d2 h_S_

/-- %42: the greatest of them. -/
def hiSelf (C : (⟨S4096x4x2, .f32⟩ : BufTy).Contents (Elt F)) (A : (⟨S4096x2x2, .f32⟩ : BufTy).Contents (Elt F)) : (⟨S4096x2, .f32⟩ : BufTy).Contents (Elt F) :=
  Host.reduce FloatOps.maximumf (projSelf C A) (constant S_ .f32 0xFF800000#32 : (⟨S_, .f32⟩ : BufTy).Contents (Elt F)) reducesTo_S4096x2x4_S4096x2_d2 h_S_

/-- %43, %44: every box's corners projected on every box's axes, as f32[4096,4096,2,4]: entry (j, i, a, k) is box j's
    corner k on box i's axis a. -/
def projCross (C : (⟨S4096x4x2, .f32⟩ : BufTy).Contents (Elt F)) (A : (⟨S4096x2x2, .f32⟩ : BufTy).Contents (Elt F)) : (⟨S4096x4096x2x4, .f32⟩ : BufTy).Contents (Elt F) :=
  transpose S4096x4096x2x4 [2, 0, 1, 3]
    (Host.dotGeneral dot_S4096x2x2_S4096x4x2_S4096x2x4096x4_2_2_01_01_n_n none A C : (⟨S4096x2x4096x4, .f32⟩ : BufTy).Contents (Elt F))
    transposes_S4096x2x4096x4_S4096x4096x2x4_2_0_1_3

/-- %45: the least over the four corners, f32[4096,4096,2]: entry (j, i, a). -/
def loCross (C : (⟨S4096x4x2, .f32⟩ : BufTy).Contents (Elt F)) (A : (⟨S4096x2x2, .f32⟩ : BufTy).Contents (Elt F)) : (⟨S4096x4096x2, .f32⟩ : BufTy).Contents (Elt F) :=
  Host.reduce FloatOps.minimumf (projCross C A) (constant S_ .f32 0x7F800000#32 : (⟨S_, .f32⟩ : BufTy).Contents (Elt F)) reducesTo_S4096x4096x2x4_S4096x4096x2_d3 h_S_

/-- %46: the greatest. -/
def hiCross (C : (⟨S4096x4x2, .f32⟩ : BufTy).Contents (Elt F)) (A : (⟨S4096x2x2, .f32⟩ : BufTy).Contents (Elt F)) : (⟨S4096x4096x2, .f32⟩ : BufTy).Contents (Elt F) :=
  Host.reduce FloatOps.maximumf (projCross C A) (constant S_ .f32 0xFF800000#32 : (⟨S_, .f32⟩ : BufTy).Contents (Elt F)) reducesTo_S4096x4096x2x4_S4096x4096x2_d3 h_S_

/-- %47: `loCross` with its first two axes exchanged: entry (i, j, a). -/
def loCrossT (C : (⟨S4096x4x2, .f32⟩ : BufTy).Contents (Elt F)) (A : (⟨S4096x2x2, .f32⟩ : BufTy).Contents (Elt F)) : (⟨S4096x4096x2, .f32⟩ : BufTy).Contents (Elt F) := transpose S4096x4096x2 [1, 0, 2] (loCross C A) transposes_S4096x4096x2_S4096x4096x2_1_0_2

/-- %48: `hiCross` with its first two axes exchanged. -/
def hiCrossT (C : (⟨S4096x4x2, .f32⟩ : BufTy).Contents (Elt F)) (A : (⟨S4096x2x2, .f32⟩ : BufTy).Contents (Elt F)) : (⟨S4096x4096x2, .f32⟩ : BufTy).Contents (Elt F) := transpose S4096x4096x2 [1, 0, 2] (hiCross C A) transposes_S4096x4096x2_S4096x4096x2_1_0_2

/-- %49: `loSelf` as f32[4096,1,2]. -/
def loI (C : (⟨S4096x4x2, .f32⟩ : BufTy).Contents (Elt F)) (A : (⟨S4096x2x2, .f32⟩ : BufTy).Contents (Elt F)) : (⟨S4096x1x2, .f32⟩ : BufTy).Contents (Elt F) := broadcastInDim S4096x1x2 ![0, 2] bcast_S4096x2_S4096x1x2_0_2 (loSelf C A)

/-- %50: `hiSelf` as f32[4096,1,2]. -/
def hiI (C : (⟨S4096x4x2, .f32⟩ : BufTy).Contents (Elt F)) (A : (⟨S4096x2x2, .f32⟩ : BufTy).Contents (Elt F)) : (⟨S4096x1x2, .f32⟩ : BufTy).Contents (Elt F) := broadcastInDim S4096x1x2 ![0, 2] bcast_S4096x2_S4096x1x2_0_2 (hiSelf C A)

/-- %51 … %56: on box i's axes, the intersection's length clipped below at zero. -/
def interI (C : (⟨S4096x4x2, .f32⟩ : BufTy).Contents (Elt F)) (A : (⟨S4096x2x2, .f32⟩ : BufTy).Contents (Elt F)) : (⟨S4096x4096x2, .f32⟩ : BufTy).Contents (Elt F) :=
  maximumf (broadcastInDim S4096x4096x2 ![] bcast_S_S4096x4096x2 (id (constant S_ .f32 0x00000000#32 : (⟨S_, .f32⟩ : BufTy).Contents (Elt F)) : (⟨S_, .f32⟩ : BufTy).Contents (Elt F)) : (⟨S4096x4096x2, .f32⟩ : BufTy).Contents (Elt F)) (subf
      (minimumf (broadcastInDim S4096x4096x2 ![0, 1, 2] bcast_S4096x1x2_S4096x4096x2_0_1_2 (hiI C A) : (⟨S4096x4096x2, .f32⟩ : BufTy).Contents (Elt F)) (hiCrossT C A) : (⟨S4096x4096x2, .f32⟩ : BufTy).Contents (Elt F))
      (maximumf (broadcastInDim S4096x4096x2 ![0, 1, 2] bcast_S4096x1x2_S4096x4096x2_0_1_2 (loI C A) : (⟨S4096x4096x2, .f32⟩ : BufTy).Contents (Elt F)) (loCrossT C A) : (⟨S4096x4096x2, .f32⟩ : BufTy).Contents (Elt F)) : (⟨S4096x4096x2, .f32⟩ : BufTy).Contents (Elt F))

/-- %57 … %61: on box i's axes, the union's length: the two lengths' sum less the intersection. -/
def unionI (C : (⟨S4096x4x2, .f32⟩ : BufTy).Contents (Elt F)) (A : (⟨S4096x2x2, .f32⟩ : BufTy).Contents (Elt F)) : (⟨S4096x4096x2, .f32⟩ : BufTy).Contents (Elt F) :=
  subf
    (addf (broadcastInDim S4096x4096x2 ![0, 1, 2] bcast_S4096x1x2_S4096x4096x2_0_1_2 (subf (hiI C A) (loI C A) : (⟨S4096x1x2, .f32⟩ : BufTy).Contents (Elt F)) : (⟨S4096x4096x2, .f32⟩ : BufTy).Contents (Elt F))
      (subf (hiCrossT C A) (loCrossT C A) : (⟨S4096x4096x2, .f32⟩ : BufTy).Contents (Elt F)) : (⟨S4096x4096x2, .f32⟩ : BufTy).Contents (Elt F))
    (interI C A)

/-- %62 … %66: on box i's axes, the enclosing interval's length. -/
def hullI (C : (⟨S4096x4x2, .f32⟩ : BufTy).Contents (Elt F)) (A : (⟨S4096x2x2, .f32⟩ : BufTy).Contents (Elt F)) : (⟨S4096x4096x2, .f32⟩ : BufTy).Contents (Elt F) :=
  subf
    (maximumf (broadcastInDim S4096x4096x2 ![0, 1, 2] bcast_S4096x1x2_S4096x4096x2_0_1_2 (hiI C A) : (⟨S4096x4096x2, .f32⟩ : BufTy).Contents (Elt F)) (hiCrossT C A) : (⟨S4096x4096x2, .f32⟩ : BufTy).Contents (Elt F))
    (minimumf (broadcastInDim S4096x4096x2 ![0, 1, 2] bcast_S4096x1x2_S4096x4096x2_0_1_2 (loI C A) : (⟨S4096x4096x2, .f32⟩ : BufTy).Contents (Elt F)) (loCrossT C A) : (⟨S4096x4096x2, .f32⟩ : BufTy).Contents (Elt F))

/-- %67 … %70: on box i's axes, intersection over union less the enclosing interval's excess over the union, relative. -/
def giouI (C : (⟨S4096x4x2, .f32⟩ : BufTy).Contents (Elt F)) (A : (⟨S4096x2x2, .f32⟩ : BufTy).Contents (Elt F)) : (⟨S4096x4096x2, .f32⟩ : BufTy).Contents (Elt F) :=
  subf (Host.divf (interI C A) (unionI C A) : (⟨S4096x4096x2, .f32⟩ : BufTy).Contents (Elt F))
    (Host.divf (subf (hullI C A) (unionI C A) : (⟨S4096x4096x2, .f32⟩ : BufTy).Contents (Elt F)) (hullI C A) : (⟨S4096x4096x2, .f32⟩ : BufTy).Contents (Elt F))

/-- %71: `loSelf` as f32[1,4096,2]. -/
def loJ (C : (⟨S4096x4x2, .f32⟩ : BufTy).Contents (Elt F)) (A : (⟨S4096x2x2, .f32⟩ : BufTy).Contents (Elt F)) : (⟨S1x4096x2, .f32⟩ : BufTy).Contents (Elt F) := broadcastInDim S1x4096x2 ![1, 2] bcast_S4096x2_S1x4096x2_1_2 (loSelf C A)

/-- %72: `hiSelf` as f32[1,4096,2]. -/
def hiJ (C : (⟨S4096x4x2, .f32⟩ : BufTy).Contents (Elt F)) (A : (⟨S4096x2x2, .f32⟩ : BufTy).Contents (Elt F)) : (⟨S1x4096x2, .f32⟩ : BufTy).Contents (Elt F) := broadcastInDim S1x4096x2 ![1, 2] bcast_S4096x2_S1x4096x2_1_2 (hiSelf C A)

/-- %73 … %78: on box j's axes, the intersection's length clipped below at zero. -/
def interJ (C : (⟨S4096x4x2, .f32⟩ : BufTy).Contents (Elt F)) (A : (⟨S4096x2x2, .f32⟩ : BufTy).Contents (Elt F)) : (⟨S4096x4096x2, .f32⟩ : BufTy).Contents (Elt F) :=
  maximumf (broadcastInDim S4096x4096x2 ![] bcast_S_S4096x4096x2 (id (constant S_ .f32 0x00000000#32 : (⟨S_, .f32⟩ : BufTy).Contents (Elt F)) : (⟨S_, .f32⟩ : BufTy).Contents (Elt F)) : (⟨S4096x4096x2, .f32⟩ : BufTy).Contents (Elt F)) (subf
      (minimumf (hiCross C A) (broadcastInDim S4096x4096x2 ![0, 1, 2] bcast_S1x4096x2_S4096x4096x2_0_1_2 (hiJ C A) : (⟨S4096x4096x2, .f32⟩ : BufTy).Contents (Elt F)) : (⟨S4096x4096x2, .f32⟩ : BufTy).Contents (Elt F))
      (maximumf (loCross C A) (broadcastInDim S4096x4096x2 ![0, 1, 2] bcast_S1x4096x2_S4096x4096x2_0_1_2 (loJ C A) : (⟨S4096x4096x2, .f32⟩ : BufTy).Contents (Elt F)) : (⟨S4096x4096x2, .f32⟩ : BufTy).Contents (Elt F)) : (⟨S4096x4096x2, .f32⟩ : BufTy).Contents (Elt F))

/-- %79 … %83: on box j's axes, the union's length. -/
def unionJ (C : (⟨S4096x4x2, .f32⟩ : BufTy).Contents (Elt F)) (A : (⟨S4096x2x2, .f32⟩ : BufTy).Contents (Elt F)) : (⟨S4096x4096x2, .f32⟩ : BufTy).Contents (Elt F) :=
  subf
    (addf (subf (hiCross C A) (loCross C A) : (⟨S4096x4096x2, .f32⟩ : BufTy).Contents (Elt F))
      (broadcastInDim S4096x4096x2 ![0, 1, 2] bcast_S1x4096x2_S4096x4096x2_0_1_2 (subf (hiJ C A) (loJ C A) : (⟨S1x4096x2, .f32⟩ : BufTy).Contents (Elt F)) : (⟨S4096x4096x2, .f32⟩ : BufTy).Contents (Elt F)) : (⟨S4096x4096x2, .f32⟩ : BufTy).Contents (Elt F))
    (interJ C A)

/-- %84 … %88: on box j's axes, the enclosing interval's length. -/
def hullJ (C : (⟨S4096x4x2, .f32⟩ : BufTy).Contents (Elt F)) (A : (⟨S4096x2x2, .f32⟩ : BufTy).Contents (Elt F)) : (⟨S4096x4096x2, .f32⟩ : BufTy).Contents (Elt F) :=
  subf
    (maximumf (hiCross C A) (broadcastInDim S4096x4096x2 ![0, 1, 2] bcast_S1x4096x2_S4096x4096x2_0_1_2 (hiJ C A) : (⟨S4096x4096x2, .f32⟩ : BufTy).Contents (Elt F)) : (⟨S4096x4096x2, .f32⟩ : BufTy).Contents (Elt F))
    (minimumf (loCross C A) (broadcastInDim S4096x4096x2 ![0, 1, 2] bcast_S1x4096x2_S4096x4096x2_0_1_2 (loJ C A) : (⟨S4096x4096x2, .f32⟩ : BufTy).Contents (Elt F)) : (⟨S4096x4096x2, .f32⟩ : BufTy).Contents (Elt F))

/-- %89 … %92: on box j's axes, the generalized intersection over union. -/
def giouJ (C : (⟨S4096x4x2, .f32⟩ : BufTy).Contents (Elt F)) (A : (⟨S4096x2x2, .f32⟩ : BufTy).Contents (Elt F)) : (⟨S4096x4096x2, .f32⟩ : BufTy).Contents (Elt F) :=
  subf (Host.divf (interJ C A) (unionJ C A) : (⟨S4096x4096x2, .f32⟩ : BufTy).Contents (Elt F))
    (Host.divf (subf (hullJ C A) (unionJ C A) : (⟨S4096x4096x2, .f32⟩ : BufTy).Contents (Elt F)) (hullJ C A) : (⟨S4096x4096x2, .f32⟩ : BufTy).Contents (Elt F))

/-- operations %40 … %95 (everything up to the last clip, before the diagonal is written): the clipped scores
    f32[4096,4096]: the minimum over the four axes (box i's two, then box j's two) of the generalized intersection
    over union of the projected intervals, clipped below at zero. -/
def scores (C : (⟨S4096x4x2, .f32⟩ : BufTy).Contents (Elt F)) (A : (⟨S4096x2x2, .f32⟩ : BufTy).Contents (Elt F)) : (⟨S4096x4096, .f32⟩ : BufTy).Contents (Elt F) :=
  maximumf
    (broadcastInDim S4096x4096 ![] bcast_S_S4096x4096 (id (constant S_ .f32 0x00000000#32 : (⟨S_, .f32⟩ : BufTy).Contents (Elt F)) : (⟨S_, .f32⟩ : BufTy).Contents (Elt F)) : (⟨S4096x4096, .f32⟩ : BufTy).Contents (Elt F))
    (Host.reduce FloatOps.minimumf
      (concatenate S4096x4096x4 2 [⟨S4096x4096x2, giouI C A⟩, ⟨S4096x4096x2, giouJ C A⟩]
        concatenates_S4096x4096x2_S4096x4096x2_S4096x4096x4_d2 : (⟨S4096x4096x4, .f32⟩ : BufTy).Contents (Elt F))
      (constant S_ .f32 0x7F800000#32 : (⟨S_, .f32⟩ : BufTy).Contents (Elt F)) reducesTo_S4096x4096x4_S4096x4096_d2 h_S_ : (⟨S4096x4096, .f32⟩ : BufTy).Contents (Elt F))

/-! ## The diagonal's scatter (operations %96 … %110) -/

/-- %96: the row numbers i32[4096]. -/
def rowIota : (⟨S4096, .i32⟩ : BufTy).Contents (Elt F) := iotaInDim S4096 32 0

/-- %97 … %101 (and again %102 … %106): the row numbers, 4096 added where negative — which none is. -/
def wrapIota : (⟨S4096, .i32⟩ : BufTy).Contents (Elt F) :=
  select
    (cmpi .slt (rowIota (F := F)) (broadcastInDim S4096 ![] bcast_S_S4096 (constantI S_ 32 0#32 : (⟨S_, .i32⟩ : BufTy).Contents (Elt F)) : (⟨S4096, .i32⟩ : BufTy).Contents (Elt F)) : (⟨S4096, .i1⟩ : BufTy).Contents (Elt F))
    (addi (rowIota (F := F)) (broadcastInDim S4096 ![] bcast_S_S4096 (constantI S_ 32 4096#32 : (⟨S_, .i32⟩ : BufTy).Contents (Elt F)) : (⟨S4096, .i32⟩ : BufTy).Contents (Elt F)) : (⟨S4096, .i32⟩ : BufTy).Contents (Elt F))
    (rowIota (F := F))

/-- operations %96 … %109: the scatter's index array i32[4096,2]: row b is (b, b). -/
def diagIdx : (⟨S4096x2, .i32⟩ : BufTy).Contents (Elt F) :=
  concatenate S4096x2 1 [⟨S4096x1, (broadcastInDim S4096x1 ![0] bcast_S4096_S4096x1_0 (wrapIota (F := F)) : (⟨S4096x1, .i32⟩ : BufTy).Contents (Elt F))⟩, ⟨S4096x1, (broadcastInDim S4096x1 ![0] bcast_S4096_S4096x1_0 (wrapIota (F := F)) : (⟨S4096x1, .i32⟩ : BufTy).Contents (Elt F))⟩] concatenates_S4096x1_S4096x1_S4096x2_d1

/-- operation %110 (over the constant %cst_12): the scatter's update f32[4096], zero everywhere. -/
def diagUpd : (⟨S4096, .f32⟩ : BufTy).Contents (Elt F) :=
  broadcastInDim S4096 ![] bcast_S_S4096 (constant S_ .f32 0x00000000#32 : (⟨S_, .f32⟩ : BufTy).Contents (Elt F))

end Cert.ReferenceIdeal.RefRun

end
-- ==== Proof.Link.lean ====
/-
  The two programs compute the boxes' corners and edge axes by the same host lines.

  Both begin with the same forty-one operations on the boxes array (the four sign pairs scaled by the half extents,
  rotated by the angle, moved to the centre; then corner 1 − corner 0 and corner 3 − corner 0), so what the tile
  region finds as corners and axes is, term for term, the array program's corners and axes of the same boxes.
-/
import proofs.«131896_j59760174957246_2_alg».proof.Proof.KWin
import proofs.«131896_j59760174957246_2_alg».proof.Proof.RefTerms
import proofs.«131896_j59760174957246_2_alg».proof.Proof.Gen.ReferenceIdeal

noncomputable section

namespace Cert.Link

open Idealize.ShloMosaic Idealize.ShloMosaic.TcCoe Idealize.SL.Sem Idealize.ShloMosaic.StableHlo
open Cert.KernelIdeal Cert.KernelIdeal.Gen Cert.KernelIdeal.GenP Cert.KernelIdeal.KVal

variable {F : FTy → Type} [FloatOps F]
variable (m : (ℓ : Loc nD τ sig) → Buf (Elt F) ℓ)

theorem corners_eq (c : Dev nD) :
    cornersK m c = Cert.ReferenceIdeal.RefRun.corners (F := F) (m ((c : Thread nD τ).loc main_arg0)) := by
  dsimp only [cornersK, V, hostOps0]
  after_results_simp
  rfl

theorem axes_eq (c : Dev nD) :
    axesK m c = Cert.ReferenceIdeal.RefRun.axes (F := F) (cornersK m c) := by
  dsimp only [axesK, cornersK, V, hostOps0]
  after_results_simp
  rfl

end Cert.Link

end
-- ==== Proof.RefRun.lean ====
/-
  The reference program's run. @main is a straight line of 133 host operations — the three calls of the
  module-local clipping functions are their bodies' three operations each, at the call's own buffers — so every
  weakly fair execution terminates with each buffer at the operations' fold over the launch contents
  (Lib/StableHlo/Run.lean `run_seq`), and the argument buffer, which no operation writes, is unchanged.
-/
import proofs.«131896_j59760174957246_2_alg».proof.Proof.Gen.ReferenceIdeal
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F]

/-- @main's 133 operations, in order: its own 124, and at each of the three calls the callee's three (the
    conversion of the scalar bound, its broadcast, the maximum) over that call's buffers. -/
abbrev ops : List (HloOp τ sig (Elt F)) :=
  [ nullary main_cst (fun i => FloatOps.ofBits .f32 (lit0 (S4x2.rowMajor i))),
    unary main_arg0 main_v0 ((extractStridedSlice S4096x2 ![0, 0] · slices_S4096x5_S4096x2_0_0) : (⟨S4096x5, .f32⟩ : BufTy).Contents (Elt F) → (⟨S4096x2, .f32⟩ : BufTy).Contents (Elt F)),
    unary main_arg0 main_v1 ((extractStridedSlice S4096x2 ![0, 2] · slices_S4096x5_S4096x2_0_2) : (⟨S4096x5, .f32⟩ : BufTy).Contents (Elt F) → (⟨S4096x2, .f32⟩ : BufTy).Contents (Elt F)),
    unary main_arg0 main_v2 ((extractStridedSlice S4096x1 ![0, 4] · slices_S4096x5_S4096x1_0_4) : (⟨S4096x5, .f32⟩ : BufTy).Contents (Elt F) → (⟨S4096x1, .f32⟩ : BufTy).Contents (Elt F)),
    reshape main_v2 main_v3 rfl shapeCasts_S4096x1_S4096,
    unary main_cst main_v4 (broadcastInDim S1x4x2 ![1, 2] bcast_S4x2_S1x4x2_1_2 : (⟨S4x2, .f32⟩ : BufTy).Contents (Elt F) → (⟨S1x4x2, .f32⟩ : BufTy).Contents (Elt F)),
    nullary main_cst_0 (constant S_ .f32 0x3F000000#32),
    unary main_cst_0 main_v5 (broadcastInDim S4096x2 ![] bcast_S_S4096x2 : (⟨S_, .f32⟩ : BufTy).Contents (Elt F) → (⟨S4096x2, .f32⟩ : BufTy).Contents (Elt F)),
    binary main_v1 main_v5 main_v6 (mulf : (⟨S4096x2, .f32⟩ : BufTy).Contents (Elt F) → (⟨S4096x2, .f32⟩ : BufTy).Contents (Elt F) → (⟨S4096x2, .f32⟩ : BufTy).Contents (Elt F)),
    unary main_v6 main_v7 (broadcastInDim S4096x1x2 ![0, 2] bcast_S4096x2_S4096x1x2_0_2 : (⟨S4096x2, .f32⟩ : BufTy).Contents (Elt F) → (⟨S4096x1x2, .f32⟩ : BufTy).Contents (Elt F)),
    unary main_v4 main_v8 (broadcastInDim S4096x4x2 ![0, 1, 2] bcast_S1x4x2_S4096x4x2_0_1_2 : (⟨S1x4x2, .f32⟩ : BufTy).Contents (Elt F) → (⟨S4096x4x2, .f32⟩ : BufTy).Contents (Elt F)),
    unary main_v7 main_v9 (broadcastInDim S4096x4x2 ![0, 1, 2] bcast_S4096x1x2_S4096x4x2_0_1_2 : (⟨S4096x1x2, .f32⟩ : BufTy).Contents (Elt F) → (⟨S4096x4x2, .f32⟩ : BufTy).Contents (Elt F)),
    binary main_v8 main_v9 main_v10 (mulf : (⟨S4096x4x2, .f32⟩ : BufTy).Contents (Elt F) → (⟨S4096x4x2, .f32⟩ : BufTy).Contents (Elt F) → (⟨S4096x4x2, .f32⟩ : BufTy).Contents (Elt F)),
    unary main_v3 main_v11 (Host.cos : (⟨S4096, .f32⟩ : BufTy).Contents (Elt F) → (⟨S4096, .f32⟩ : BufTy).Contents (Elt F)),
    unary main_v3 main_v12 (Host.sin : (⟨S4096, .f32⟩ : BufTy).Contents (Elt F) → (⟨S4096, .f32⟩ : BufTy).Contents (Elt F)),
    unary main_v12 main_v13 (Host.negf : (⟨S4096, .f32⟩ : BufTy).Contents (Elt F) → (⟨S4096, .f32⟩ : BufTy).Contents (Elt F)),
    unary main_v11 main_v14 (broadcastInDim S4096x1 ![0] bcast_S4096_S4096x1_0 : (⟨S4096, .f32⟩ : BufTy).Contents (Elt F) → (⟨S4096x1, .f32⟩ : BufTy).Contents (Elt F)),
    unary main_v13 main_v15 (broadcastInDim S4096x1 ![0] bcast_S4096_S4096x1_0 : (⟨S4096, .f32⟩ : BufTy).Contents (Elt F) → (⟨S4096x1, .f32⟩ : BufTy).Contents (Elt F)),
    binary main_v14 main_v15 main_v16 ((fun a b => concatenate S4096x2 1 [⟨S4096x1, a⟩, ⟨S4096x1, b⟩] concatenates_S4096x1_S4096x1_S4096x2_d1) : (⟨S4096x1, .f32⟩ : BufTy).Contents (Elt F) → (⟨S4096x1, .f32⟩ : BufTy).Contents (Elt F) → (⟨S4096x2, .f32⟩ : BufTy).Contents (Elt F)),
    unary main_v12 main_v17 (broadcastInDim S4096x1 ![0] bcast_S4096_S4096x1_0 : (⟨S4096, .f32⟩ : BufTy).Contents (Elt F) → (⟨S4096x1, .f32⟩ : BufTy).Contents (Elt F)),
    unary main_v11 main_v18 (broadcastInDim S4096x1 ![0] bcast_S4096_S4096x1_0 : (⟨S4096, .f32⟩ : BufTy).Contents (Elt F) → (⟨S4096x1, .f32⟩ : BufTy).Contents (Elt F)),
    binary main_v17 main_v18 main_v19 ((fun a b => concatenate S4096x2 1 [⟨S4096x1, a⟩, ⟨S4096x1, b⟩] concatenates_S4096x1_S4096x1_S4096x2_d1) : (⟨S4096x1, .f32⟩ : BufTy).Contents (Elt F) → (⟨S4096x1, .f32⟩ : BufTy).Contents (Elt F) → (⟨S4096x2, .f32⟩ : BufTy).Contents (Elt F)),
    unary main_v16 main_v20 (broadcastInDim S4096x1x2 ![0, 2] bcast_S4096x2_S4096x1x2_0_2 : (⟨S4096x2, .f32⟩ : BufTy).Contents (Elt F) → (⟨S4096x1x2, .f32⟩ : BufTy).Contents (Elt F)),
    unary main_v19 main_v21 (broadcastInDim S4096x1x2 ![0, 2] bcast_S4096x2_S4096x1x2_0_2 : (⟨S4096x2, .f32⟩ : BufTy).Contents (Elt F) → (⟨S4096x1x2, .f32⟩ : BufTy).Contents (Elt F)),
    binary main_v20 main_v21 main_v22 ((fun a b => concatenate S4096x2x2 1 [⟨S4096x1x2, a⟩, ⟨S4096x1x2, b⟩] concatenates_S4096x1x2_S4096x1x2_S4096x2x2_d1) : (⟨S4096x1x2, .f32⟩ : BufTy).Contents (Elt F) → (⟨S4096x1x2, .f32⟩ : BufTy).Contents (Elt F) → (⟨S4096x2x2, .f32⟩ : BufTy).Contents (Elt F)),
    binary main_v10 main_v22 main_v23 ((fun l r => Host.dotGeneral dot_S4096x4x2_S4096x2x2_S4096x4x2_2_1_1_2_0_0 none l r) : (⟨S4096x4x2, .f32⟩ : BufTy).Contents (Elt F) → (⟨S4096x2x2, .f32⟩ : BufTy).Contents (Elt F) → (⟨S4096x4x2, .f32⟩ : BufTy).Contents (Elt F)),
    unary main_v0 main_v24 (broadcastInDim S4096x1x2 ![0, 2] bcast_S4096x2_S4096x1x2_0_2 : (⟨S4096x2, .f32⟩ : BufTy).Contents (Elt F) → (⟨S4096x1x2, .f32⟩ : BufTy).Contents (Elt F)),
    unary main_v24 main_v25 (broadcastInDim S4096x4x2 ![0, 1, 2] bcast_S4096x1x2_S4096x4x2_0_1_2 : (⟨S4096x1x2, .f32⟩ : BufTy).Contents (Elt F) → (⟨S4096x4x2, .f32⟩ : BufTy).Contents (Elt F)),
    binary main_v23 main_v25 main_v26 (addf : (⟨S4096x4x2, .f32⟩ : BufTy).Contents (Elt F) → (⟨S4096x4x2, .f32⟩ : BufTy).Contents (Elt F) → (⟨S4096x4x2, .f32⟩ : BufTy).Contents (Elt F)),
    unary main_v26 main_v27 ((extractStridedSlice S4096x1x2 ![0, 1, 0] · slices_S4096x4x2_S4096x1x2_0_1_0) : (⟨S4096x4x2, .f32⟩ : BufTy).Contents (Elt F) → (⟨S4096x1x2, .f32⟩ : BufTy).Contents (Elt F)),
    reshape main_v27 main_v28 rfl shapeCasts_S4096x1x2_S4096x2,
    unary main_v26 main_v29 ((extractStridedSlice S4096x1x2 ![0, 0, 0] · slices_S4096x4x2_S4096x1x2_0_0_0) : (⟨S4096x4x2, .f32⟩ : BufTy).Contents (Elt F) → (⟨S4096x1x2, .f32⟩ : BufTy).Contents (Elt F)),
    reshape main_v29 main_v30 rfl shapeCasts_S4096x1x2_S4096x2,
    binary main_v28 main_v30 main_v31 (subf : (⟨S4096x2, .f32⟩ : BufTy).Contents (Elt F) → (⟨S4096x2, .f32⟩ : BufTy).Contents (Elt F) → (⟨S4096x2, .f32⟩ : BufTy).Contents (Elt F)),
    unary main_v26 main_v32 ((extractStridedSlice S4096x1x2 ![0, 3, 0] · slices_S4096x4x2_S4096x1x2_0_3_0) : (⟨S4096x4x2, .f32⟩ : BufTy).Contents (Elt F) → (⟨S4096x1x2, .f32⟩ : BufTy).Contents (Elt F)),
    reshape main_v32 main_v33 rfl shapeCasts_S4096x1x2_S4096x2,
    unary main_v26 main_v34 ((extractStridedSlice S4096x1x2 ![0, 0, 0] · slices_S4096x4x2_S4096x1x2_0_0_0) : (⟨S4096x4x2, .f32⟩ : BufTy).Contents (Elt F) → (⟨S4096x1x2, .f32⟩ : BufTy).Contents (Elt F)),
    reshape main_v34 main_v35 rfl shapeCasts_S4096x1x2_S4096x2,
    binary main_v33 main_v35 main_v36 (subf : (⟨S4096x2, .f32⟩ : BufTy).Contents (Elt F) → (⟨S4096x2, .f32⟩ : BufTy).Contents (Elt F) → (⟨S4096x2, .f32⟩ : BufTy).Contents (Elt F)),
    unary main_v31 main_v37 (broadcastInDim S4096x1x2 ![0, 2] bcast_S4096x2_S4096x1x2_0_2 : (⟨S4096x2, .f32⟩ : BufTy).Contents (Elt F) → (⟨S4096x1x2, .f32⟩ : BufTy).Contents (Elt F)),
    unary main_v36 main_v38 (broadcastInDim S4096x1x2 ![0, 2] bcast_S4096x2_S4096x1x2_0_2 : (⟨S4096x2, .f32⟩ : BufTy).Contents (Elt F) → (⟨S4096x1x2, .f32⟩ : BufTy).Contents (Elt F)),
    binary main_v37 main_v38 main_v39 ((fun a b => concatenate S4096x2x2 1 [⟨S4096x1x2, a⟩, ⟨S4096x1x2, b⟩] concatenates_S4096x1x2_S4096x1x2_S4096x2x2_d1) : (⟨S4096x1x2, .f32⟩ : BufTy).Contents (Elt F) → (⟨S4096x1x2, .f32⟩ : BufTy).Contents (Elt F) → (⟨S4096x2x2, .f32⟩ : BufTy).Contents (Elt F)),
    binary main_v39 main_v26 main_v40 ((fun l r => Host.dotGeneral dot_S4096x2x2_S4096x4x2_S4096x2x4_2_2_1_1_0_0 none l r) : (⟨S4096x2x2, .f32⟩ : BufTy).Contents (Elt F) → (⟨S4096x4x2, .f32⟩ : BufTy).Contents (Elt F) → (⟨S4096x2x4, .f32⟩ : BufTy).Contents (Elt F)),
    nullary main_cst_1 (constant S_ .f32 0x7F800000#32),
    binary main_v40 main_cst_1 main_v41 ((fun x v => Host.reduce FloatOps.minimumf x v reducesTo_S4096x2x4_S4096x2_d2 h_S_) : (⟨S4096x2x4, .f32⟩ : BufTy).Contents (Elt F) → (⟨S_, .f32⟩ : BufTy).Contents (Elt F) → (⟨S4096x2, .f32⟩ : BufTy).Contents (Elt F)),
    nullary main_cst_2 (constant S_ .f32 0xFF800000#32),
    binary main_v40 main_cst_2 main_v42 ((fun x v => Host.reduce FloatOps.maximumf x v reducesTo_S4096x2x4_S4096x2_d2 h_S_) : (⟨S4096x2x4, .f32⟩ : BufTy).Contents (Elt F) → (⟨S_, .f32⟩ : BufTy).Contents (Elt F) → (⟨S4096x2, .f32⟩ : BufTy).Contents (Elt F)),
    binary main_v39 main_v26 main_v43 ((fun l r => Host.dotGeneral dot_S4096x2x2_S4096x4x2_S4096x2x4096x4_2_2_01_01_n_n none l r) : (⟨S4096x2x2, .f32⟩ : BufTy).Contents (Elt F) → (⟨S4096x4x2, .f32⟩ : BufTy).Contents (Elt F) → (⟨S4096x2x4096x4, .f32⟩ : BufTy).Contents (Elt F)),
    unary main_v43 main_v44 ((transpose S4096x4096x2x4 [2, 0, 1, 3] · transposes_S4096x2x4096x4_S4096x4096x2x4_2_0_1_3) : (⟨S4096x2x4096x4, .f32⟩ : BufTy).Contents (Elt F) → (⟨S4096x4096x2x4, .f32⟩ : BufTy).Contents (Elt F)),
    nullary main_cst_3 (constant S_ .f32 0x7F800000#32),
    binary main_v44 main_cst_3 main_v45 ((fun x v => Host.reduce FloatOps.minimumf x v reducesTo_S4096x4096x2x4_S4096x4096x2_d3 h_S_) : (⟨S4096x4096x2x4, .f32⟩ : BufTy).Contents (Elt F) → (⟨S_, .f32⟩ : BufTy).Contents (Elt F) → (⟨S4096x4096x2, .f32⟩ : BufTy).Contents (Elt F)),
    nullary main_cst_4 (constant S_ .f32 0xFF800000#32),
    binary main_v44 main_cst_4 main_v46 ((fun x v => Host.reduce FloatOps.maximumf x v reducesTo_S4096x4096x2x4_S4096x4096x2_d3 h_S_) : (⟨S4096x4096x2x4, .f32⟩ : BufTy).Contents (Elt F) → (⟨S_, .f32⟩ : BufTy).Contents (Elt F) → (⟨S4096x4096x2, .f32⟩ : BufTy).Contents (Elt F)),
    unary main_v45 main_v47 ((transpose S4096x4096x2 [1, 0, 2] · transposes_S4096x4096x2_S4096x4096x2_1_0_2) : (⟨S4096x4096x2, .f32⟩ : BufTy).Contents (Elt F) → (⟨S4096x4096x2, .f32⟩ : BufTy).Contents (Elt F)),
    unary main_v46 main_v48 ((transpose S4096x4096x2 [1, 0, 2] · transposes_S4096x4096x2_S4096x4096x2_1_0_2) : (⟨S4096x4096x2, .f32⟩ : BufTy).Contents (Elt F) → (⟨S4096x4096x2, .f32⟩ : BufTy).Contents (Elt F)),
    unary main_v41 main_v49 (broadcastInDim S4096x1x2 ![0, 2] bcast_S4096x2_S4096x1x2_0_2 : (⟨S4096x2, .f32⟩ : BufTy).Contents (Elt F) → (⟨S4096x1x2, .f32⟩ : BufTy).Contents (Elt F)),
    unary main_v42 main_v50 (broadcastInDim S4096x1x2 ![0, 2] bcast_S4096x2_S4096x1x2_0_2 : (⟨S4096x2, .f32⟩ : BufTy).Contents (Elt F) → (⟨S4096x1x2, .f32⟩ : BufTy).Contents (Elt F)),
    unary main_v50 main_v51 (broadcastInDim S4096x4096x2 ![0, 1, 2] bcast_S4096x1x2_S4096x4096x2_0_1_2 : (⟨S4096x1x2, .f32⟩ : BufTy).Contents (Elt F) → (⟨S4096x4096x2, .f32⟩ : BufTy).Contents (Elt F)),
    binary main_v51 main_v48 main_v52 (minimumf : (⟨S4096x4096x2, .f32⟩ : BufTy).Contents (Elt F) → (⟨S4096x4096x2, .f32⟩ : BufTy).Contents (Elt F) → (⟨S4096x4096x2, .f32⟩ : BufTy).Contents (Elt F)),
    unary main_v49 main_v53 (broadcastInDim S4096x4096x2 ![0, 1, 2] bcast_S4096x1x2_S4096x4096x2_0_1_2 : (⟨S4096x1x2, .f32⟩ : BufTy).Contents (Elt F) → (⟨S4096x4096x2, .f32⟩ : BufTy).Contents (Elt F)),
    binary main_v53 main_v47 main_v54 (maximumf : (⟨S4096x4096x2, .f32⟩ : BufTy).Contents (Elt F) → (⟨S4096x4096x2, .f32⟩ : BufTy).Contents (Elt F) → (⟨S4096x4096x2, .f32⟩ : BufTy).Contents (Elt F)),
    binary main_v52 main_v54 main_v55 (subf : (⟨S4096x4096x2, .f32⟩ : BufTy).Contents (Elt F) → (⟨S4096x4096x2, .f32⟩ : BufTy).Contents (Elt F) → (⟨S4096x4096x2, .f32⟩ : BufTy).Contents (Elt F)),
    nullary main_cst_5 (constant S_ .f32 0x00000000#32),
    TRef.unary (.of main_cst_5) main_call0.v0 id,
    TRef.unary main_call0.v0 main_call0.v1 (broadcastInDim S4096x4096x2 ![] bcast_S_S4096x4096x2),
    TRef.binary main_call0.v1 (.of main_v55) main_call0.v2 maximumf,
    binary main_v50 main_v49 main_v57 (subf : (⟨S4096x1x2, .f32⟩ : BufTy).Contents (Elt F) → (⟨S4096x1x2, .f32⟩ : BufTy).Contents (Elt F) → (⟨S4096x1x2, .f32⟩ : BufTy).Contents (Elt F)),
    binary main_v48 main_v47 main_v58 (subf : (⟨S4096x4096x2, .f32⟩ : BufTy).Contents (Elt F) → (⟨S4096x4096x2, .f32⟩ : BufTy).Contents (Elt F) → (⟨S4096x4096x2, .f32⟩ : BufTy).Contents (Elt F)),
    unary main_v57 main_v59 (broadcastInDim S4096x4096x2 ![0, 1, 2] bcast_S4096x1x2_S4096x4096x2_0_1_2 : (⟨S4096x1x2, .f32⟩ : BufTy).Contents (Elt F) → (⟨S4096x4096x2, .f32⟩ : BufTy).Contents (Elt F)),
    binary main_v59 main_v58 main_v60 (addf : (⟨S4096x4096x2, .f32⟩ : BufTy).Contents (Elt F) → (⟨S4096x4096x2, .f32⟩ : BufTy).Contents (Elt F) → (⟨S4096x4096x2, .f32⟩ : BufTy).Contents (Elt F)),
    binary main_v60 main_v56 main_v61 (subf : (⟨S4096x4096x2, .f32⟩ : BufTy).Contents (Elt F) → (⟨S4096x4096x2, .f32⟩ : BufTy).Contents (Elt F) → (⟨S4096x4096x2, .f32⟩ : BufTy).Contents (Elt F)),
    unary main_v50 main_v62 (broadcastInDim S4096x4096x2 ![0, 1, 2] bcast_S4096x1x2_S4096x4096x2_0_1_2 : (⟨S4096x1x2, .f32⟩ : BufTy).Contents (Elt F) → (⟨S4096x4096x2, .f32⟩ : BufTy).Contents (Elt F)),
    binary main_v62 main_v48 main_v63 (maximumf : (⟨S4096x4096x2, .f32⟩ : BufTy).Contents (Elt F) → (⟨S4096x4096x2, .f32⟩ : BufTy).Contents (Elt F) → (⟨S4096x4096x2, .f32⟩ : BufTy).Contents (Elt F)),
    unary main_v49 main_v64 (broadcastInDim S4096x4096x2 ![0, 1, 2] bcast_S4096x1x2_S4096x4096x2_0_1_2 : (⟨S4096x1x2, .f32⟩ : BufTy).Contents (Elt F) → (⟨S4096x4096x2, .f32⟩ : BufTy).Contents (Elt F)),
    binary main_v64 main_v47 main_v65 (minimumf : (⟨S4096x4096x2, .f32⟩ : BufTy).Contents (Elt F) → (⟨S4096x4096x2, .f32⟩ : BufTy).Contents (Elt F) → (⟨S4096x4096x2, .f32⟩ : BufTy).Contents (Elt F)),
    binary main_v63 main_v65 main_v66 (subf : (⟨S4096x4096x2, .f32⟩ : BufTy).Contents (Elt F) → (⟨S4096x4096x2, .f32⟩ : BufTy).Contents (Elt F) → (⟨S4096x4096x2, .f32⟩ : BufTy).Contents (Elt F)),
    binary main_v56 main_v61 main_v67 (Host.divf : (⟨S4096x4096x2, .f32⟩ : BufTy).Contents (Elt F) → (⟨S4096x4096x2, .f32⟩ : BufTy).Contents (Elt F) → (⟨S4096x4096x2, .f32⟩ : BufTy).Contents (Elt F)),
    binary main_v66 main_v61 main_v68 (subf : (⟨S4096x4096x2, .f32⟩ : BufTy).Contents (Elt F) → (⟨S4096x4096x2, .f32⟩ : BufTy).Contents (Elt F) → (⟨S4096x4096x2, .f32⟩ : BufTy).Contents (Elt F)),
    binary main_v68 main_v66 main_v69 (Host.divf : (⟨S4096x4096x2, .f32⟩ : BufTy).Contents (Elt F) → (⟨S4096x4096x2, .f32⟩ : BufTy).Contents (Elt F) → (⟨S4096x4096x2, .f32⟩ : BufTy).Contents (Elt F)),
    binary main_v67 main_v69 main_v70 (subf : (⟨S4096x4096x2, .f32⟩ : BufTy).Contents (Elt F) → (⟨S4096x4096x2, .f32⟩ : BufTy).Contents (Elt F) → (⟨S4096x4096x2, .f32⟩ : BufTy).Contents (Elt F)),
    unary main_v41 main_v71 (broadcastInDim S1x4096x2 ![1, 2] bcast_S4096x2_S1x4096x2_1_2 : (⟨S4096x2, .f32⟩ : BufTy).Contents (Elt F) → (⟨S1x4096x2, .f32⟩ : BufTy).Contents (Elt F)),
    unary main_v42 main_v72 (broadcastInDim S1x4096x2 ![1, 2] bcast_S4096x2_S1x4096x2_1_2 : (⟨S4096x2, .f32⟩ : BufTy).Contents (Elt F) → (⟨S1x4096x2, .f32⟩ : BufTy).Contents (Elt F)),
    unary main_v72 main_v73 (broadcastInDim S4096x4096x2 ![0, 1, 2] bcast_S1x4096x2_S4096x4096x2_0_1_2 : (⟨S1x4096x2, .f32⟩ : BufTy).Contents (Elt F) → (⟨S4096x4096x2, .f32⟩ : BufTy).Contents (Elt F)),
    binary main_v46 main_v73 main_v74 (minimumf : (⟨S4096x4096x2, .f32⟩ : BufTy).Contents (Elt F) → (⟨S4096x4096x2, .f32⟩ : BufTy).Contents (Elt F) → (⟨S4096x4096x2, .f32⟩ : BufTy).Contents (Elt F)),
    unary main_v71 main_v75 (broadcastInDim S4096x4096x2 ![0, 1, 2] bcast_S1x4096x2_S4096x4096x2_0_1_2 : (⟨S1x4096x2, .f32⟩ : BufTy).Contents (Elt F) → (⟨S4096x4096x2, .f32⟩ : BufTy).Contents (Elt F)),
    binary main_v45 main_v75 main_v76 (maximumf : (⟨S4096x4096x2, .f32⟩ : BufTy).Contents (Elt F) → (⟨S4096x4096x2, .f32⟩ : BufTy).Contents (Elt F) → (⟨S4096x4096x2, .f32⟩ : BufTy).Contents (Elt F)),
    binary main_v74 main_v76 main_v77 (subf : (⟨S4096x4096x2, .f32⟩ : BufTy).Contents (Elt F) → (⟨S4096x4096x2, .f32⟩ : BufTy).Contents (Elt F) → (⟨S4096x4096x2, .f32⟩ : BufTy).Contents (Elt F)),
    nullary main_cst_6 (constant S_ .f32 0x00000000#32),
    TRef.unary (.of main_cst_6) main_call1.v0 id,
    TRef.unary main_call1.v0 main_call1.v1 (broadcastInDim S4096x4096x2 ![] bcast_S_S4096x4096x2),
    TRef.binary main_call1.v1 (.of main_v77) main_call1.v2 maximumf,
    binary main_v46 main_v45 main_v79 (subf : (⟨S4096x4096x2, .f32⟩ : BufTy).Contents (Elt F) → (⟨S4096x4096x2, .f32⟩ : BufTy).Contents (Elt F) → (⟨S4096x4096x2, .f32⟩ : BufTy).Contents (Elt F)),
    binary main_v72 main_v71 main_v80 (subf : (⟨S1x4096x2, .f32⟩ : BufTy).Contents (Elt F) → (⟨S1x4096x2, .f32⟩ : BufTy).Contents (Elt F) → (⟨S1x4096x2, .f32⟩ : BufTy).Contents (Elt F)),
    unary main_v80 main_v81 (broadcastInDim S4096x4096x2 ![0, 1, 2] bcast_S1x4096x2_S4096x4096x2_0_1_2 : (⟨S1x4096x2, .f32⟩ : BufTy).Contents (Elt F) → (⟨S4096x4096x2, .f32⟩ : BufTy).Contents (Elt F)),
    binary main_v79 main_v81 main_v82 (addf : (⟨S4096x4096x2, .f32⟩ : BufTy).Contents (Elt F) → (⟨S4096x4096x2, .f32⟩ : BufTy).Contents (Elt F) → (⟨S4096x4096x2, .f32⟩ : BufTy).Contents (Elt F)),
    binary main_v82 main_v78 main_v83 (subf : (⟨S4096x4096x2, .f32⟩ : BufTy).Contents (Elt F) → (⟨S4096x4096x2, .f32⟩ : BufTy).Contents (Elt F) → (⟨S4096x4096x2, .f32⟩ : BufTy).Contents (Elt F)),
    unary main_v72 main_v84 (broadcastInDim S4096x4096x2 ![0, 1, 2] bcast_S1x4096x2_S4096x4096x2_0_1_2 : (⟨S1x4096x2, .f32⟩ : BufTy).Contents (Elt F) → (⟨S4096x4096x2, .f32⟩ : BufTy).Contents (Elt F)),
    binary main_v46 main_v84 main_v85 (maximumf : (⟨S4096x4096x2, .f32⟩ : BufTy).Contents (Elt F) → (⟨S4096x4096x2, .f32⟩ : BufTy).Contents (Elt F) → (⟨S4096x4096x2, .f32⟩ : BufTy).Contents (Elt F)),
    unary main_v71 main_v86 (broadcastInDim S4096x4096x2 ![0, 1, 2] bcast_S1x4096x2_S4096x4096x2_0_1_2 : (⟨S1x4096x2, .f32⟩ : BufTy).Contents (Elt F) → (⟨S4096x4096x2, .f32⟩ : BufTy).Contents (Elt F)),
    binary main_v45 main_v86 main_v87 (minimumf : (⟨S4096x4096x2, .f32⟩ : BufTy).Contents (Elt F) → (⟨S4096x4096x2, .f32⟩ : BufTy).Contents (Elt F) → (⟨S4096x4096x2, .f32⟩ : BufTy).Contents (Elt F)),
    binary main_v85 main_v87 main_v88 (subf : (⟨S4096x4096x2, .f32⟩ : BufTy).Contents (Elt F) → (⟨S4096x4096x2, .f32⟩ : BufTy).Contents (Elt F) → (⟨S4096x4096x2, .f32⟩ : BufTy).Contents (Elt F)),
    binary main_v78 main_v83 main_v89 (Host.divf : (⟨S4096x4096x2, .f32⟩ : BufTy).Contents (Elt F) → (⟨S4096x4096x2, .f32⟩ : BufTy).Contents (Elt F) → (⟨S4096x4096x2, .f32⟩ : BufTy).Contents (Elt F)),
    binary main_v88 main_v83 main_v90 (subf : (⟨S4096x4096x2, .f32⟩ : BufTy).Contents (Elt F) → (⟨S4096x4096x2, .f32⟩ : BufTy).Contents (Elt F) → (⟨S4096x4096x2, .f32⟩ : BufTy).Contents (Elt F)),
    binary main_v90 main_v88 main_v91 (Host.divf : (⟨S4096x4096x2, .f32⟩ : BufTy).Contents (Elt F) → (⟨S4096x4096x2, .f32⟩ : BufTy).Contents (Elt F) → (⟨S4096x4096x2, .f32⟩ : BufTy).Contents (Elt F)),
    binary main_v89 main_v91 main_v92 (subf : (⟨S4096x4096x2, .f32⟩ : BufTy).Contents (Elt F) → (⟨S4096x4096x2, .f32⟩ : BufTy).Contents (Elt F) → (⟨S4096x4096x2, .f32⟩ : BufTy).Contents (Elt F)),
    binary main_v70 main_v92 main_v93 ((fun a b => concatenate S4096x4096x4 2 [⟨S4096x4096x2, a⟩, ⟨S4096x4096x2, b⟩] concatenates_S4096x4096x2_S4096x4096x2_S4096x4096x4_d2) : (⟨S4096x4096x2, .f32⟩ : BufTy).Contents (Elt F) → (⟨S4096x4096x2, .f32⟩ : BufTy).Contents (Elt F) → (⟨S4096x4096x4, .f32⟩ : BufTy).Contents (Elt F)),
    nullary main_cst_7 (constant S_ .f32 0x7F800000#32),
    binary main_v93 main_cst_7 main_v94 ((fun x v => Host.reduce FloatOps.minimumf x v reducesTo_S4096x4096x4_S4096x4096_d2 h_S_) : (⟨S4096x4096x4, .f32⟩ : BufTy).Contents (Elt F) → (⟨S_, .f32⟩ : BufTy).Contents (Elt F) → (⟨S4096x4096, .f32⟩ : BufTy).Contents (Elt F)),
    nullary main_cst_8 (constant S_ .f32 0x00000000#32),
    TRef.unary (.of main_cst_8) main_call2.v0 id,
    TRef.unary main_call2.v0 main_call2.v1 (broadcastInDim S4096x4096 ![] bcast_S_S4096x4096),
    TRef.binary main_call2.v1 (.of main_v94) main_call2.v2 maximumf,
    nullary main_v96 (iotaInDim S4096 32 0),
    nullary main_c (constantI S_ 32 0#32),
    unary main_c main_v97 (broadcastInDim S4096 ![] bcast_S_S4096 : (⟨S_, .i32⟩ : BufTy).Contents (Elt F) → (⟨S4096, .i32⟩ : BufTy).Contents (Elt F)),
    binary main_v96 main_v97 main_v98 (cmpi .slt : (⟨S4096, .i32⟩ : BufTy).Contents (Elt F) → (⟨S4096, .i32⟩ : BufTy).Contents (Elt F) → (⟨S4096, .i1⟩ : BufTy).Contents (Elt F)),
    nullary main_c_9 (constantI S_ 32 4096#32),
    unary main_c_9 main_v99 (broadcastInDim S4096 ![] bcast_S_S4096 : (⟨S_, .i32⟩ : BufTy).Contents (Elt F) → (⟨S4096, .i32⟩ : BufTy).Contents (Elt F)),
    binary main_v96 main_v99 main_v100 (addi : (⟨S4096, .i32⟩ : BufTy).Contents (Elt F) → (⟨S4096, .i32⟩ : BufTy).Contents (Elt F) → (⟨S4096, .i32⟩ : BufTy).Contents (Elt F)),
    ternary main_v98 main_v100 main_v96 main_v101 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    nullary main_c_10 (constantI S_ 32 0#32),
    unary main_c_10 main_v102 (broadcastInDim S4096 ![] bcast_S_S4096 : (⟨S_, .i32⟩ : BufTy).Contents (Elt F) → (⟨S4096, .i32⟩ : BufTy).Contents (Elt F)),
    binary main_v96 main_v102 main_v103 (cmpi .slt : (⟨S4096, .i32⟩ : BufTy).Contents (Elt F) → (⟨S4096, .i32⟩ : BufTy).Contents (Elt F) → (⟨S4096, .i1⟩ : BufTy).Contents (Elt F)),
    nullary main_c_11 (constantI S_ 32 4096#32),
    unary main_c_11 main_v104 (broadcastInDim S4096 ![] bcast_S_S4096 : (⟨S_, .i32⟩ : BufTy).Contents (Elt F) → (⟨S4096, .i32⟩ : BufTy).Contents (Elt F)),
    binary main_v96 main_v104 main_v105 (addi : (⟨S4096, .i32⟩ : BufTy).Contents (Elt F) → (⟨S4096, .i32⟩ : BufTy).Contents (Elt F) → (⟨S4096, .i32⟩ : BufTy).Contents (Elt F)),
    ternary main_v103 main_v105 main_v96 main_v106 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v101 main_v107 (broadcastInDim S4096x1 ![0] bcast_S4096_S4096x1_0 : (⟨S4096, .i32⟩ : BufTy).Contents (Elt F) → (⟨S4096x1, .i32⟩ : BufTy).Contents (Elt F)),
    unary main_v106 main_v108 (broadcastInDim S4096x1 ![0] bcast_S4096_S4096x1_0 : (⟨S4096, .i32⟩ : BufTy).Contents (Elt F) → (⟨S4096x1, .i32⟩ : BufTy).Contents (Elt F)),
    binary main_v107 main_v108 main_v109 ((fun a b => concatenate S4096x2 1 [⟨S4096x1, a⟩, ⟨S4096x1, b⟩] concatenates_S4096x1_S4096x1_S4096x2_d1) : (⟨S4096x1, .i32⟩ : BufTy).Contents (Elt F) → (⟨S4096x1, .i32⟩ : BufTy).Contents (Elt F) → (⟨S4096x2, .i32⟩ : BufTy).Contents (Elt F)),
    nullary main_cst_12 (constant S_ .f32 0x00000000#32),
    unary main_cst_12 main_v110 (broadcastInDim S4096 ![] bcast_S_S4096 : (⟨S_, .f32⟩ : BufTy).Contents (Elt F) → (⟨S4096, .f32⟩ : BufTy).Contents (Elt F)),
    ternary main_v95 main_v109 main_v110 main_v111 ((fun x i u => Host.scatter scatter_S4096x4096_S4096x2_S4096_n_01_01_1 (fun _ b => b) x i u) : (⟨S4096x4096, .f32⟩ : BufTy).Contents (Elt F) → (⟨S4096x2, .i32⟩ : BufTy).Contents (Elt F) → (⟨S4096, .f32⟩ : BufTy).Contents (Elt F) → (⟨S4096x4096, .f32⟩ : BufTy).Contents (Elt F)) ]

-- 133 binds re-associated: the rewrite under the chain recurses once per statement
set_option maxRecDepth 8192 in
set_option maxHeartbeats 4000000 in
/-- @main is that straight line: its three windows and the two callees' definitions unfolded, both sides are one
    chain of `hlo` steps once sequencing is reassociated. -/
theorem main_eq (c : Dev nD) : main (F := F) c = seq ops := by
  simp only [main, main_part0, main_part1, main_part2, fn_clip.body, fn_clip_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., unary_bufs_sub .., unary_bufs_sub .., reshape_bufs_sub .., unary_bufs_sub ..,
    nullary_bufs_sub .., unary_bufs_sub .., binary_bufs_sub .., unary_bufs_sub .., unary_bufs_sub .., unary_bufs_sub ..,
    binary_bufs_sub .., unary_bufs_sub .., unary_bufs_sub .., unary_bufs_sub .., unary_bufs_sub .., unary_bufs_sub ..,
    binary_bufs_sub .., unary_bufs_sub .., unary_bufs_sub .., binary_bufs_sub .., unary_bufs_sub .., unary_bufs_sub ..,
    binary_bufs_sub .., binary_bufs_sub .., unary_bufs_sub .., unary_bufs_sub .., binary_bufs_sub .., unary_bufs_sub ..,
    reshape_bufs_sub .., unary_bufs_sub .., reshape_bufs_sub .., binary_bufs_sub .., unary_bufs_sub .., reshape_bufs_sub ..,
    unary_bufs_sub .., reshape_bufs_sub .., binary_bufs_sub .., unary_bufs_sub .., unary_bufs_sub .., binary_bufs_sub ..,
    binary_bufs_sub .., nullary_bufs_sub .., binary_bufs_sub .., nullary_bufs_sub .., binary_bufs_sub .., binary_bufs_sub ..,
    unary_bufs_sub .., nullary_bufs_sub .., binary_bufs_sub .., nullary_bufs_sub .., binary_bufs_sub .., unary_bufs_sub ..,
    unary_bufs_sub .., unary_bufs_sub .., unary_bufs_sub .., unary_bufs_sub .., binary_bufs_sub .., unary_bufs_sub ..,
    binary_bufs_sub .., binary_bufs_sub .., nullary_bufs_sub .., unary_bufs_sub .., unary_bufs_sub .., binary_bufs_sub ..,
    binary_bufs_sub .., binary_bufs_sub .., unary_bufs_sub .., binary_bufs_sub .., binary_bufs_sub .., unary_bufs_sub ..,
    binary_bufs_sub .., unary_bufs_sub .., binary_bufs_sub .., binary_bufs_sub .., binary_bufs_sub .., binary_bufs_sub ..,
    binary_bufs_sub .., binary_bufs_sub .., unary_bufs_sub .., unary_bufs_sub .., unary_bufs_sub .., binary_bufs_sub ..,
    unary_bufs_sub .., binary_bufs_sub .., binary_bufs_sub .., nullary_bufs_sub .., unary_bufs_sub .., unary_bufs_sub ..,
    binary_bufs_sub .., binary_bufs_sub .., binary_bufs_sub .., unary_bufs_sub .., binary_bufs_sub .., binary_bufs_sub ..,
    unary_bufs_sub .., binary_bufs_sub .., unary_bufs_sub .., binary_bufs_sub .., binary_bufs_sub .., binary_bufs_sub ..,
    binary_bufs_sub .., binary_bufs_sub .., binary_bufs_sub .., binary_bufs_sub .., nullary_bufs_sub .., binary_bufs_sub ..,
    nullary_bufs_sub .., unary_bufs_sub .., unary_bufs_sub .., binary_bufs_sub .., nullary_bufs_sub .., nullary_bufs_sub ..,
    unary_bufs_sub .., binary_bufs_sub .., nullary_bufs_sub .., unary_bufs_sub .., binary_bufs_sub .., ternary_bufs_sub ..,
    nullary_bufs_sub .., unary_bufs_sub .., binary_bufs_sub .., nullary_bufs_sub .., unary_bufs_sub .., binary_bufs_sub ..,
    ternary_bufs_sub .., unary_bufs_sub .., unary_bufs_sub .., binary_bufs_sub .., nullary_bufs_sub .., unary_bufs_sub ..,
    ternary_bufs_sub ..⟩

/-- At the compiled mesh, for any float values, from any memory with zero counters: every weakly fair execution of
    @main on the TensorCore terminates, and every final state has each buffer at the operations' fold over the
    launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

set_option maxRecDepth 8192 in
set_option maxHeartbeats 4000000 in
/-- No operation writes the argument's buffer: after the line it holds what it held. -/
theorem arg0_eq (V : Valuation τ sig (Elt F)) :
    after ops V (main_arg0 : DevRef τ sig) = V (main_arg0 : DevRef τ sig) := by
  after_results_simp

end Cert.ReferenceIdeal.RefRun

end
-- ==== Proof.RefOut.lean ====
/-
  The reference program's result buffer, read once: after the 133 operations the buffer of %111 holds the
  scatter, at the diagonal's indices, of zeros into the clipped scores of the corners and axes computed from
  the argument. The line is cut in five stretches — the corners, the axes, the two pairs of axis scores, their clipped minimum, the scatter — each read
  from an arbitrary valuation (the fold unrolled, each operation's result read at its own buffer and every other
  buffer passed through), and the readings are chained along the concatenation.
-/
import proofs.«131896_j59760174957246_2_alg».proof.Proof.RefRun
import proofs.«131896_j59760174957246_2_alg».proof.Proof.RefTerms

set_option Elab.async false

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F]

/-- The fold over a concatenation is the fold over the second list after the fold over the first. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- The first stretch: operations %cst … %26 (the corners). -/
abbrev opsA1 : List (HloOp τ sig (Elt F)) :=
  [ nullary main_cst (fun i => FloatOps.ofBits .f32 (lit0 (S4x2.rowMajor i))),
    unary main_arg0 main_v0 ((extractStridedSlice S4096x2 ![0, 0] · slices_S4096x5_S4096x2_0_0) : (⟨S4096x5, .f32⟩ : BufTy).Contents (Elt F) → (⟨S4096x2, .f32⟩ : BufTy).Contents (Elt F)),
    unary main_arg0 main_v1 ((extractStridedSlice S4096x2 ![0, 2] · slices_S4096x5_S4096x2_0_2) : (⟨S4096x5, .f32⟩ : BufTy).Contents (Elt F) → (⟨S4096x2, .f32⟩ : BufTy).Contents (Elt F)),
    unary main_arg0 main_v2 ((extractStridedSlice S4096x1 ![0, 4] · slices_S4096x5_S4096x1_0_4) : (⟨S4096x5, .f32⟩ : BufTy).Contents (Elt F) → (⟨S4096x1, .f32⟩ : BufTy).Contents (Elt F)),
    reshape main_v2 main_v3 rfl shapeCasts_S4096x1_S4096,
    unary main_cst main_v4 (broadcastInDim S1x4x2 ![1, 2] bcast_S4x2_S1x4x2_1_2 : (⟨S4x2, .f32⟩ : BufTy).Contents (Elt F) → (⟨S1x4x2, .f32⟩ : BufTy).Contents (Elt F)),
    nullary main_cst_0 (constant S_ .f32 0x3F000000#32),
    unary main_cst_0 main_v5 (broadcastInDim S4096x2 ![] bcast_S_S4096x2 : (⟨S_, .f32⟩ : BufTy).Contents (Elt F) → (⟨S4096x2, .f32⟩ : BufTy).Contents (Elt F)),
    binary main_v1 main_v5 main_v6 (mulf : (⟨S4096x2, .f32⟩ : BufTy).Contents (Elt F) → (⟨S4096x2, .f32⟩ : BufTy).Contents (Elt F) → (⟨S4096x2, .f32⟩ : BufTy).Contents (Elt F)),
    unary main_v6 main_v7 (broadcastInDim S4096x1x2 ![0, 2] bcast_S4096x2_S4096x1x2_0_2 : (⟨S4096x2, .f32⟩ : BufTy).Contents (Elt F) → (⟨S4096x1x2, .f32⟩ : BufTy).Contents (Elt F)),
    unary main_v4 main_v8 (broadcastInDim S4096x4x2 ![0, 1, 2] bcast_S1x4x2_S4096x4x2_0_1_2 : (⟨S1x4x2, .f32⟩ : BufTy).Contents (Elt F) → (⟨S4096x4x2, .f32⟩ : BufTy).Contents (Elt F)),
    unary main_v7 main_v9 (broadcastInDim S4096x4x2 ![0, 1, 2] bcast_S4096x1x2_S4096x4x2_0_1_2 : (⟨S4096x1x2, .f32⟩ : BufTy).Contents (Elt F) → (⟨S4096x4x2, .f32⟩ : BufTy).Contents (Elt F)),
    binary main_v8 main_v9 main_v10 (mulf : (⟨S4096x4x2, .f32⟩ : BufTy).Contents (Elt F) → (⟨S4096x4x2, .f32⟩ : BufTy).Contents (Elt F) → (⟨S4096x4x2, .f32⟩ : BufTy).Contents (Elt F)),
    unary main_v3 main_v11 (Host.cos : (⟨S4096, .f32⟩ : BufTy).Contents (Elt F) → (⟨S4096, .f32⟩ : BufTy).Contents (Elt F)),
    unary main_v3 main_v12 (Host.sin : (⟨S4096, .f32⟩ : BufTy).Contents (Elt F) → (⟨S4096, .f32⟩ : BufTy).Contents (Elt F)),
    unary main_v12 main_v13 (Host.negf : (⟨S4096, .f32⟩ : BufTy).Contents (Elt F) → (⟨S4096, .f32⟩ : BufTy).Contents (Elt F)),
    unary main_v11 main_v14 (broadcastInDim S4096x1 ![0] bcast_S4096_S4096x1_0 : (⟨S4096, .f32⟩ : BufTy).Contents (Elt F) → (⟨S4096x1, .f32⟩ : BufTy).Contents (Elt F)),
    unary main_v13 main_v15 (broadcastInDim S4096x1 ![0] bcast_S4096_S4096x1_0 : (⟨S4096, .f32⟩ : BufTy).Contents (Elt F) → (⟨S4096x1, .f32⟩ : BufTy).Contents (Elt F)),
    binary main_v14 main_v15 main_v16 ((fun a b => concatenate S4096x2 1 [⟨S4096x1, a⟩, ⟨S4096x1, b⟩] concatenates_S4096x1_S4096x1_S4096x2_d1) : (⟨S4096x1, .f32⟩ : BufTy).Contents (Elt F) → (⟨S4096x1, .f32⟩ : BufTy).Contents (Elt F) → (⟨S4096x2, .f32⟩ : BufTy).Contents (Elt F)),
    unary main_v12 main_v17 (broadcastInDim S4096x1 ![0] bcast_S4096_S4096x1_0 : (⟨S4096, .f32⟩ : BufTy).Contents (Elt F) → (⟨S4096x1, .f32⟩ : BufTy).Contents (Elt F)),
    unary main_v11 main_v18 (broadcastInDim S4096x1 ![0] bcast_S4096_S4096x1_0 : (⟨S4096, .f32⟩ : BufTy).Contents (Elt F) → (⟨S4096x1, .f32⟩ : BufTy).Contents (Elt F)),
    binary main_v17 main_v18 main_v19 ((fun a b => concatenate S4096x2 1 [⟨S4096x1, a⟩, ⟨S4096x1, b⟩] concatenates_S4096x1_S4096x1_S4096x2_d1) : (⟨S4096x1, .f32⟩ : BufTy).Contents (Elt F) → (⟨S4096x1, .f32⟩ : BufTy).Contents (Elt F) → (⟨S4096x2, .f32⟩ : BufTy).Contents (Elt F)),
    unary main_v16 main_v20 (broadcastInDim S4096x1x2 ![0, 2] bcast_S4096x2_S4096x1x2_0_2 : (⟨S4096x2, .f32⟩ : BufTy).Contents (Elt F) → (⟨S4096x1x2, .f32⟩ : BufTy).Contents (Elt F)),
    unary main_v19 main_v21 (broadcastInDim S4096x1x2 ![0, 2] bcast_S4096x2_S4096x1x2_0_2 : (⟨S4096x2, .f32⟩ : BufTy).Contents (Elt F) → (⟨S4096x1x2, .f32⟩ : BufTy).Contents (Elt F)),
    binary main_v20 main_v21 main_v22 ((fun a b => concatenate S4096x2x2 1 [⟨S4096x1x2, a⟩, ⟨S4096x1x2, b⟩] concatenates_S4096x1x2_S4096x1x2_S4096x2x2_d1) : (⟨S4096x1x2, .f32⟩ : BufTy).Contents (Elt F) → (⟨S4096x1x2, .f32⟩ : BufTy).Contents (Elt F) → (⟨S4096x2x2, .f32⟩ : BufTy).Contents (Elt F)),
    binary main_v10 main_v22 main_v23 ((fun l r => Host.dotGeneral dot_S4096x4x2_S4096x2x2_S4096x4x2_2_1_1_2_0_0 none l r) : (⟨S4096x4x2, .f32⟩ : BufTy).Contents (Elt F) → (⟨S4096x2x2, .f32⟩ : BufTy).Contents (Elt F) → (⟨S4096x4x2, .f32⟩ : BufTy).Contents (Elt F)),
    unary main_v0 main_v24 (broadcastInDim S4096x1x2 ![0, 2] bcast_S4096x2_S4096x1x2_0_2 : (⟨S4096x2, .f32⟩ : BufTy).Contents (Elt F) → (⟨S4096x1x2, .f32⟩ : BufTy).Contents (Elt F)),
    unary main_v24 main_v25 (broadcastInDim S4096x4x2 ![0, 1, 2] bcast_S4096x1x2_S4096x4x2_0_1_2 : (⟨S4096x1x2, .f32⟩ : BufTy).Contents (Elt F) → (⟨S4096x4x2, .f32⟩ : BufTy).Contents (Elt F)),
    binary main_v23 main_v25 main_v26 (addf : (⟨S4096x4x2, .f32⟩ : BufTy).Contents (Elt F) → (⟨S4096x4x2, .f32⟩ : BufTy).Contents (Elt F) → (⟨S4096x4x2, .f32⟩ : BufTy).Contents (Elt F)) ]

/-- The second stretch: operations %27 … %39 (the axes, from the corners). -/
abbrev opsA2 : List (HloOp τ sig (Elt F)) :=
  [ unary main_v26 main_v27 ((extractStridedSlice S4096x1x2 ![0, 1, 0] · slices_S4096x4x2_S4096x1x2_0_1_0) : (⟨S4096x4x2, .f32⟩ : BufTy).Contents (Elt F) → (⟨S4096x1x2, .f32⟩ : BufTy).Contents (Elt F)),
    reshape main_v27 main_v28 rfl shapeCasts_S4096x1x2_S4096x2,
    unary main_v26 main_v29 ((extractStridedSlice S4096x1x2 ![0, 0, 0] · slices_S4096x4x2_S4096x1x2_0_0_0) : (⟨S4096x4x2, .f32⟩ : BufTy).Contents (Elt F) → (⟨S4096x1x2, .f32⟩ : BufTy).Contents (Elt F)),
    reshape main_v29 main_v30 rfl shapeCasts_S4096x1x2_S4096x2,
    binary main_v28 main_v30 main_v31 (subf : (⟨S4096x2, .f32⟩ : BufTy).Contents (Elt F) → (⟨S4096x2, .f32⟩ : BufTy).Contents (Elt F) → (⟨S4096x2, .f32⟩ : BufTy).Contents (Elt F)),
    unary main_v26 main_v32 ((extractStridedSlice S4096x1x2 ![0, 3, 0] · slices_S4096x4x2_S4096x1x2_0_3_0) : (⟨S4096x4x2, .f32⟩ : BufTy).Contents (Elt F) → (⟨S4096x1x2, .f32⟩ : BufTy).Contents (Elt F)),
    reshape main_v32 main_v33 rfl shapeCasts_S4096x1x2_S4096x2,
    unary main_v26 main_v34 ((extractStridedSlice S4096x1x2 ![0, 0, 0] · slices_S4096x4x2_S4096x1x2_0_0_0) : (⟨S4096x4x2, .f32⟩ : BufTy).Contents (Elt F) → (⟨S4096x1x2, .f32⟩ : BufTy).Contents (Elt F)),
    reshape main_v34 main_v35 rfl shapeCasts_S4096x1x2_S4096x2,
    binary main_v33 main_v35 main_v36 (subf : (⟨S4096x2, .f32⟩ : BufTy).Contents (Elt F) → (⟨S4096x2, .f32⟩ : BufTy).Contents (Elt F) → (⟨S4096x2, .f32⟩ : BufTy).Contents (Elt F)),
    unary main_v31 main_v37 (broadcastInDim S4096x1x2 ![0, 2] bcast_S4096x2_S4096x1x2_0_2 : (⟨S4096x2, .f32⟩ : BufTy).Contents (Elt F) → (⟨S4096x1x2, .f32⟩ : BufTy).Contents (Elt F)),
    unary main_v36 main_v38 (broadcastInDim S4096x1x2 ![0, 2] bcast_S4096x2_S4096x1x2_0_2 : (⟨S4096x2, .f32⟩ : BufTy).Contents (Elt F) → (⟨S4096x1x2, .f32⟩ : BufTy).Contents (Elt F)),
    binary main_v37 main_v38 main_v39 ((fun a b => concatenate S4096x2x2 1 [⟨S4096x1x2, a⟩, ⟨S4096x1x2, b⟩] concatenates_S4096x1x2_S4096x1x2_S4096x2x2_d1) : (⟨S4096x1x2, .f32⟩ : BufTy).Contents (Elt F) → (⟨S4096x1x2, .f32⟩ : BufTy).Contents (Elt F) → (⟨S4096x2x2, .f32⟩ : BufTy).Contents (Elt F)) ]

/-- The third stretch: operations %40 … %92 (the two pairs of axis scores), two calls' operations inline. -/
abbrev opsB1 : List (HloOp τ sig (Elt F)) :=
  [ binary main_v39 main_v26 main_v40 ((fun l r => Host.dotGeneral dot_S4096x2x2_S4096x4x2_S4096x2x4_2_2_1_1_0_0 none l r) : (⟨S4096x2x2, .f32⟩ : BufTy).Contents (Elt F) → (⟨S4096x4x2, .f32⟩ : BufTy).Contents (Elt F) → (⟨S4096x2x4, .f32⟩ : BufTy).Contents (Elt F)),
    nullary main_cst_1 (constant S_ .f32 0x7F800000#32),
    binary main_v40 main_cst_1 main_v41 ((fun x v => Host.reduce FloatOps.minimumf x v reducesTo_S4096x2x4_S4096x2_d2 h_S_) : (⟨S4096x2x4, .f32⟩ : BufTy).Contents (Elt F) → (⟨S_, .f32⟩ : BufTy).Contents (Elt F) → (⟨S4096x2, .f32⟩ : BufTy).Contents (Elt F)),
    nullary main_cst_2 (constant S_ .f32 0xFF800000#32),
    binary main_v40 main_cst_2 main_v42 ((fun x v => Host.reduce FloatOps.maximumf x v reducesTo_S4096x2x4_S4096x2_d2 h_S_) : (⟨S4096x2x4, .f32⟩ : BufTy).Contents (Elt F) → (⟨S_, .f32⟩ : BufTy).Contents (Elt F) → (⟨S4096x2, .f32⟩ : BufTy).Contents (Elt F)),
    binary main_v39 main_v26 main_v43 ((fun l r => Host.dotGeneral dot_S4096x2x2_S4096x4x2_S4096x2x4096x4_2_2_01_01_n_n none l r) : (⟨S4096x2x2, .f32⟩ : BufTy).Contents (Elt F) → (⟨S4096x4x2, .f32⟩ : BufTy).Contents (Elt F) → (⟨S4096x2x4096x4, .f32⟩ : BufTy).Contents (Elt F)),
    unary main_v43 main_v44 ((transpose S4096x4096x2x4 [2, 0, 1, 3] · transposes_S4096x2x4096x4_S4096x4096x2x4_2_0_1_3) : (⟨S4096x2x4096x4, .f32⟩ : BufTy).Contents (Elt F) → (⟨S4096x4096x2x4, .f32⟩ : BufTy).Contents (Elt F)),
    nullary main_cst_3 (constant S_ .f32 0x7F800000#32),
    binary main_v44 main_cst_3 main_v45 ((fun x v => Host.reduce FloatOps.minimumf x v reducesTo_S4096x4096x2x4_S4096x4096x2_d3 h_S_) : (⟨S4096x4096x2x4, .f32⟩ : BufTy).Contents (Elt F) → (⟨S_, .f32⟩ : BufTy).Contents (Elt F) → (⟨S4096x4096x2, .f32⟩ : BufTy).Contents (Elt F)),
    nullary main_cst_4 (constant S_ .f32 0xFF800000#32),
    binary main_v44 main_cst_4 main_v46 ((fun x v => Host.reduce FloatOps.maximumf x v reducesTo_S4096x4096x2x4_S4096x4096x2_d3 h_S_) : (⟨S4096x4096x2x4, .f32⟩ : BufTy).Contents (Elt F) → (⟨S_, .f32⟩ : BufTy).Contents (Elt F) → (⟨S4096x4096x2, .f32⟩ : BufTy).Contents (Elt F)),
    unary main_v45 main_v47 ((transpose S4096x4096x2 [1, 0, 2] · transposes_S4096x4096x2_S4096x4096x2_1_0_2) : (⟨S4096x4096x2, .f32⟩ : BufTy).Contents (Elt F) → (⟨S4096x4096x2, .f32⟩ : BufTy).Contents (Elt F)),
    unary main_v46 main_v48 ((transpose S4096x4096x2 [1, 0, 2] · transposes_S4096x4096x2_S4096x4096x2_1_0_2) : (⟨S4096x4096x2, .f32⟩ : BufTy).Contents (Elt F) → (⟨S4096x4096x2, .f32⟩ : BufTy).Contents (Elt F)),
    unary main_v41 main_v49 (broadcastInDim S4096x1x2 ![0, 2] bcast_S4096x2_S4096x1x2_0_2 : (⟨S4096x2, .f32⟩ : BufTy).Contents (Elt F) → (⟨S4096x1x2, .f32⟩ : BufTy).Contents (Elt F)),
    unary main_v42 main_v50 (broadcastInDim S4096x1x2 ![0, 2] bcast_S4096x2_S4096x1x2_0_2 : (⟨S4096x2, .f32⟩ : BufTy).Contents (Elt F) → (⟨S4096x1x2, .f32⟩ : BufTy).Contents (Elt F)),
    unary main_v50 main_v51 (broadcastInDim S4096x4096x2 ![0, 1, 2] bcast_S4096x1x2_S4096x4096x2_0_1_2 : (⟨S4096x1x2, .f32⟩ : BufTy).Contents (Elt F) → (⟨S4096x4096x2, .f32⟩ : BufTy).Contents (Elt F)),
    binary main_v51 main_v48 main_v52 (minimumf : (⟨S4096x4096x2, .f32⟩ : BufTy).Contents (Elt F) → (⟨S4096x4096x2, .f32⟩ : BufTy).Contents (Elt F) → (⟨S4096x4096x2, .f32⟩ : BufTy).Contents (Elt F)),
    unary main_v49 main_v53 (broadcastInDim S4096x4096x2 ![0, 1, 2] bcast_S4096x1x2_S4096x4096x2_0_1_2 : (⟨S4096x1x2, .f32⟩ : BufTy).Contents (Elt F) → (⟨S4096x4096x2, .f32⟩ : BufTy).Contents (Elt F)),
    binary main_v53 main_v47 main_v54 (maximumf : (⟨S4096x4096x2, .f32⟩ : BufTy).Contents (Elt F) → (⟨S4096x4096x2, .f32⟩ : BufTy).Contents (Elt F) → (⟨S4096x4096x2, .f32⟩ : BufTy).Contents (Elt F)),
    binary main_v52 main_v54 main_v55 (subf : (⟨S4096x4096x2, .f32⟩ : BufTy).Contents (Elt F) → (⟨S4096x4096x2, .f32⟩ : BufTy).Contents (Elt F) → (⟨S4096x4096x2, .f32⟩ : BufTy).Contents (Elt F)),
    nullary main_cst_5 (constant S_ .f32 0x00000000#32),
    TRef.unary (.of main_cst_5) main_call0.v0 id,
    TRef.unary main_call0.v0 main_call0.v1 (broadcastInDim S4096x4096x2 ![] bcast_S_S4096x4096x2),
    TRef.binary main_call0.v1 (.of main_v55) main_call0.v2 maximumf,
    binary main_v50 main_v49 main_v57 (subf : (⟨S4096x1x2, .f32⟩ : BufTy).Contents (Elt F) → (⟨S4096x1x2, .f32⟩ : BufTy).Contents (Elt F) → (⟨S4096x1x2, .f32⟩ : BufTy).Contents (Elt F)),
    binary main_v48 main_v47 main_v58 (subf : (⟨S4096x4096x2, .f32⟩ : BufTy).Contents (Elt F) → (⟨S4096x4096x2, .f32⟩ : BufTy).Contents (Elt F) → (⟨S4096x4096x2, .f32⟩ : BufTy).Contents (Elt F)),
    unary main_v57 main_v59 (broadcastInDim S4096x4096x2 ![0, 1, 2] bcast_S4096x1x2_S4096x4096x2_0_1_2 : (⟨S4096x1x2, .f32⟩ : BufTy).Contents (Elt F) → (⟨S4096x4096x2, .f32⟩ : BufTy).Contents (Elt F)),
    binary main_v59 main_v58 main_v60 (addf : (⟨S4096x4096x2, .f32⟩ : BufTy).Contents (Elt F) → (⟨S4096x4096x2, .f32⟩ : BufTy).Contents (Elt F) → (⟨S4096x4096x2, .f32⟩ : BufTy).Contents (Elt F)),
    binary main_v60 main_v56 main_v61 (subf : (⟨S4096x4096x2, .f32⟩ : BufTy).Contents (Elt F) → (⟨S4096x4096x2, .f32⟩ : BufTy).Contents (Elt F) → (⟨S4096x4096x2, .f32⟩ : BufTy).Contents (Elt F)),
    unary main_v50 main_v62 (broadcastInDim S4096x4096x2 ![0, 1, 2] bcast_S4096x1x2_S4096x4096x2_0_1_2 : (⟨S4096x1x2, .f32⟩ : BufTy).Contents (Elt F) → (⟨S4096x4096x2, .f32⟩ : BufTy).Contents (Elt F)),
    binary main_v62 main_v48 main_v63 (maximumf : (⟨S4096x4096x2, .f32⟩ : BufTy).Contents (Elt F) → (⟨S4096x4096x2, .f32⟩ : BufTy).Contents (Elt F) → (⟨S4096x4096x2, .f32⟩ : BufTy).Contents (Elt F)),
    unary main_v49 main_v64 (broadcastInDim S4096x4096x2 ![0, 1, 2] bcast_S4096x1x2_S4096x4096x2_0_1_2 : (⟨S4096x1x2, .f32⟩ : BufTy).Contents (Elt F) → (⟨S4096x4096x2, .f32⟩ : BufTy).Contents (Elt F)),
    binary main_v64 main_v47 main_v65 (minimumf : (⟨S4096x4096x2, .f32⟩ : BufTy).Contents (Elt F) → (⟨S4096x4096x2, .f32⟩ : BufTy).Contents (Elt F) → (⟨S4096x4096x2, .f32⟩ : BufTy).Contents (Elt F)),
    binary main_v63 main_v65 main_v66 (subf : (⟨S4096x4096x2, .f32⟩ : BufTy).Contents (Elt F) → (⟨S4096x4096x2, .f32⟩ : BufTy).Contents (Elt F) → (⟨S4096x4096x2, .f32⟩ : BufTy).Contents (Elt F)),
    binary main_v56 main_v61 main_v67 (Host.divf : (⟨S4096x4096x2, .f32⟩ : BufTy).Contents (Elt F) → (⟨S4096x4096x2, .f32⟩ : BufTy).Contents (Elt F) → (⟨S4096x4096x2, .f32⟩ : BufTy).Contents (Elt F)),
    binary main_v66 main_v61 main_v68 (subf : (⟨S4096x4096x2, .f32⟩ : BufTy).Contents (Elt F) → (⟨S4096x4096x2, .f32⟩ : BufTy).Contents (Elt F) → (⟨S4096x4096x2, .f32⟩ : BufTy).Contents (Elt F)),
    binary main_v68 main_v66 main_v69 (Host.divf : (⟨S4096x4096x2, .f32⟩ : BufTy).Contents (Elt F) → (⟨S4096x4096x2, .f32⟩ : BufTy).Contents (Elt F) → (⟨S4096x4096x2, .f32⟩ : BufTy).Contents (Elt F)),
    binary main_v67 main_v69 main_v70 (subf : (⟨S4096x4096x2, .f32⟩ : BufTy).Contents (Elt F) → (⟨S4096x4096x2, .f32⟩ : BufTy).Contents (Elt F) → (⟨S4096x4096x2, .f32⟩ : BufTy).Contents (Elt F)),
    unary main_v41 main_v71 (broadcastInDim S1x4096x2 ![1, 2] bcast_S4096x2_S1x4096x2_1_2 : (⟨S4096x2, .f32⟩ : BufTy).Contents (Elt F) → (⟨S1x4096x2, .f32⟩ : BufTy).Contents (Elt F)),
    unary main_v42 main_v72 (broadcastInDim S1x4096x2 ![1, 2] bcast_S4096x2_S1x4096x2_1_2 : (⟨S4096x2, .f32⟩ : BufTy).Contents (Elt F) → (⟨S1x4096x2, .f32⟩ : BufTy).Contents (Elt F)),
    unary main_v72 main_v73 (broadcastInDim S4096x4096x2 ![0, 1, 2] bcast_S1x4096x2_S4096x4096x2_0_1_2 : (⟨S1x4096x2, .f32⟩ : BufTy).Contents (Elt F) → (⟨S4096x4096x2, .f32⟩ : BufTy).Contents (Elt F)),
    binary main_v46 main_v73 main_v74 (minimumf : (⟨S4096x4096x2, .f32⟩ : BufTy).Contents (Elt F) → (⟨S4096x4096x2, .f32⟩ : BufTy).Contents (Elt F) → (⟨S4096x4096x2, .f32⟩ : BufTy).Contents (Elt F)),
    unary main_v71 main_v75 (broadcastInDim S4096x4096x2 ![0, 1, 2] bcast_S1x4096x2_S4096x4096x2_0_1_2 : (⟨S1x4096x2, .f32⟩ : BufTy).Contents (Elt F) → (⟨S4096x4096x2, .f32⟩ : BufTy).Contents (Elt F)),
    binary main_v45 main_v75 main_v76 (maximumf : (⟨S4096x4096x2, .f32⟩ : BufTy).Contents (Elt F) → (⟨S4096x4096x2, .f32⟩ : BufTy).Contents (Elt F) → (⟨S4096x4096x2, .f32⟩ : BufTy).Contents (Elt F)),
    binary main_v74 main_v76 main_v77 (subf : (⟨S4096x4096x2, .f32⟩ : BufTy).Contents (Elt F) → (⟨S4096x4096x2, .f32⟩ : BufTy).Contents (Elt F) → (⟨S4096x4096x2, .f32⟩ : BufTy).Contents (Elt F)),
    nullary main_cst_6 (constant S_ .f32 0x00000000#32),
    TRef.unary (.of main_cst_6) main_call1.v0 id,
    TRef.unary main_call1.v0 main_call1.v1 (broadcastInDim S4096x4096x2 ![] bcast_S_S4096x4096x2),
    TRef.binary main_call1.v1 (.of main_v77) main_call1.v2 maximumf,
    binary main_v46 main_v45 main_v79 (subf : (⟨S4096x4096x2, .f32⟩ : BufTy).Contents (Elt F) → (⟨S4096x4096x2, .f32⟩ : BufTy).Contents (Elt F) → (⟨S4096x4096x2, .f32⟩ : BufTy).Contents (Elt F)),
    binary main_v72 main_v71 main_v80 (subf : (⟨S1x4096x2, .f32⟩ : BufTy).Contents (Elt F) → (⟨S1x4096x2, .f32⟩ : BufTy).Contents (Elt F) → (⟨S1x4096x2, .f32⟩ : BufTy).Contents (Elt F)),
    unary main_v80 main_v81 (broadcastInDim S4096x4096x2 ![0, 1, 2] bcast_S1x4096x2_S4096x4096x2_0_1_2 : (⟨S1x4096x2, .f32⟩ : BufTy).Contents (Elt F) → (⟨S4096x4096x2, .f32⟩ : BufTy).Contents (Elt F)),
    binary main_v79 main_v81 main_v82 (addf : (⟨S4096x4096x2, .f32⟩ : BufTy).Contents (Elt F) → (⟨S4096x4096x2, .f32⟩ : BufTy).Contents (Elt F) → (⟨S4096x4096x2, .f32⟩ : BufTy).Contents (Elt F)),
    binary main_v82 main_v78 main_v83 (subf : (⟨S4096x4096x2, .f32⟩ : BufTy).Contents (Elt F) → (⟨S4096x4096x2, .f32⟩ : BufTy).Contents (Elt F) → (⟨S4096x4096x2, .f32⟩ : BufTy).Contents (Elt F)),
    unary main_v72 main_v84 (broadcastInDim S4096x4096x2 ![0, 1, 2] bcast_S1x4096x2_S4096x4096x2_0_1_2 : (⟨S1x4096x2, .f32⟩ : BufTy).Contents (Elt F) → (⟨S4096x4096x2, .f32⟩ : BufTy).Contents (Elt F)),
    binary main_v46 main_v84 main_v85 (maximumf : (⟨S4096x4096x2, .f32⟩ : BufTy).Contents (Elt F) → (⟨S4096x4096x2, .f32⟩ : BufTy).Contents (Elt F) → (⟨S4096x4096x2, .f32⟩ : BufTy).Contents (Elt F)),
    unary main_v71 main_v86 (broadcastInDim S4096x4096x2 ![0, 1, 2] bcast_S1x4096x2_S4096x4096x2_0_1_2 : (⟨S1x4096x2, .f32⟩ : BufTy).Contents (Elt F) → (⟨S4096x4096x2, .f32⟩ : BufTy).Contents (Elt F)),
    binary main_v45 main_v86 main_v87 (minimumf : (⟨S4096x4096x2, .f32⟩ : BufTy).Contents (Elt F) → (⟨S4096x4096x2, .f32⟩ : BufTy).Contents (Elt F) → (⟨S4096x4096x2, .f32⟩ : BufTy).Contents (Elt F)),
    binary main_v85 main_v87 main_v88 (subf : (⟨S4096x4096x2, .f32⟩ : BufTy).Contents (Elt F) → (⟨S4096x4096x2, .f32⟩ : BufTy).Contents (Elt F) → (⟨S4096x4096x2, .f32⟩ : BufTy).Contents (Elt F)),
    binary main_v78 main_v83 main_v89 (Host.divf : (⟨S4096x4096x2, .f32⟩ : BufTy).Contents (Elt F) → (⟨S4096x4096x2, .f32⟩ : BufTy).Contents (Elt F) → (⟨S4096x4096x2, .f32⟩ : BufTy).Contents (Elt F)),
    binary main_v88 main_v83 main_v90 (subf : (⟨S4096x4096x2, .f32⟩ : BufTy).Contents (Elt F) → (⟨S4096x4096x2, .f32⟩ : BufTy).Contents (Elt F) → (⟨S4096x4096x2, .f32⟩ : BufTy).Contents (Elt F)),
    binary main_v90 main_v88 main_v91 (Host.divf : (⟨S4096x4096x2, .f32⟩ : BufTy).Contents (Elt F) → (⟨S4096x4096x2, .f32⟩ : BufTy).Contents (Elt F) → (⟨S4096x4096x2, .f32⟩ : BufTy).Contents (Elt F)),
    binary main_v89 main_v91 main_v92 (subf : (⟨S4096x4096x2, .f32⟩ : BufTy).Contents (Elt F) → (⟨S4096x4096x2, .f32⟩ : BufTy).Contents (Elt F) → (⟨S4096x4096x2, .f32⟩ : BufTy).Contents (Elt F)) ]

/-- The fourth stretch: operations %93 … %95 (the four axis scores joined, their minimum, the clip). -/
abbrev opsB2 : List (HloOp τ sig (Elt F)) :=
  [ binary main_v70 main_v92 main_v93 ((fun a b => concatenate S4096x4096x4 2 [⟨S4096x4096x2, a⟩, ⟨S4096x4096x2, b⟩] concatenates_S4096x4096x2_S4096x4096x2_S4096x4096x4_d2) : (⟨S4096x4096x2, .f32⟩ : BufTy).Contents (Elt F) → (⟨S4096x4096x2, .f32⟩ : BufTy).Contents (Elt F) → (⟨S4096x4096x4, .f32⟩ : BufTy).Contents (Elt F)),
    nullary main_cst_7 (constant S_ .f32 0x7F800000#32),
    binary main_v93 main_cst_7 main_v94 ((fun x v => Host.reduce FloatOps.minimumf x v reducesTo_S4096x4096x4_S4096x4096_d2 h_S_) : (⟨S4096x4096x4, .f32⟩ : BufTy).Contents (Elt F) → (⟨S_, .f32⟩ : BufTy).Contents (Elt F) → (⟨S4096x4096, .f32⟩ : BufTy).Contents (Elt F)),
    nullary main_cst_8 (constant S_ .f32 0x00000000#32),
    TRef.unary (.of main_cst_8) main_call2.v0 id,
    TRef.unary main_call2.v0 main_call2.v1 (broadcastInDim S4096x4096 ![] bcast_S_S4096x4096),
    TRef.binary main_call2.v1 (.of main_v94) main_call2.v2 maximumf ]

/-- The fifth stretch: operations %96 … %111 (the diagonal's indices, the update, the scatter). -/
abbrev opsC : List (HloOp τ sig (Elt F)) :=
  [ nullary main_v96 (iotaInDim S4096 32 0),
    nullary main_c (constantI S_ 32 0#32),
    unary main_c main_v97 (broadcastInDim S4096 ![] bcast_S_S4096 : (⟨S_, .i32⟩ : BufTy).Contents (Elt F) → (⟨S4096, .i32⟩ : BufTy).Contents (Elt F)),
    binary main_v96 main_v97 main_v98 (cmpi .slt : (⟨S4096, .i32⟩ : BufTy).Contents (Elt F) → (⟨S4096, .i32⟩ : BufTy).Contents (Elt F) → (⟨S4096, .i1⟩ : BufTy).Contents (Elt F)),
    nullary main_c_9 (constantI S_ 32 4096#32),
    unary main_c_9 main_v99 (broadcastInDim S4096 ![] bcast_S_S4096 : (⟨S_, .i32⟩ : BufTy).Contents (Elt F) → (⟨S4096, .i32⟩ : BufTy).Contents (Elt F)),
    binary main_v96 main_v99 main_v100 (addi : (⟨S4096, .i32⟩ : BufTy).Contents (Elt F) → (⟨S4096, .i32⟩ : BufTy).Contents (Elt F) → (⟨S4096, .i32⟩ : BufTy).Contents (Elt F)),
    ternary main_v98 main_v100 main_v96 main_v101 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    nullary main_c_10 (constantI S_ 32 0#32),
    unary main_c_10 main_v102 (broadcastInDim S4096 ![] bcast_S_S4096 : (⟨S_, .i32⟩ : BufTy).Contents (Elt F) → (⟨S4096, .i32⟩ : BufTy).Contents (Elt F)),
    binary main_v96 main_v102 main_v103 (cmpi .slt : (⟨S4096, .i32⟩ : BufTy).Contents (Elt F) → (⟨S4096, .i32⟩ : BufTy).Contents (Elt F) → (⟨S4096, .i1⟩ : BufTy).Contents (Elt F)),
    nullary main_c_11 (constantI S_ 32 4096#32),
    unary main_c_11 main_v104 (broadcastInDim S4096 ![] bcast_S_S4096 : (⟨S_, .i32⟩ : BufTy).Contents (Elt F) → (⟨S4096, .i32⟩ : BufTy).Contents (Elt F)),
    binary main_v96 main_v104 main_v105 (addi : (⟨S4096, .i32⟩ : BufTy).Contents (Elt F) → (⟨S4096, .i32⟩ : BufTy).Contents (Elt F) → (⟨S4096, .i32⟩ : BufTy).Contents (Elt F)),
    ternary main_v103 main_v105 main_v96 main_v106 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v101 main_v107 (broadcastInDim S4096x1 ![0] bcast_S4096_S4096x1_0 : (⟨S4096, .i32⟩ : BufTy).Contents (Elt F) → (⟨S4096x1, .i32⟩ : BufTy).Contents (Elt F)),
    unary main_v106 main_v108 (broadcastInDim S4096x1 ![0] bcast_S4096_S4096x1_0 : (⟨S4096, .i32⟩ : BufTy).Contents (Elt F) → (⟨S4096x1, .i32⟩ : BufTy).Contents (Elt F)),
    binary main_v107 main_v108 main_v109 ((fun a b => concatenate S4096x2 1 [⟨S4096x1, a⟩, ⟨S4096x1, b⟩] concatenates_S4096x1_S4096x1_S4096x2_d1) : (⟨S4096x1, .i32⟩ : BufTy).Contents (Elt F) → (⟨S4096x1, .i32⟩ : BufTy).Contents (Elt F) → (⟨S4096x2, .i32⟩ : BufTy).Contents (Elt F)),
    nullary main_cst_12 (constant S_ .f32 0x00000000#32),
    unary main_cst_12 main_v110 (broadcastInDim S4096 ![] bcast_S_S4096 : (⟨S_, .f32⟩ : BufTy).Contents (Elt F) → (⟨S4096, .f32⟩ : BufTy).Contents (Elt F)),
    ternary main_v95 main_v109 main_v110 main_v111 ((fun x i u => Host.scatter scatter_S4096x4096_S4096x2_S4096_n_01_01_1 (fun _ b => b) x i u) : (⟨S4096x4096, .f32⟩ : BufTy).Contents (Elt F) → (⟨S4096x2, .i32⟩ : BufTy).Contents (Elt F) → (⟨S4096, .f32⟩ : BufTy).Contents (Elt F) → (⟨S4096x4096, .f32⟩ : BufTy).Contents (Elt F)) ]

theorem ops_split : (ops : List (HloOp τ sig (Elt F))) = opsA1 ++ (opsA2 ++ (opsB1 ++ (opsB2 ++ opsC))) := rfl

attribute [local irreducible] Host.reduce Host.scatter in
set_option maxRecDepth 8192 in
set_option maxHeartbeats 2000000 in
/-- After the first stretch the buffer of %26 holds the corners of the argument. -/
theorem segA1 (W : Valuation τ sig (Elt F)) :
    after opsA1 W (main_v26 : DevRef τ sig) = corners (W (main_arg0 : DevRef τ sig)) := by
  after_results_simp
  rfl

attribute [local irreducible] Host.reduce Host.scatter in
set_option maxRecDepth 8192 in
set_option maxHeartbeats 2000000 in
/-- After the second stretch the buffer of %39 holds the axes of the corners it started from, -/
theorem segA2 (W : Valuation τ sig (Elt F)) :
    after opsA2 W (main_v39 : DevRef τ sig) = axes (W (main_v26 : DevRef τ sig)) := by
  after_results_simp
  rfl

set_option maxRecDepth 8192 in
set_option maxHeartbeats 2000000 in
/-- and the buffer of %26 is as it was. -/
theorem segA2_v26 (W : Valuation τ sig (Elt F)) :
    after opsA2 W (main_v26 : DevRef τ sig) = W (main_v26 : DevRef τ sig) := by
  after_results_simp

attribute [local irreducible] Host.reduce Host.scatter in
set_option maxRecDepth 8192 in
set_option maxHeartbeats 2000000 in
/-- After the second stretch the buffer of %70 holds the two axis scores on box i's axes, of the corners and axes the
    stretch started from. -/
theorem segB1a (W : Valuation τ sig (Elt F)) :
    after opsB1 W (main_v70 : DevRef τ sig) = giouI (W (main_v26 : DevRef τ sig)) (W (main_v39 : DevRef τ sig)) := by
  simp only [opsB1, TRef.unary, TRef.binary, TRef.nullary]
  after_results_simp
  unfold giouI hullI unionI interI hiI loI hiCrossT loCrossT hiCross loCross projCross hiSelf loSelf projSelf
  rfl

attribute [local irreducible] Host.reduce Host.scatter in
set_option maxRecDepth 8192 in
set_option maxHeartbeats 2000000 in
/-- … and the buffer of %92 the two axis scores on box j's axes. -/
theorem segB1b (W : Valuation τ sig (Elt F)) :
    after opsB1 W (main_v92 : DevRef τ sig) = giouJ (W (main_v26 : DevRef τ sig)) (W (main_v39 : DevRef τ sig)) := by
  simp only [opsB1, TRef.unary, TRef.binary, TRef.nullary]
  after_results_simp
  unfold giouJ hullJ unionJ interJ hiJ loJ hiCross loCross projCross hiSelf loSelf projSelf
  rfl

/-- The transports along the buffers' type equations around the last clip are the identity (the payloads kept as
    variables). -/
theorem clip0_casts (z : (⟨S_, .f32⟩ : BufTy).Contents (Elt F)) (a : (⟨S4096x4096, .f32⟩ : BufTy).Contents (Elt F)) :
    @Eq ((⟨S4096x4096, .f32⟩ : BufTy).Contents (Elt F))
      ((main_call2.v2 : TRef sig ⟨S4096x4096, .f32⟩).toBuf (Val := Elt F)
        (maximumf
          ((main_call2.v1 : TRef sig ⟨S4096x4096, .f32⟩).ofBuf (Val := Elt F) ((main_call2.v1 : TRef sig ⟨S4096x4096, .f32⟩).toBuf (Val := Elt F)
            (broadcastInDim S4096x4096 ![] bcast_S_S4096x4096
              ((main_call2.v0 : TRef sig ⟨S_, .f32⟩).ofBuf (Val := Elt F) ((main_call2.v0 : TRef sig ⟨S_, .f32⟩).toBuf (Val := Elt F)
                (id ((TRef.of main_cst_8 : TRef sig ⟨S_, .f32⟩).ofBuf (Val := Elt F) z)))))))
          ((TRef.of main_v94 : TRef sig ⟨S4096x4096, .f32⟩).ofBuf (Val := Elt F) a)))
      (maximumf (broadcastInDim S4096x4096 ![] bcast_S_S4096x4096 (id z) : (⟨S4096x4096, .f32⟩ : BufTy).Contents (Elt F)) a) :=
  rfl

attribute [local irreducible] Host.reduce Host.scatter in
set_option maxRecDepth 8192 in
set_option maxHeartbeats 2000000 in
/-- After the third stretch the buffer of %95 holds the clipped minimum over the four axis scores it started from. -/
theorem segB2 (W : Valuation τ sig (Elt F)) :
    after opsB2 W (main_v95 : DevRef τ sig)
      = maximumf
          (broadcastInDim S4096x4096 ![] bcast_S_S4096x4096 (id (constant S_ .f32 0x00000000#32 : (⟨S_, .f32⟩ : BufTy).Contents (Elt F)) : (⟨S_, .f32⟩ : BufTy).Contents (Elt F)) : (⟨S4096x4096, .f32⟩ : BufTy).Contents (Elt F))
          (Host.reduce FloatOps.minimumf
            (concatenate S4096x4096x4 2 [⟨S4096x4096x2, W (main_v70 : DevRef τ sig)⟩, ⟨S4096x4096x2, W (main_v92 : DevRef τ sig)⟩]
              concatenates_S4096x4096x2_S4096x4096x2_S4096x4096x4_d2 : (⟨S4096x4096x4, .f32⟩ : BufTy).Contents (Elt F))
            (constant S_ .f32 0x7F800000#32 : (⟨S_, .f32⟩ : BufTy).Contents (Elt F)) reducesTo_S4096x4096x4_S4096x4096_d2 h_S_ : (⟨S4096x4096, .f32⟩ : BufTy).Contents (Elt F)) := by
  simp only [opsB2, TRef.unary, TRef.binary, TRef.nullary]
  after_results_simp
  exact clip0_casts _ _

/-- The same, with the two joined arrays named. -/
theorem segB2' (W : Valuation τ sig (Elt F)) (X Y : (⟨S4096x4096x2, .f32⟩ : BufTy).Contents (Elt F))
    (hx : W (main_v70 : DevRef τ sig) = X) (hy : W (main_v92 : DevRef τ sig) = Y) :
    after opsB2 W (main_v95 : DevRef τ sig)
      = maximumf
          (broadcastInDim S4096x4096 ![] bcast_S_S4096x4096 (id (constant S_ .f32 0x00000000#32 : (⟨S_, .f32⟩ : BufTy).Contents (Elt F)) : (⟨S_, .f32⟩ : BufTy).Contents (Elt F)) : (⟨S4096x4096, .f32⟩ : BufTy).Contents (Elt F))
          (Host.reduce FloatOps.minimumf
            (concatenate S4096x4096x4 2 [⟨S4096x4096x2, X⟩, ⟨S4096x4096x2, Y⟩]
              concatenates_S4096x4096x2_S4096x4096x2_S4096x4096x4_d2 : (⟨S4096x4096x4, .f32⟩ : BufTy).Contents (Elt F))
            (constant S_ .f32 0x7F800000#32 : (⟨S_, .f32⟩ : BufTy).Contents (Elt F)) reducesTo_S4096x4096x4_S4096x4096_d2 h_S_ : (⟨S4096x4096, .f32⟩ : BufTy).Contents (Elt F)) := by
  subst hx
  subst hy
  exact segB2 W

attribute [local irreducible] Host.reduce Host.scatter in
set_option maxRecDepth 8192 in
set_option maxHeartbeats 2000000 in
/-- After the fifth stretch the buffer of %111 holds the scatter of the update into the scores it started from. -/
theorem segC (W : Valuation τ sig (Elt F)) :
    after opsC W (main_v111 : DevRef τ sig)
      = Host.scatter scatter_S4096x4096_S4096x2_S4096_n_01_01_1 (fun _ b => b) (W (main_v95 : DevRef τ sig))
          (diagIdx (F := F)) diagUpd := by
  after_results_simp
  rfl

/-- The fold at the result buffer is the scatter over the named terms of the argument's contents. -/
theorem out_eq (V : Valuation τ sig (Elt F)) :
    after ops V (main_v111 : DevRef τ sig)
      = Host.scatter scatter_S4096x4096_S4096x2_S4096_n_01_01_1 (fun _ b => b)
          (scores (corners (V (main_arg0 : DevRef τ sig))) (axes (corners (V (main_arg0 : DevRef τ sig)))))
          (diagIdx (F := F)) diagUpd := by
  rw [ops_split, after_app, after_app, after_app, after_app, segC]
  have e26 : after opsA2 (after opsA1 V) (main_v26 : DevRef τ sig) = corners (V (main_arg0 : DevRef τ sig)) :=
    (segA2_v26 _).trans (segA1 _)
  have e39 : after opsA2 (after opsA1 V) (main_v39 : DevRef τ sig) = axes (corners (V (main_arg0 : DevRef τ sig))) :=
    (segA2 _).trans (congrArg axes (segA1 _))
  refine congrArg (fun x => Host.scatter scatter_S4096x4096_S4096x2_S4096_n_01_01_1 (fun _ b => b) x (diagIdx (F := F)) diagUpd) ?_
  refine (segB2' _ _ _ ((segB1a _).trans (by rw [e26, e39])) ((segB1b _).trans (by rw [e26, e39]))).trans ?_
  unfold scores
  rfl

end Cert.ReferenceIdeal.RefRun

end
-- ==== Proof.LibRank3Ref.lean ====
/-
  Rank-3 arrays read at an index given by coordinates.

  A reduction over the last axis of an [a, b, c] array gives an [a, b] array; read at (p, q) it ranges over the
  entries (p, q, k). Its result is spread back over a third axis in two ways: kept as an [a, b, 1] column and
  broadcast to [a, b, c] (constant along the last axis), or kept as an [a, 1, b] row and broadcast to [a, c, b]
  (constant along the middle axis). A batched contraction of the last axes of an [B, M, K] and an [B, N, K] array
  reads at (b, m, n) the sum over k of l[b, m, k] · r[b, n, k]. All at the exact (extended real) reading of floats.
-/
import Idealize.ShloMosaic.PureOps.Ideal.Laws
import Idealize.ShloMosaic.Lib.ValueIdx
import Idealize.ShloMosaic.Lib.ValueLayout
import Idealize.ShloMosaic.PureOps.Reduce

open scoped BigOperators

noncomputable section

namespace Cert.Lib.Rank3
open Idealize.ShloMosaic Idealize.ShloMosaic.ValueIdx

/-! ## A reduction over the last axis -/

/-- Over a rank-3 array reduced along its last axis, the source index over (p, q) with last coordinate `k`
    inserted is the index (p, q, k). -/
theorem lift_ix2 {a b c : Nat} (h : (⟨3, ![a, b, c]⟩ : Shape).Reduces [2] ⟨2, ![a, b]⟩) (p : Fin a) (q : Fin b)
    (k : Fin c) : h.lift (ix2 p q) k = ix3 p q k := by
  funext d
  match d with
  | ⟨0, _⟩ => rfl
  | ⟨1, _⟩ => rfl
  | ⟨2, _⟩ => rfl

/-- The host's float sum over the last axis of a rank-3 array, at the extended reals and read at (p, q): the
    initial value plus the sum over `k` of the entries (p, q, k). -/
theorem hostReduceAdd_last {a b c : Nat} {u : Shape} (x : FVec Ideal ⟨3, ![a, b, c]⟩ .f32)
    (init : FVec Ideal u .f32) (h' : (⟨3, ![a, b, c]⟩ : Shape).ReducesTo [2] ⟨2, ![a, b]⟩)
    (h : (⟨3, ![a, b, c]⟩ : Shape).Reduces [2] ⟨2, ![a, b]⟩) (hu : 0 < u.numel) (p : Fin a) (q : Fin b) :
    Host.reduceAdd x init h' hu (ix2 p q) = init (Shape.Idx.first hu) + ∑ k : Fin c, x (ix3 p q k) := by
  show Ideal.hostReduceAdd h' x (init (Shape.Idx.first hu)) (ix2 p q) = _
  rw [Ideal.hostReduceAdd_single h' h]
  exact congrArg (init (Shape.Idx.first hu) + ·)
    (Finset.sum_congr rfl fun k _ => congrArg x (lift_ix2 h p q k))

/-- The host's reduction with the maximum as its body over the last axis of a rank-3 array of extended reals, read
    at (p, q): the fold of `max` from the initial value over `k` of the entries (p, q, k). -/
theorem hostReduce_maximumf_last {a b c : Nat} {u : Shape} (x : (⟨3, ![a, b, c]⟩ : Shape).Idx → EReal)
    (init : u.Idx → EReal) (h' : (⟨3, ![a, b, c]⟩ : Shape).ReducesTo [2] ⟨2, ![a, b]⟩)
    (h : (⟨3, ![a, b, c]⟩ : Shape).Reduces [2] ⟨2, ![a, b]⟩) (hu : 0 < u.numel) (p : Fin a) (q : Fin b) :
    Host.reduce (FloatOps.maximumf (F := Ideal) (φ := .f32)) x init h' hu (ix2 p q)
      = (Finset.univ : Finset (Fin c)).fold max (init (Shape.Idx.first hu)) (fun k => x (ix3 p q k)) := by
  refine (Host.reduce_eq_fold_single _ x init h' h hu (ix2 p q)).trans ?_
  have e : (x ∘ h.lift (ix2 p q)) = fun k : Fin c => x (ix3 p q k) :=
    funext fun k => congrArg x (lift_ix2 h p q k)
  rw [e]
  rfl

/-! ## Keeping the reduced axis and spreading over it -/

variable {α : Type}

/-- An [a, b] array broadcast along the axes [0, 1] to [a, b, 1] reads, at (p, q, u), the array at (p, q). -/
theorem broadcastInDim_ab_ab1_apply {a b : ℕ} (v : (⟨2, ![a, b]⟩ : Shape).Idx → α)
    (h : (⟨2, ![a, b]⟩ : Shape).BroadcastsInDim ⟨3, ![a, b, 1]⟩ (![0, 1] : Fin 2 → Fin (⟨3, ![a, b, 1]⟩ : Shape).rank))
    (p : Fin a) (q : Fin b) (u : Fin 1) : broadcastInDim ⟨3, ![a, b, 1]⟩ ![0, 1] h v (ix3 p q u) = v (ix2 p q) := by
  refine broadcastInDim_apply _ h v (ix3 p q u) (ix2 p q) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl

/-- An [a, b, 1] column broadcast along the axes [0, 1, 2] to [a, b, c] reads, at (p, q, r), the column at (p, q). -/
theorem broadcastInDim_ab1_abc_apply {a b c : ℕ} (v : (⟨3, ![a, b, 1]⟩ : Shape).Idx → α)
    (h : (⟨3, ![a, b, 1]⟩ : Shape).BroadcastsInDim ⟨3, ![a, b, c]⟩ (![0, 1, 2] : Fin 3 → Fin (⟨3, ![a, b, c]⟩ : Shape).rank))
    (p : Fin a) (q : Fin b) (r : Fin c) :
    broadcastInDim ⟨3, ![a, b, c]⟩ ![0, 1, 2] h v (ix3 p q r) = v (ix3 p q (0 : Fin 1)) := by
  refine broadcastInDim_apply _ h v (ix3 p q r) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- An [a, b] array broadcast along the axes [0, 2] to [a, 1, b] reads, at (p, u, q), the array at (p, q). -/
theorem broadcastInDim_ab_a1b_apply {a b : ℕ} (v : (⟨2, ![a, b]⟩ : Shape).Idx → α)
    (h : (⟨2, ![a, b]⟩ : Shape).BroadcastsInDim ⟨3, ![a, 1, b]⟩ (![0, 2] : Fin 2 → Fin (⟨3, ![a, 1, b]⟩ : Shape).rank))
    (p : Fin a) (u : Fin 1) (q : Fin b) : broadcastInDim ⟨3, ![a, 1, b]⟩ ![0, 2] h v (ix3 p u q) = v (ix2 p q) := by
  refine broadcastInDim_apply _ h v (ix3 p u q) (ix2 p q) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl

/-- An [a, 1, b] row broadcast along the axes [0, 1, 2] to [a, c, b] reads, at (p, r, q), the row at (p, q). -/
theorem broadcastInDim_a1b_acb_apply {a b c : ℕ} (v : (⟨3, ![a, 1, b]⟩ : Shape).Idx → α)
    (h : (⟨3, ![a, 1, b]⟩ : Shape).BroadcastsInDim ⟨3, ![a, c, b]⟩ (![0, 1, 2] : Fin 3 → Fin (⟨3, ![a, c, b]⟩ : Shape).rank))
    (p : Fin a) (r : Fin c) (q : Fin b) :
    broadcastInDim ⟨3, ![a, c, b]⟩ ![0, 1, 2] h v (ix3 p r q) = v (ix3 p (0 : Fin 1) q) := by
  refine broadcastInDim_apply _ h v (ix3 p r q) (ix3 p (0 : Fin 1) q) fun ax => ?_
  match ax with
  | ⟨0, _⟩ =>
    show p.val = if a = 1 then 0 else p.val
    split
    · have := p.isLt; omega
    · rfl
  | ⟨1, _⟩ => rfl
  | ⟨2, _⟩ =>
    show q.val = if b = 1 then 0 else q.val
    split
    · have := q.isLt; omega
    · rfl

/-- A scalar broadcast to any shape reads the scalar everywhere. -/
theorem broadcastInDim_scalar_apply {t : Shape} (v : (⟨0, ![]⟩ : Shape).Idx → α)
    (h : (⟨0, ![]⟩ : Shape).BroadcastsInDim t (![] : Fin 0 → Fin t.rank)) (j : t.Idx) :
    broadcastInDim t ![] h v j = v ix0 :=
  broadcastInDim_apply _ h v j ix0 fun ax => ax.elim0

/-! ## A batched contraction of last axes -/

/-- The dimension numbers of a batched product of rows: [B, M, K] with [B, N, K], the first axes the batch, the last
    axes contracted. -/
abbrev batchRowsDims (B M K N : Nat)
    (h : DotDims.WF ⟨3, ![B, M, K]⟩ ⟨3, ![B, N, K]⟩ ⟨3, ![B, M, N]⟩ [2] [2] [1] [1] [0] [0]) :
    DotDims ⟨3, ![B, M, K]⟩ ⟨3, ![B, N, K]⟩ ⟨3, ![B, M, N]⟩ where
  lhsContracting := [2]
  rhsContracting := [2]
  lhsNonContracting := [1]
  rhsNonContracting := [1]
  lhsBatch := [0]
  rhsBatch := [0]
  wf := h

variable (B M K N : Nat) (h : DotDims.WF ⟨3, ![B, M, K]⟩ ⟨3, ![B, N, K]⟩ ⟨3, ![B, M, N]⟩ [2] [2] [1] [1] [0] [0])

/-- The contraction index has one axis, of extent K. -/
theorem batchRows_rank : (batchRowsDims B M K N h).contr.rank = 1 := rfl
theorem batchRows_size : (batchRowsDims B M K N h).contr.size ⟨0, Nat.one_pos⟩ = K := rfl

/-- At result entry (b, m, n) and contraction position k the left operand is read at (b, m, k) … -/
theorem batchRows_lhsIdx (b : Fin B) (m : Fin M) (n : Fin N) (k : Fin K) :
    (batchRowsDims B M K N h).lhsIdx (ix3 b m n) ((contrEquiv1 (batchRowsDims B M K N h) K rfl rfl).symm k) = ix3 b m k :=
  funext fun a => Fin.ext (by
    have hk := contrEquiv1_symm_val (batchRowsDims B M K N h) K rfl rfl k
    match a with
    | ⟨0, _⟩ => rfl
    | ⟨1, _⟩ => rfl
    | ⟨2, _⟩ => exact ((batchRowsDims B M K N h).lhsIdx_val_of_single rfl _ _).trans hk)

/-- … and the right operand at (b, n, k). -/
theorem batchRows_rhsIdx (b : Fin B) (m : Fin M) (n : Fin N) (k : Fin K) :
    (batchRowsDims B M K N h).rhsIdx (ix3 b m n) ((contrEquiv1 (batchRowsDims B M K N h) K rfl rfl).symm k) = ix3 b n k :=
  funext fun a => Fin.ext (by
    have hk := contrEquiv1_symm_val (batchRowsDims B M K N h) K rfl rfl k
    match a with
    | ⟨0, _⟩ => rfl
    | ⟨1, _⟩ => rfl
    | ⟨2, _⟩ => exact ((batchRowsDims B M K N h).rhsIdx_val_of_single rfl _ _).trans hk)

/-- The contraction sum at entry (b, m, n) is the sum over k of l[b, m, k] · r[b, n, k]. -/
theorem batchRows_sum (l : (⟨3, ![B, M, K]⟩ : Shape).Idx → EReal) (r : (⟨3, ![B, N, K]⟩ : Shape).Idx → EReal)
    (b : Fin B) (m : Fin M) (n : Fin N) :
    ∑ k : (batchRowsDims B M K N h).contr.Idx,
        l ((batchRowsDims B M K N h).lhsIdx (ix3 b m n) k) * r ((batchRowsDims B M K N h).rhsIdx (ix3 b m n) k)
      = ∑ k : Fin K, l (ix3 b m k) * r (ix3 b n k) := by
  rw [← Equiv.sum_comp (contrEquiv1 (batchRowsDims B M K N h) K rfl rfl).symm]
  refine Finset.sum_congr rfl fun k _ => ?_
  rw [batchRows_lhsIdx, batchRows_rhsIdx]

/-- A host batched dot product of rows, at entry (b, m, n). -/
theorem dotGeneral_batchRows_apply {φ₁ φ₂ : FTy} (prec : Option ContractPrecision) (sched : HostSchedule)
    (l : FVec Ideal ⟨3, ![B, M, K]⟩ φ₁) (r : FVec Ideal ⟨3, ![B, N, K]⟩ φ₂) (b : Fin B) (m : Fin M) (n : Fin N) :
    FloatOps.dotGeneral (batchRowsDims B M K N h) prec sched l r (ix3 b m n) = ∑ k : Fin K, l (ix3 b m k) * r (ix3 b n k) :=
  (Ideal.dotGeneral_apply (batchRowsDims B M K N h) prec sched l r (ix3 b m n)).trans (batchRows_sum B M K N h l r b m n)

end Cert.Lib.Rank3

end
-- ==== Proof.RefScoresOps.lean ====
/-
  Arrays of rank 2, 3 and 4 read at an index given by coordinates: the layout operations, reductions and the
  contraction the pairwise score is built from.

  * A fold of min (or max) over the LAST axis of a rank-3 or rank-4 array, read at the remaining coordinates, ranges
    over the entries with the last coordinate free.
  * A transpose with the axis order (2, 0, 1, 3) of an [a, b, c, d] array reads at (i, j, p, k) the entry
    (j, p, i, k); one with the order (1, 0, 2) of an [a, b, c] array reads at (i, j, p) the entry (j, i, p).
  * An [a, b] array kept as a [1, a, b] slab and spread to [c, a, b] is constant along the first axis.
  * Two [a, b, 2] arrays joined along the last axis give an [a, b, 4] array whose entries 0, 1 are the first
    array's and 2, 3 the second's.
  * The contraction of the last axes of a [J, M, K] and an [I, N, K] array with no shared axis reads at
    (j, m, i, n) the sum over k of l[j, m, k] · r[i, n, k].
  All at the exact (extended real) reading of floats.
-/
import proofs.«131896_j59760174957246_2_alg».proof.Proof.LibRank3Ref
import Idealize.ShloMosaic.PureOps.Ideal.Laws
import Idealize.ShloMosaic.Lib.ValueIdx
import Idealize.ShloMosaic.Lib.ValueLayout
import Idealize.ShloMosaic.Lib.Pipeline.Value
import Idealize.ShloMosaic.PureOps.Reduce

open scoped BigOperators

noncomputable section

namespace Cert.ReferenceIdeal.RefScores
open Idealize.ShloMosaic Idealize.ShloMosaic.ValueIdx

/-! ## The two infinities as float words -/

theorem ofBits_posInf : Ideal.ofBits .f32 0x7F800000#32 = ⊤ := by simp [Ideal.ofBits, Ideal.ieee]
theorem ofBits_negInf : Ideal.ofBits .f32 0xFF800000#32 = ⊥ := by simp [Ideal.ofBits, Ideal.ieee]

/-! ## Folds over the last axis -/

/-- The fold of min over the last axis of a rank-3 array of extended reals, read at (p, q). -/
theorem hostReduce_minimumf_last3 {a b c : Nat} {u : Shape} (x : (⟨3, ![a, b, c]⟩ : Shape).Idx → EReal)
    (init : u.Idx → EReal) (h' : (⟨3, ![a, b, c]⟩ : Shape).ReducesTo [2] ⟨2, ![a, b]⟩)
    (h : (⟨3, ![a, b, c]⟩ : Shape).Reduces [2] ⟨2, ![a, b]⟩) (hu : 0 < u.numel) (p : Fin a) (q : Fin b) :
    Host.reduce (FloatOps.minimumf (F := Ideal) (φ := .f32)) x init h' hu (ix2 p q)
      = (Finset.univ : Finset (Fin c)).fold min (init (Shape.Idx.first hu)) (fun k => x (ix3 p q k)) := by
  refine (Host.reduce_eq_fold_single _ x init h' h hu (ix2 p q)).trans ?_
  have e : (x ∘ h.lift (ix2 p q)) = fun k : Fin c => x (ix3 p q k) :=
    funext fun k => congrArg x (Cert.Lib.Rank3.lift_ix2 h p q k)
  rw [e]
  rfl

/-- Over a rank-4 array reduced along its last axis, the source index over (p, q, r) with last coordinate k
    inserted is the index (p, q, r, k). -/
theorem lift_ix3 {a b c d : Nat} (h : (⟨4, ![a, b, c, d]⟩ : Shape).Reduces [3] ⟨3, ![a, b, c]⟩) (p : Fin a) (q : Fin b)
    (r : Fin c) (k : Fin d) : h.lift (ix3 p q r) k = ix4 p q r k := by
  funext e
  match e with
  | ⟨0, _⟩ => rfl
  | ⟨1, _⟩ => rfl
  | ⟨2, _⟩ => rfl
  | ⟨3, _⟩ => rfl

/-- The fold of min over the last axis of a rank-4 array of extended reals, read at (p, q, r). -/
theorem hostReduce_minimumf_last4 {a b c d : Nat} {u : Shape} (x : (⟨4, ![a, b, c, d]⟩ : Shape).Idx → EReal)
    (init : u.Idx → EReal) (h' : (⟨4, ![a, b, c, d]⟩ : Shape).ReducesTo [3] ⟨3, ![a, b, c]⟩)
    (h : (⟨4, ![a, b, c, d]⟩ : Shape).Reduces [3] ⟨3, ![a, b, c]⟩) (hu : 0 < u.numel) (p : Fin a) (q : Fin b) (r : Fin c) :
    Host.reduce (FloatOps.minimumf (F := Ideal) (φ := .f32)) x init h' hu (ix3 p q r)
      = (Finset.univ : Finset (Fin d)).fold min (init (Shape.Idx.first hu)) (fun k => x (ix4 p q r k)) := by
  refine (Host.reduce_eq_fold_single _ x init h' h hu (ix3 p q r)).trans ?_
  have e : (x ∘ h.lift (ix3 p q r)) = fun k : Fin d => x (ix4 p q r k) :=
    funext fun k => congrArg x (lift_ix3 h p q r k)
  rw [e]
  rfl

/-- The fold of max over the last axis of a rank-4 array of extended reals, read at (p, q, r). -/
theorem hostReduce_maximumf_last4 {a b c d : Nat} {u : Shape} (x : (⟨4, ![a, b, c, d]⟩ : Shape).Idx → EReal)
    (init : u.Idx → EReal) (h' : (⟨4, ![a, b, c, d]⟩ : Shape).ReducesTo [3] ⟨3, ![a, b, c]⟩)
    (h : (⟨4, ![a, b, c, d]⟩ : Shape).Reduces [3] ⟨3, ![a, b, c]⟩) (hu : 0 < u.numel) (p : Fin a) (q : Fin b) (r : Fin c) :
    Host.reduce (FloatOps.maximumf (F := Ideal) (φ := .f32)) x init h' hu (ix3 p q r)
      = (Finset.univ : Finset (Fin d)).fold max (init (Shape.Idx.first hu)) (fun k => x (ix4 p q r k)) := by
  refine (Host.reduce_eq_fold_single _ x init h' h hu (ix3 p q r)).trans ?_
  have e : (x ∘ h.lift (ix3 p q r)) = fun k : Fin d => x (ix4 p q r k) :=
    funext fun k => congrArg x (lift_ix3 h p q r k)
  rw [e]
  rfl

/-! ## Transposes -/

variable {α : Type}

/-- The transpose with axis order (2, 0, 1, 3) of an [a, b, c, d] array reads at (i, j, p, k) the entry (j, p, i, k). -/
theorem transpose_2013_apply {a b c d : ℕ} (x : (⟨4, ![a, b, c, d]⟩ : Shape).Idx → α)
    (h : (⟨4, ![a, b, c, d]⟩ : Shape).Transposes [2, 0, 1, 3] ⟨4, ![c, a, b, d]⟩)
    (i : Fin c) (j : Fin a) (p : Fin b) (k : Fin d) :
    transpose ⟨4, ![c, a, b, d]⟩ [2, 0, 1, 3] x h (ix4 i j p k) = x (ix4 j p i k) := by
  refine transpose_apply _ x h (ix4 i j p k) (ix4 j p i k) fun e => ?_
  match e with
  | ⟨0, _⟩ => rfl
  | ⟨1, _⟩ => rfl
  | ⟨2, _⟩ => rfl
  | ⟨3, _⟩ => rfl

/-- The transpose with axis order (1, 0, 2) of an [a, b, c] array reads at (i, j, p) the entry (j, i, p). -/
theorem transpose_102_apply {a b c : ℕ} (x : (⟨3, ![a, b, c]⟩ : Shape).Idx → α)
    (h : (⟨3, ![a, b, c]⟩ : Shape).Transposes [1, 0, 2] ⟨3, ![b, a, c]⟩)
    (i : Fin b) (j : Fin a) (p : Fin c) :
    transpose ⟨3, ![b, a, c]⟩ [1, 0, 2] x h (ix3 i j p) = x (ix3 j i p) := by
  refine transpose_apply _ x h (ix3 i j p) (ix3 j i p) fun e => ?_
  match e with
  | ⟨0, _⟩ => rfl
  | ⟨1, _⟩ => rfl
  | ⟨2, _⟩ => rfl

/-! ## A slab spread along a new first axis -/

/-- An [a, b] array broadcast along the axes [1, 2] to [1, a, b] reads, at (u, p, q), the array at (p, q). -/
theorem broadcastInDim_ab_1ab_apply {a b : ℕ} (v : (⟨2, ![a, b]⟩ : Shape).Idx → α)
    (h : (⟨2, ![a, b]⟩ : Shape).BroadcastsInDim ⟨3, ![1, a, b]⟩ (![1, 2] : Fin 2 → Fin (⟨3, ![1, a, b]⟩ : Shape).rank))
    (u : Fin 1) (p : Fin a) (q : Fin b) : broadcastInDim ⟨3, ![1, a, b]⟩ ![1, 2] h v (ix3 u p q) = v (ix2 p q) := by
  refine broadcastInDim_apply _ h v (ix3 u p q) (ix2 p q) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl

/-- A [1, a, b] slab broadcast along the axes [0, 1, 2] to [c, a, b] reads, at (r, p, q), the slab at (0, p, q). -/
theorem broadcastInDim_1ab_cab_apply {a b c : ℕ} (v : (⟨3, ![1, a, b]⟩ : Shape).Idx → α)
    (h : (⟨3, ![1, a, b]⟩ : Shape).BroadcastsInDim ⟨3, ![c, a, b]⟩ (![0, 1, 2] : Fin 3 → Fin (⟨3, ![c, a, b]⟩ : Shape).rank))
    (r : Fin c) (p : Fin a) (q : Fin b) :
    broadcastInDim ⟨3, ![c, a, b]⟩ ![0, 1, 2] h v (ix3 r p q) = v (ix3 (0 : Fin 1) p q) := by
  refine broadcastInDim_apply _ h v (ix3 r p q) (ix3 (0 : Fin 1) p q) fun ax => ?_
  match ax with
  | ⟨0, _⟩ => rfl
  | ⟨1, _⟩ =>
    show p.val = if a = 1 then 0 else p.val
    split
    · have := p.isLt; omega
    · rfl
  | ⟨2, _⟩ =>
    show q.val = if b = 1 then 0 else q.val
    split
    · have := q.isLt; omega
    · rfl

/-! ## Two arrays joined along the last axis -/

/-- The join of two [a, b, 2] arrays along the last axis, at a last coordinate below 2, reads the first array. -/
theorem concatenate_ab2_left {a b : ℕ} (x₁ x₂ : (⟨3, ![a, b, 2]⟩ : Shape).Idx → α)
    (h : Shape.Concatenates [(⟨3, ![a, b, 2]⟩ : Shape), ⟨3, ![a, b, 2]⟩] ⟨3, ![a, b, 4]⟩ 2)
    (p : Fin a) (q : Fin b) (k : Fin 4) (k' : Fin 2) (hk : k'.val = k.val) :
    concatenate ⟨3, ![a, b, 4]⟩ 2 [⟨⟨3, ![a, b, 2]⟩, x₁⟩, ⟨⟨3, ![a, b, 2]⟩, x₂⟩] h (ix3 p q k) = x₁ (ix3 p q k') := by
  refine concatenate_pair_apply_left 2 x₁ x₂ h (ix3 p q k) rfl (ix3 p q k') fun e => ?_
  match e with
  | ⟨0, _⟩ => rfl
  | ⟨1, _⟩ => rfl
  | ⟨2, _⟩ => exact hk

/-- … and at a last coordinate 2 or 3 the second array, two places down. -/
theorem concatenate_ab2_right {a b : ℕ} (x₁ x₂ : (⟨3, ![a, b, 2]⟩ : Shape).Idx → α)
    (h : Shape.Concatenates [(⟨3, ![a, b, 2]⟩ : Shape), ⟨3, ![a, b, 2]⟩] ⟨3, ![a, b, 4]⟩ 2)
    (p : Fin a) (q : Fin b) (k : Fin 4) (k' : Fin 2) (hk : k'.val + 2 = k.val) :
    concatenate ⟨3, ![a, b, 4]⟩ 2 [⟨⟨3, ![a, b, 2]⟩, x₁⟩, ⟨⟨3, ![a, b, 2]⟩, x₂⟩] h (ix3 p q k) = x₂ (ix3 p q k') := by
  refine concatenate_pair_apply_right 2 x₁ x₂ h (ix3 p q k) rfl rfl (ix3 p q k') (fun e he => ?_) hk
  match e with
  | ⟨0, _⟩ => rfl
  | ⟨1, _⟩ => rfl
  | ⟨2, _⟩ => exact absurd rfl he

/-! ## A contraction of last axes with no shared axis -/

/-- The dimension numbers of the product of all rows of one array with all rows of another: [J, M, K] with
    [I, N, K], the last axes contracted, the result's axes the left array's then the right array's. -/
abbrev outerRowsDims (J M K I N : Nat)
    (h : DotDims.WF ⟨3, ![J, M, K]⟩ ⟨3, ![I, N, K]⟩ ⟨4, ![J, M, I, N]⟩ [2] [2] [0, 1] [0, 1] [] []) :
    DotDims ⟨3, ![J, M, K]⟩ ⟨3, ![I, N, K]⟩ ⟨4, ![J, M, I, N]⟩ where
  lhsContracting := [2]
  rhsContracting := [2]
  lhsNonContracting := [0, 1]
  rhsNonContracting := [0, 1]
  lhsBatch := []
  rhsBatch := []
  wf := h

variable (J M K I N : Nat) (h : DotDims.WF ⟨3, ![J, M, K]⟩ ⟨3, ![I, N, K]⟩ ⟨4, ![J, M, I, N]⟩ [2] [2] [0, 1] [0, 1] [] [])

/-- At result entry (j, m, i, n) and contraction position k the left operand is read at (j, m, k) … -/
theorem outerRows_lhsIdx (j : Fin J) (m : Fin M) (i : Fin I) (n : Fin N) (k : Fin K) :
    (outerRowsDims J M K I N h).lhsIdx (ix4 j m i n) ((contrEquiv1 (outerRowsDims J M K I N h) K rfl rfl).symm k) = ix3 j m k :=
  funext fun a => Fin.ext (by
    have hk := contrEquiv1_symm_val (outerRowsDims J M K I N h) K rfl rfl k
    match a with
    | ⟨0, _⟩ => rfl
    | ⟨1, _⟩ => rfl
    | ⟨2, _⟩ => exact ((outerRowsDims J M K I N h).lhsIdx_val_of_single rfl _ _).trans hk)

/-- … and the right operand at (i, n, k). -/
theorem outerRows_rhsIdx (j : Fin J) (m : Fin M) (i : Fin I) (n : Fin N) (k : Fin K) :
    (outerRowsDims J M K I N h).rhsIdx (ix4 j m i n) ((contrEquiv1 (outerRowsDims J M K I N h) K rfl rfl).symm k) = ix3 i n k :=
  funext fun a => Fin.ext (by
    have hk := contrEquiv1_symm_val (outerRowsDims J M K I N h) K rfl rfl k
    match a with
    | ⟨0, _⟩ => rfl
    | ⟨1, _⟩ => rfl
    | ⟨2, _⟩ => exact ((outerRowsDims J M K I N h).rhsIdx_val_of_single rfl _ _).trans hk)

/-- The contraction at entry (j, m, i, n) is the sum over k of l[j, m, k] · r[i, n, k]. -/
theorem dotGeneral_outerRows_apply {φ₁ φ₂ : FTy} (prec : Option ContractPrecision) (sched : HostSchedule)
    (l : FVec Ideal ⟨3, ![J, M, K]⟩ φ₁) (r : FVec Ideal ⟨3, ![I, N, K]⟩ φ₂) (j : Fin J) (m : Fin M) (i : Fin I) (n : Fin N) :
    FloatOps.dotGeneral (outerRowsDims J M K I N h) prec sched l r (ix4 j m i n) = ∑ k : Fin K, l (ix3 j m k) * r (ix3 i n k) := by
  refine (Ideal.dotGeneral_apply (outerRowsDims J M K I N h) prec sched l r (ix4 j m i n)).trans ?_
  rw [← Equiv.sum_comp (contrEquiv1 (outerRowsDims J M K I N h) K rfl rfl).symm]
  refine Finset.sum_congr rfl fun k _ => ?_
  rw [outerRows_lhsIdx, outerRows_rhsIdx]

end Cert.ReferenceIdeal.RefScores

end
-- ==== Proof.RefScoresAt.lean ====
/-
  The array program's building blocks at its own shapes, read at an index: the two contractions as the projection
  of a corner on an axis, the folds of min / max from ±∞ over the corners, and the fold over the four axis scores.
-/
import proofs.«131896_j59760174957246_2_alg».proof.ReferenceIdeal
import proofs.«131896_j59760174957246_2_alg».proof.Proof.Spec
import proofs.«131896_j59760174957246_2_alg».proof.Proof.RefScoresOps

open scoped BigOperators

noncomputable section

namespace Cert.ReferenceIdeal.RefScores
open Idealize.ShloMosaic Idealize.ShloMosaic.ValueIdx Cert.ReferenceIdeal Cert.MGIoU

/-- The host's quotient at an index, at the extended reals. -/
theorem hostDivf_apply {s : Shape} {φ : FTy} (a b : FVec Ideal s φ) (i : s.Idx) : Host.divf a b i = Ideal.div (a i) (b i) := rfl

section
variable [Facts₀]

/-- The batched contraction: entry (b, a, k) is the projection of corner k of box b on axis a of box b. -/
theorem dot40_apply (A : FVec Ideal S4096x2x2 .f32) (C : FVec Ideal S4096x4x2 .f32) (b : Fin 4096) (a : Fin 2) (k : Fin 4) :
    Host.dotGeneral (F := Ideal) dot_S4096x2x2_S4096x4x2_S4096x2x4_2_2_1_1_0_0 none A C (ix3 b a k) = cp C A b b a k :=
  Cert.Lib.Rank3.dotGeneral_batchRows_apply 4096 2 2 4 Facts₀.dot_S4096x2x2_S4096x4x2_S4096x2x4_2_2_1_1_0_0_wf none .single A C b a k

/-- The contraction with no shared axis: entry (j, a, i, k) is the projection of corner k of box i on axis a of box j. -/
theorem dot43_apply (A : FVec Ideal S4096x2x2 .f32) (C : FVec Ideal S4096x4x2 .f32) (j : Fin 4096) (a : Fin 2) (i : Fin 4096) (k : Fin 4) :
    Host.dotGeneral (F := Ideal) dot_S4096x2x2_S4096x4x2_S4096x2x4096x4_2_2_01_01_n_n none A C (ix4 j a i k) = cp C A i j a k :=
  dotGeneral_outerRows_apply 4096 2 2 4096 4 Facts₀.dot_S4096x2x2_S4096x4x2_S4096x2x4096x4_2_2_01_01_n_n_wf none .single A C j a i k

end

/-! ## Folds of min from +∞ and of max from −∞ over the last axis -/

theorem redmin_b_a_k (x : FVec Ideal S4096x2x4 .f32) (h' : S4096x2x4.ReducesTo [2] S4096x2) (hS : 0 < S_.numel) (b : Fin 4096) (a : Fin 2) :
    Host.reduce (FloatOps.minimumf (F := Ideal) (φ := .f32)) x (constant (F := Ideal) S_ .f32 0x7F800000#32) h' hS (ix2 b a)
      = (Finset.univ : Finset (Fin 4)).fold min ⊤ (fun k => x (ix3 b a k)) :=
  (hostReduce_minimumf_last3 x _ h' (by decide) hS b a).trans
    (congrArg (fun t => (Finset.univ : Finset (Fin 4)).fold min t (fun k => x (ix3 b a k))) ofBits_posInf)

theorem redmax_b_a_k (x : FVec Ideal S4096x2x4 .f32) (h' : S4096x2x4.ReducesTo [2] S4096x2) (hS : 0 < S_.numel) (b : Fin 4096) (a : Fin 2) :
    Host.reduce (FloatOps.maximumf (F := Ideal) (φ := .f32)) x (constant (F := Ideal) S_ .f32 0xFF800000#32) h' hS (ix2 b a)
      = (Finset.univ : Finset (Fin 4)).fold max ⊥ (fun k => x (ix3 b a k)) :=
  (Cert.Lib.Rank3.hostReduce_maximumf_last x _ h' (by decide) hS b a).trans
    (congrArg (fun t => (Finset.univ : Finset (Fin 4)).fold max t (fun k => x (ix3 b a k))) ofBits_negInf)

theorem redmin_i_j_a_k (x : FVec Ideal S4096x4096x2x4 .f32) (h' : S4096x4096x2x4.ReducesTo [3] S4096x4096x2) (hS : 0 < S_.numel)
    (i j : Fin 4096) (a : Fin 2) :
    Host.reduce (FloatOps.minimumf (F := Ideal) (φ := .f32)) x (constant (F := Ideal) S_ .f32 0x7F800000#32) h' hS (ix3 i j a)
      = (Finset.univ : Finset (Fin 4)).fold min ⊤ (fun k => x (ix4 i j a k)) :=
  (hostReduce_minimumf_last4 x _ h' (by decide) hS i j a).trans
    (congrArg (fun t => (Finset.univ : Finset (Fin 4)).fold min t (fun k => x (ix4 i j a k))) ofBits_posInf)

theorem redmax_i_j_a_k (x : FVec Ideal S4096x4096x2x4 .f32) (h' : S4096x4096x2x4.ReducesTo [3] S4096x4096x2) (hS : 0 < S_.numel)
    (i j : Fin 4096) (a : Fin 2) :
    Host.reduce (FloatOps.maximumf (F := Ideal) (φ := .f32)) x (constant (F := Ideal) S_ .f32 0xFF800000#32) h' hS (ix3 i j a)
      = (Finset.univ : Finset (Fin 4)).fold max ⊥ (fun k => x (ix4 i j a k)) :=
  (hostReduce_maximumf_last4 x _ h' (by decide) hS i j a).trans
    (congrArg (fun t => (Finset.univ : Finset (Fin 4)).fold max t (fun k => x (ix4 i j a k))) ofBits_negInf)

theorem redmin_i_j_k (x : FVec Ideal S4096x4096x4 .f32) (h' : S4096x4096x4.ReducesTo [2] S4096x4096) (hS : 0 < S_.numel) (i j : Fin 4096) :
    Host.reduce (FloatOps.minimumf (F := Ideal) (φ := .f32)) x (constant (F := Ideal) S_ .f32 0x7F800000#32) h' hS (ix2 i j)
      = (Finset.univ : Finset (Fin 4)).fold min ⊤ (fun k => x (ix3 i j k)) :=
  (hostReduce_minimumf_last3 x _ h' (by decide) hS i j).trans
    (congrArg (fun t => (Finset.univ : Finset (Fin 4)).fold min t (fun k => x (ix3 i j k))) ofBits_posInf)

/-- The zero word broadcast from a scalar reads 0 everywhere. -/
theorem bcastZero_apply {t : Shape} (h : S_.BroadcastsInDim t (![] : Fin 0 → Fin t.rank)) (j : t.Idx) :
    broadcastInDim t ![] h (id (constant (F := Ideal) S_ .f32 0x00000000#32)) j = 0 :=
  (Cert.Lib.Rank3.broadcastInDim_scalar_apply _ h j).trans Ideal.ofBits_zero_f32

/-! ## The layout operations at the program's own shapes -/

/-- A [4096, 2] array kept as a [4096, 1, 2] row. -/
theorem keepRow_apply (v : FVec Ideal S4096x2 .f32)
    (h : S4096x2.BroadcastsInDim S4096x1x2 (![0, 2] : Fin 2 → Fin S4096x1x2.rank)) (b : Fin 4096) (a : Fin 2) :
    broadcastInDim S4096x1x2 ![0, 2] h v (ix3 b (0 : Fin 1) a) = v (ix2 b a) :=
  Cert.Lib.Rank3.broadcastInDim_ab_a1b_apply v h b 0 a

/-- A [4096, 1, 2] row spread along the middle axis. -/
theorem spreadRow_apply (v : FVec Ideal S4096x1x2 .f32)
    (h : S4096x1x2.BroadcastsInDim S4096x4096x2 (![0, 1, 2] : Fin 3 → Fin S4096x4096x2.rank)) (p q : Fin 4096) (a : Fin 2) :
    broadcastInDim S4096x4096x2 ![0, 1, 2] h v (ix3 p q a) = v (ix3 p (0 : Fin 1) a) :=
  Cert.Lib.Rank3.broadcastInDim_a1b_acb_apply v h p q a

/-- A [4096, 2] array kept as a [1, 4096, 2] slab. -/
theorem keepSlab_apply (v : FVec Ideal S4096x2 .f32)
    (h : S4096x2.BroadcastsInDim S1x4096x2 (![1, 2] : Fin 2 → Fin S1x4096x2.rank)) (b : Fin 4096) (a : Fin 2) :
    broadcastInDim S1x4096x2 ![1, 2] h v (ix3 (0 : Fin 1) b a) = v (ix2 b a) :=
  broadcastInDim_ab_1ab_apply v h 0 b a

/-- A [1, 4096, 2] slab spread along the first axis. -/
theorem spreadSlab_apply (v : FVec Ideal S1x4096x2 .f32)
    (h : S1x4096x2.BroadcastsInDim S4096x4096x2 (![0, 1, 2] : Fin 3 → Fin S4096x4096x2.rank)) (p q : Fin 4096) (a : Fin 2) :
    broadcastInDim S4096x4096x2 ![0, 1, 2] h v (ix3 p q a) = v (ix3 (0 : Fin 1) q a) :=
  broadcastInDim_1ab_cab_apply v h p q a

/-- The contraction's axes reordered from (j, a, i, k) to (i, j, a, k). -/
theorem reorder_apply (x : FVec Ideal S4096x2x4096x4 .f32) (h : S4096x2x4096x4.Transposes [2, 0, 1, 3] S4096x4096x2x4)
    (p q : Fin 4096) (a : Fin 2) (k : Fin 4) :
    transpose S4096x4096x2x4 [2, 0, 1, 3] x h (ix4 p q a k) = x (ix4 q a p k) :=
  transpose_2013_apply x h p q a k

/-- The two box axes exchanged. -/
theorem swap_apply (x : FVec Ideal S4096x4096x2 .f32) (h : S4096x4096x2.Transposes [1, 0, 2] S4096x4096x2) (p q : Fin 4096) (a : Fin 2) :
    transpose S4096x4096x2 [1, 0, 2] x h (ix3 p q a) = x (ix3 q p a) :=
  transpose_102_apply x h p q a

/-- The two pairs of axis scores joined to four, read at the pair (p, q) as a function of the axis number. -/
theorem join_apply (x₁ x₂ : FVec Ideal S4096x4096x2 .f32)
    (h : Shape.Concatenates [S4096x4096x2, S4096x4096x2] S4096x4096x4 2) (p q : Fin 4096) :
    (fun k : Fin 4 => concatenate S4096x4096x4 2 [⟨S4096x4096x2, x₁⟩, ⟨S4096x4096x2, x₂⟩] h (ix3 p q k))
      = ![x₁ (ix3 p q 0), x₁ (ix3 p q 1), x₂ (ix3 p q 0), x₂ (ix3 p q 1)] := funext fun k =>
  match k with
  | ⟨0, _⟩ => concatenate_ab2_left x₁ x₂ h p q ⟨0, by omega⟩ 0 rfl
  | ⟨1, _⟩ => concatenate_ab2_left x₁ x₂ h p q ⟨1, by omega⟩ 1 rfl
  | ⟨2, _⟩ => concatenate_ab2_right x₁ x₂ h p q ⟨2, by omega⟩ 0 rfl
  | ⟨3, _⟩ => concatenate_ab2_right x₁ x₂ h p q ⟨3, by omega⟩ 1 rfl

end Cert.ReferenceIdeal.RefScores

end
-- ==== Proof.RefScores.lean ====
/-
  The array program's clipped pairwise scores read at a pair (i, j): the least of the four axis scores of the
  pair, clipped below at 0.

  Every intermediate array is read at an index in turn. The two contractions give the projection of a corner on an
  axis; the folds over the corners give the least and greatest projection of a box on an axis (a box's own axes:
  the batched contraction; another box's axes: the contraction with no shared axis, with the axes reordered so
  that entry (p, q, a) speaks of box p's corners on axis a of box q, and its transpose, of box q's corners on axis
  a of box p). Spreading a box's own interval along the other box's axis, the pointwise arithmetic is the
  one-dimensional generalized IoU of the two intervals; the two pairs of axis scores are joined to four, folded
  with min from +∞ and clipped.
-/
import proofs.«131896_j59760174957246_2_alg».proof.Proof.RefTerms
import proofs.«131896_j59760174957246_2_alg».proof.Proof.RefScoresAt

open scoped BigOperators

noncomputable section

namespace Cert.ReferenceIdeal.RefScores
open Idealize.ShloMosaic Idealize.ShloMosaic.ValueIdx Cert.ReferenceIdeal Cert.ReferenceIdeal.RefRun Cert.MGIoU

variable [Facts]
variable (C : (⟨S4096x4x2, .f32⟩ : BufTy).Contents (Elt Ideal)) (A : (⟨S4096x2x2, .f32⟩ : BufTy).Contents (Elt Ideal))

/-! ## The projections and their extremes -/

theorem projSelf_apply (b : Fin 4096) (a : Fin 2) (k : Fin 4) : projSelf (F := Ideal) C A (ix3 b a k) = cp C A b b a k := by
  unfold projSelf
  exact dot40_apply A C b a k

theorem loSelf_apply (b : Fin 4096) (a : Fin 2) : loSelf (F := Ideal) C A (ix2 b a) = cmin C A b b a := by
  unfold loSelf
  exact (redmin_b_a_k (projSelf C A) _ _ b a).trans
    (congrArg ((Finset.univ : Finset (Fin 4)).fold min ⊤) (funext fun k => projSelf_apply C A b a k))

theorem hiSelf_apply (b : Fin 4096) (a : Fin 2) : hiSelf (F := Ideal) C A (ix2 b a) = cmax C A b b a := by
  unfold hiSelf
  exact (redmax_b_a_k (projSelf C A) _ _ b a).trans
    (congrArg ((Finset.univ : Finset (Fin 4)).fold max ⊥) (funext fun k => projSelf_apply C A b a k))

theorem projCross_apply (p q : Fin 4096) (a : Fin 2) (k : Fin 4) : projCross (F := Ideal) C A (ix4 p q a k) = cp C A p q a k := by
  unfold projCross
  exact (reorder_apply _ _ p q a k).trans (dot43_apply A C q a p k)

theorem loCross_apply (p q : Fin 4096) (a : Fin 2) : loCross (F := Ideal) C A (ix3 p q a) = cmin C A p q a := by
  unfold loCross
  exact (redmin_i_j_a_k (projCross C A) _ _ p q a).trans
    (congrArg ((Finset.univ : Finset (Fin 4)).fold min ⊤) (funext fun k => projCross_apply C A p q a k))

theorem hiCross_apply (p q : Fin 4096) (a : Fin 2) : hiCross (F := Ideal) C A (ix3 p q a) = cmax C A p q a := by
  unfold hiCross
  exact (redmax_i_j_a_k (projCross C A) _ _ p q a).trans
    (congrArg ((Finset.univ : Finset (Fin 4)).fold max ⊥) (funext fun k => projCross_apply C A p q a k))

theorem loCrossT_apply (p q : Fin 4096) (a : Fin 2) : loCrossT (F := Ideal) C A (ix3 p q a) = cmin C A q p a := by
  unfold loCrossT
  exact (swap_apply (loCross C A) _ p q a).trans (loCross_apply C A q p a)

theorem hiCrossT_apply (p q : Fin 4096) (a : Fin 2) : hiCrossT (F := Ideal) C A (ix3 p q a) = cmax C A q p a := by
  unfold hiCrossT
  exact (swap_apply (hiCross C A) _ p q a).trans (hiCross_apply C A q p a)

/-! ## A box's own interval, as a row and as a slab -/

theorem loI_apply (b : Fin 4096) (a : Fin 2) : loI (F := Ideal) C A (ix3 b (0 : Fin 1) a) = cmin C A b b a := by
  unfold loI
  exact (keepRow_apply (loSelf C A) _ b a).trans (loSelf_apply C A b a)

theorem hiI_apply (b : Fin 4096) (a : Fin 2) : hiI (F := Ideal) C A (ix3 b (0 : Fin 1) a) = cmax C A b b a := by
  unfold hiI
  exact (keepRow_apply (hiSelf C A) _ b a).trans (hiSelf_apply C A b a)

theorem loJ_apply (b : Fin 4096) (a : Fin 2) : loJ (F := Ideal) C A (ix3 (0 : Fin 1) b a) = cmin C A b b a := by
  unfold loJ
  exact (keepSlab_apply (loSelf C A) _ b a).trans (loSelf_apply C A b a)

theorem hiJ_apply (b : Fin 4096) (a : Fin 2) : hiJ (F := Ideal) C A (ix3 (0 : Fin 1) b a) = cmax C A b b a := by
  unfold hiJ
  exact (keepSlab_apply (hiSelf C A) _ b a).trans (hiSelf_apply C A b a)

/-! ## The axis scores on box p's axes: box p's own interval against box q's projected one -/

theorem interI_apply (p q : Fin 4096) (a : Fin 2) :
    interI (F := Ideal) C A (ix3 p q a)
      = max 0 (min (cmax C A p p a) (cmax C A q p a) - max (cmin C A p p a) (cmin C A q p a)) := by
  unfold interI
  rw [maximumf_apply, subf_apply, minimumf_apply, maximumf_apply, bcastZero_apply, spreadRow_apply, spreadRow_apply, hiI_apply, loI_apply,
    hiCrossT_apply, loCrossT_apply]

theorem unionI_apply (p q : Fin 4096) (a : Fin 2) :
    unionI (F := Ideal) C A (ix3 p q a)
      = (cmax C A p p a - cmin C A p p a) + (cmax C A q p a - cmin C A q p a)
        - max 0 (min (cmax C A p p a) (cmax C A q p a) - max (cmin C A p p a) (cmin C A q p a)) := by
  unfold unionI
  rw [subf_apply, addf_apply, subf_apply, spreadRow_apply, subf_apply, hiI_apply, loI_apply, hiCrossT_apply, loCrossT_apply, interI_apply]

theorem hullI_apply (p q : Fin 4096) (a : Fin 2) :
    hullI (F := Ideal) C A (ix3 p q a)
      = max (cmax C A p p a) (cmax C A q p a) - min (cmin C A p p a) (cmin C A q p a) := by
  unfold hullI
  rw [subf_apply, maximumf_apply, minimumf_apply, spreadRow_apply, spreadRow_apply, hiI_apply, loI_apply, hiCrossT_apply, loCrossT_apply]

theorem giouI_apply (p q : Fin 4096) (a : Fin 2) :
    giouI (F := Ideal) C A (ix3 p q a) = giou' (cmin C A p p a) (cmax C A p p a) (cmin C A q p a) (cmax C A q p a) := by
  unfold giouI giou'
  rw [subf_apply, hostDivf_apply, hostDivf_apply, subf_apply, interI_apply, unionI_apply, hullI_apply]

/-! ## The axis scores on box q's axes: box p's projected interval against box q's own -/

theorem interJ_apply (p q : Fin 4096) (a : Fin 2) :
    interJ (F := Ideal) C A (ix3 p q a)
      = max 0 (min (cmax C A p q a) (cmax C A q q a) - max (cmin C A p q a) (cmin C A q q a)) := by
  unfold interJ
  rw [maximumf_apply, subf_apply, minimumf_apply, maximumf_apply, bcastZero_apply, spreadSlab_apply, spreadSlab_apply, hiJ_apply, loJ_apply,
    hiCross_apply, loCross_apply]

theorem unionJ_apply (p q : Fin 4096) (a : Fin 2) :
    unionJ (F := Ideal) C A (ix3 p q a)
      = (cmax C A p q a - cmin C A p q a) + (cmax C A q q a - cmin C A q q a)
        - max 0 (min (cmax C A p q a) (cmax C A q q a) - max (cmin C A p q a) (cmin C A q q a)) := by
  unfold unionJ
  rw [subf_apply, addf_apply, subf_apply, spreadSlab_apply, subf_apply, hiJ_apply, loJ_apply, hiCross_apply, loCross_apply, interJ_apply]

theorem hullJ_apply (p q : Fin 4096) (a : Fin 2) :
    hullJ (F := Ideal) C A (ix3 p q a)
      = max (cmax C A p q a) (cmax C A q q a) - min (cmin C A p q a) (cmin C A q q a) := by
  unfold hullJ
  rw [subf_apply, maximumf_apply, minimumf_apply, spreadSlab_apply, spreadSlab_apply, hiJ_apply, loJ_apply, hiCross_apply, loCross_apply]

theorem giouJ_apply (p q : Fin 4096) (a : Fin 2) :
    giouJ (F := Ideal) C A (ix3 p q a) = giou' (cmin C A p q a) (cmax C A p q a) (cmin C A q q a) (cmax C A q q a) := by
  unfold giouJ giou'
  rw [subf_apply, hostDivf_apply, hostDivf_apply, subf_apply, interJ_apply, unionJ_apply, hullJ_apply]

/-! ## The least of the four axis scores, clipped -/

theorem scores_apply (i j : Fin 4096) :
    Cert.ReferenceIdeal.RefRun.scores (F := Ideal) C A (ix2 i j)
      = max 0 ((Finset.univ : Finset (Fin 4)).fold min ⊤ (Cert.MGIoU.gAll C A i j)) := by
  unfold Cert.ReferenceIdeal.RefRun.scores
  refine (maximumf_apply _ _ (ix2 i j)).trans ?_
  refine congrArg₂ max (bcastZero_apply _ _) ?_
  refine (redmin_i_j_k _ _ _ i j).trans (congrArg ((Finset.univ : Finset (Fin 4)).fold min ⊤) ?_)
  refine (join_apply (giouI C A) (giouJ C A) _ i j).trans ?_
  unfold gAll
  rw [giouI_apply, giouI_apply, giouJ_apply, giouJ_apply]

end Cert.ReferenceIdeal.RefScores

end
-- ==== Proof.LibScatterDiag.lean ====
/-
  A scatter that SETS the entries of a square array at a list of (row, column) positions to ONE value.

  The operation: `"stablehlo.scatter"` of an operand of shape N × N, scatter indices of shape N × 2 (the index
  vector on the second axis: row t holds the position (row, column) update t goes to) and N scalar updates, both operand
  axes inserted window axes, the body returning the update (`x.at[rows, cols].set(v)`). Its model is a left fold over the
  update indices of "replace the element at the position, if it is inside".

  What is proved, for every N and every element type:
  • where update t lands (`resultIdx_mk`): at the position whose coordinates are the two words of row t read signed,
    when those are coordinates of the operand;
  • a left fold of point writes of one value z (`foldl_set_const_of_exists`, `foldl_set_const_of_forall_ne`): z at the
    positions some step writes, the start elsewhere — all writes carry the same value, so neither their order nor
    repeated positions matter;
  • hence the scatter with all updates equal to z (`scatter_set_const`): z at the positions listed, the operand
    elsewhere; and for the index array whose row t is (t, t) (`scatter_diag`): z on the diagonal, the operand off it.
  The fold is handled by induction on the list of update indices, never by evaluating it at a size.
-/
import Idealize.ShloMosaic.Lib.ValueIdx

noncomputable section

namespace Cert.LibScatterDiag

open Idealize.ShloMosaic Idealize.ShloMosaic.ValueIdx

/-- A left fold of point writes of ONE value `z`: at a position no step writes, the accumulator is unchanged. -/
theorem foldl_set_const_of_forall_ne {ι α β : Type} [DecidableEq ι] (tgt : β → ι) (z : α) (l : List β) (acc : ι → α) (p : ι)
    (h : ∀ n ∈ l, tgt n ≠ p) :
    (l.foldl (fun r n => fun i' => if i' = tgt n then z else r i') acc) p = acc p := by
  induction l generalizing acc with
  | nil => rfl
  | cons a l ih =>
    rw [List.foldl_cons, ih _ (fun n hn => h n (List.mem_cons_of_mem _ hn))]
    exact if_neg (fun e => h a List.mem_cons_self e.symm)

/-- A left fold of point writes of ONE value `z`: at a position some step writes, the result is `z`, whatever the order
    and however many steps write there. -/
theorem foldl_set_const_of_exists {ι α β : Type} [DecidableEq ι] (tgt : β → ι) (z : α) (l : List β) (acc : ι → α) (p : ι)
    (h : ∃ n ∈ l, tgt n = p) :
    (l.foldl (fun r n => fun i' => if i' = tgt n then z else r i') acc) p = z := by
  induction l generalizing acc with
  | nil =>
    obtain ⟨n, hn, _⟩ := h
    cases hn
  | cons a l ih =>
    rw [List.foldl_cons]
    by_cases h' : ∃ n ∈ l, tgt n = p
    · exact ih _ h'
    · rw [foldl_set_const_of_forall_ne tgt z l _ p (fun n hn e => h' ⟨n, hn, e⟩)]
      obtain ⟨n, hn, e⟩ := h
      rcases List.mem_cons.1 hn with rfl | hn
      · exact if_pos e.symm
      · exact absurd ⟨n, hn, e⟩ h'

variable {N : Nat}

/-- Update index `t` reads component `c` of its index vector at row `t`, column `c` of the scatter indices. -/
theorem siIdx_mk (wf : ScatterDims.WF ⟨2, ![N, N]⟩ ⟨2, ![N, 2]⟩ ⟨1, ![N]⟩ [] [0, 1] [0, 1] 1)
    (t : Fin N) (c : Fin 2) :
    ScatterDims.siIdx (⟨[], [0, 1], [0, 1], 1, wf⟩ : ScatterDims ⟨2, ![N, N]⟩ ⟨2, ![N, 2]⟩ ⟨1, ![N]⟩) (ix1 t) c = ix2 t c := by
  funext b
  match b with
  | ⟨0, _⟩ =>
    unfold ScatterDims.siIdx
    simp
    apply Fin.ext
    unfold ScatterDims.siCoord
    simp only [Fin.coe_cast]
    have : ∀ x : Fin 1, ((ix1 t x).val) = t.val := fun x => by match x with | ⟨0, _⟩ => rfl
    exact this _
  | ⟨1, _⟩ =>
    unfold ScatterDims.siIdx
    simp
    rfl

/-- The window's start on operand axis `a`: the word at row `t`, column `a`, read signed. -/
theorem start_mk (wf : ScatterDims.WF ⟨2, ![N, N]⟩ ⟨2, ![N, 2]⟩ ⟨1, ![N]⟩ [] [0, 1] [0, 1] 1)
    (idx : IVec ⟨2, ![N, 2]⟩ 32) (t : Fin N) (a : Fin 2) :
    ScatterDims.start (⟨[], [0, 1], [0, 1], 1, wf⟩ : ScatterDims ⟨2, ![N, N]⟩ ⟨2, ![N, 2]⟩ ⟨1, ![N]⟩) (ix1 t) idx a
      = (idx (ix2 t a)).toInt := by
  unfold ScatterDims.start
  rw [dif_pos (show a ∈ ([0, 1] : List (Fin 2)) by fin_cases a <;> simp)]
  match a with
  | ⟨0, _⟩ => exact congrArg (fun k => (idx k).toInt) (siIdx_mk wf t 0)
  | ⟨1, _⟩ => exact congrArg (fun k => (idx k).toInt) (siIdx_mk wf t 1)

/-- Both operand axes are inserted: the window coordinate is 0 on each. -/
theorem window_mk (wf : ScatterDims.WF ⟨2, ![N, N]⟩ ⟨2, ![N, 2]⟩ ⟨1, ![N]⟩ [] [0, 1] [0, 1] 1)
    (j : (⟨1, ![N]⟩ : Shape).Idx) (a : Fin 2) :
    ScatterDims.window (⟨[], [0, 1], [0, 1], 1, wf⟩ : ScatterDims ⟨2, ![N, N]⟩ ⟨2, ![N, 2]⟩ ⟨1, ![N]⟩) j a = 0 := by
  unfold ScatterDims.window
  rw [dif_neg]
  have : Shape.kept ⟨2, ![N, N]⟩ [0, 1] = [] := by
    unfold Shape.kept
    simp [List.finRange_succ]
  show a ∉ Shape.kept ⟨2, ![N, N]⟩ [0, 1]
  rw [this]
  exact List.not_mem_nil

/-- Where update `t` lands: at `(a, b)` when the two words of row `t`, read signed, are `a` and `b`. -/
theorem resultIdx_mk (wf : ScatterDims.WF ⟨2, ![N, N]⟩ ⟨2, ![N, 2]⟩ ⟨1, ![N]⟩ [] [0, 1] [0, 1] 1)
    (idx : IVec ⟨2, ![N, 2]⟩ 32) (t a b : Fin N)
    (h0 : (idx (ix2 t 0)).toInt = a.val) (h1 : (idx (ix2 t 1)).toInt = b.val) :
    ScatterDims.resultIdx? (⟨[], [0, 1], [0, 1], 1, wf⟩ : ScatterDims ⟨2, ![N, N]⟩ ⟨2, ![N, 2]⟩ ⟨1, ![N]⟩) (ix1 t) idx
      = some (ix2 a b) := by
  have key : ∀ e : Fin 2, ScatterDims.start (⟨[], [0, 1], [0, 1], 1, wf⟩ : ScatterDims ⟨2, ![N, N]⟩ ⟨2, ![N, 2]⟩ ⟨1, ![N]⟩) (ix1 t) idx e
      + ScatterDims.window (⟨[], [0, 1], [0, 1], 1, wf⟩ : ScatterDims ⟨2, ![N, N]⟩ ⟨2, ![N, 2]⟩ ⟨1, ![N]⟩) (ix1 t) e
      = ((ix2 a b e).val : Int) := by
    intro e
    rw [start_mk, window_mk]
    match e with
    | ⟨0, _⟩ => simpa using h0
    | ⟨1, _⟩ => simpa using h1
  unfold ScatterDims.resultIdx?
  rw [dif_pos]
  · congr 1
    funext e
    apply Fin.ext
    simp only [key e]
    simp
  · intro e
    rw [key e]
    have := (ix2 a b e).isLt
    constructor
    · exact Int.natCast_nonneg _
    · exact_mod_cast this

variable {α : Type}

/-- Constant updates at arbitrary in-range targets. -/
theorem scatter_set_const_mk (wf : ScatterDims.WF ⟨2, ![N, N]⟩ ⟨2, ![N, 2]⟩ ⟨1, ![N]⟩ [] [0, 1] [0, 1] 1)
    (x : (⟨2, ![N, N]⟩ : Shape).Idx → α) (idx : IVec ⟨2, ![N, 2]⟩ 32) (upd : (⟨1, ![N]⟩ : Shape).Idx → α) (z : α)
    (r c : Fin N → Fin N) (h0 : ∀ t, (idx (ix2 t 0)).toInt = (r t).val) (h1 : ∀ t, (idx (ix2 t 1)).toInt = (c t).val)
    (hu : ∀ t, upd (ix1 t) = z) (p : (⟨2, ![N, N]⟩ : Shape).Idx) :
    Host.scatter (⟨[], [0, 1], [0, 1], 1, wf⟩ : ScatterDims ⟨2, ![N, N]⟩ ⟨2, ![N, 2]⟩ ⟨1, ![N]⟩) (fun _ b => b) x idx upd p
      = if ∃ t, ix2 (r t) (c t) = p then z else x p := by
  unfold Host.scatter
  refine Eq.trans (congrFun (List.foldl_ext _ (fun acc n => fun i' =>
    if i' = ix2 (r ((⟨1, ![N]⟩ : Shape).rowMajor.symm n 0)) (c ((⟨1, ![N]⟩ : Shape).rowMajor.symm n 0)) then z else acc i') x ?_) p) ?_
  · intro acc n _
    generalize (⟨1, ![N]⟩ : Shape).rowMajor.symm n = j
    obtain ⟨t, rfl⟩ : ∃ t, j = ix1 t := ⟨j 0, eq_ix1 j⟩
    rw [resultIdx_mk wf idx t _ _ (h0 t) (h1 t), hu]
    rfl
  by_cases h : ∃ t, ix2 (r t) (c t) = p
  · rw [if_pos h]
    obtain ⟨t, e⟩ := h
    refine foldl_set_const_of_exists _ z _ x p ⟨(⟨1, ![N]⟩ : Shape).rowMajor (ix1 t), List.mem_finRange _, ?_⟩
    rw [Equiv.symm_apply_apply]
    exact e
  · rw [if_neg h]
    exact foldl_set_const_of_forall_ne _ z _ x p (fun n _ e => h ⟨_, e⟩)

/-- A word written from a natural below `2 ^ 31` reads back, signed, as that natural. -/
theorem toInt_ofNat_of_lt {n : Nat} (h : n < 2147483648) : (BitVec.ofNat 32 n).toInt = (n : Int) := by
  rw [BitVec.toInt_eq_toNat_cond, BitVec.toNat_ofNat]
  have : n % 2 ^ 32 = n := Nat.mod_eq_of_lt (by omega)
  rw [this]
  split <;> omega

/-- The diagonal: every update index `t` carries the index vector `(t, t)` and every update is `z`. -/
theorem scatter_diag_mk (wf : ScatterDims.WF ⟨2, ![N, N]⟩ ⟨2, ![N, 2]⟩ ⟨1, ![N]⟩ [] [0, 1] [0, 1] 1)
    (hN : N ≤ 2147483648)
    (x : (⟨2, ![N, N]⟩ : Shape).Idx → α) (idx : IVec ⟨2, ![N, 2]⟩ 32) (upd : (⟨1, ![N]⟩ : Shape).Idx → α) (z : α)
    (hidx : ∀ (t : Fin N) (e : Fin 2), idx (ix2 t e) = BitVec.ofNat 32 t.val)
    (hu : ∀ t, upd (ix1 t) = z) (i j : Fin N) :
    Host.scatter (⟨[], [0, 1], [0, 1], 1, wf⟩ : ScatterDims ⟨2, ![N, N]⟩ ⟨2, ![N, 2]⟩ ⟨1, ![N]⟩) (fun _ b => b) x idx upd (ix2 i j)
      = if i = j then z else x (ix2 i j) := by
  have hI : ∀ (t : Fin N) (e : Fin 2), (idx (ix2 t e)).toInt = ((id t : Fin N).val : Int) := fun t e => by
    rw [hidx]
    exact toInt_ofNat_of_lt (by have := t.isLt; omega)
  rw [scatter_set_const_mk wf x idx upd z id id (fun t => hI t 0) (fun t => hI t 1) hu]
  refine if_congr ?_ rfl rfl
  constructor
  · rintro ⟨t, e⟩
    have e0 : t = i := congrFun e 0
    have e1 : t = j := congrFun e 1
    exact e0.symm.trans e1
  · rintro rfl
    exact ⟨i, rfl⟩

/-- `scatter_set_const_mk` for a record given by its fields. -/
theorem scatter_set_const (d : ScatterDims ⟨2, ![N, N]⟩ ⟨2, ![N, 2]⟩ ⟨1, ![N]⟩)
    (huw : d.updateWindowDims = []) (hiw : d.insertedWindowDims = [0, 1]) (hsd : d.scatterDimsToOperandDims = [0, 1])
    (hiv : d.indexVectorDim = 1)
    (x : (⟨2, ![N, N]⟩ : Shape).Idx → α) (idx : IVec ⟨2, ![N, 2]⟩ 32) (upd : (⟨1, ![N]⟩ : Shape).Idx → α) (z : α)
    (r c : Fin N → Fin N) (h0 : ∀ t, (idx (ix2 t 0)).toInt = (r t).val) (h1 : ∀ t, (idx (ix2 t 1)).toInt = (c t).val)
    (hu : ∀ t, upd (ix1 t) = z) (p : (⟨2, ![N, N]⟩ : Shape).Idx) :
    Host.scatter d (fun _ b => b) x idx upd p = if ∃ t, ix2 (r t) (c t) = p then z else x p := by
  obtain ⟨uw, iw, sd, iv, wf⟩ := d
  simp only at huw hiw hsd hiv
  subst huw hiw hsd hiv
  exact scatter_set_const_mk wf x idx upd z r c h0 h1 hu p

/-- `scatter_diag_mk` for a record given by its fields: `x.at[arange N, arange N].set(z)`. -/
theorem scatter_diag (d : ScatterDims ⟨2, ![N, N]⟩ ⟨2, ![N, 2]⟩ ⟨1, ![N]⟩)
    (huw : d.updateWindowDims = []) (hiw : d.insertedWindowDims = [0, 1]) (hsd : d.scatterDimsToOperandDims = [0, 1])
    (hiv : d.indexVectorDim = 1) (hN : N ≤ 2147483648)
    (x : (⟨2, ![N, N]⟩ : Shape).Idx → α) (idx : IVec ⟨2, ![N, 2]⟩ 32) (upd : (⟨1, ![N]⟩ : Shape).Idx → α) (z : α)
    (hidx : ∀ (t : Fin N) (e : Fin 2), idx (ix2 t e) = BitVec.ofNat 32 t.val)
    (hu : ∀ t, upd (ix1 t) = z) (i j : Fin N) :
    Host.scatter d (fun _ b => b) x idx upd (ix2 i j) = if i = j then z else x (ix2 i j) := by
  obtain ⟨uw, iw, sd, iv, wf⟩ := d
  simp only at huw hiw hsd hiv
  subst huw hiw hsd hiv
  exact scatter_diag_mk wf hN x idx upd z hidx hu i j

end Cert.LibScatterDiag

end
-- ==== Proof.RefDiag.lean ====
/-
  The closing scatter of the reference program, read at an index.

  The program ends with `pairwise.at[idx, idx].set(0.0)`, idx = arange(4096): the scatter's index array has row t
  equal to (t, t) — each column is the iota 0 … 4095 passed through the negative-index wrap "add 4096 where the entry is
  below 0", which changes nothing since no entry is negative — and every update is 0. So the scatter writes 0 on the
  diagonal and leaves the operand elsewhere (`scatter_diag`, by the general lemma on scatters that set one value).
-/
import proofs.«131896_j59760174957246_2_alg».proof.Proof.RefTerms
import proofs.«131896_j59760174957246_2_alg».proof.Proof.LibScatterDiag
import Idealize.ShloMosaic.Lib.ValueLayout
import Idealize.ShloMosaic.Lib.IdealHost

noncomputable section

namespace Cert.ReferenceIdeal.RefDiag

open Cert.ReferenceIdeal Idealize.ShloMosaic Idealize.SL.Sem Idealize.ShloMosaic.ValueIdx
open Cert.ReferenceIdeal.Facts₀ Cert.ReferenceIdeal.Facts

variable [Facts]

/-- A nonnegative word below `2 ^ 31` is not below zero, signed. -/
theorem slt_zero_ofNat {n : Nat} (h : n < 2147483648) : (BitVec.ofNat 32 n).slt 0#32 = false := by
  rw [BitVec.slt, Cert.LibScatterDiag.toInt_ofNat_of_lt h]
  simp

/-- The iota with the negative-index wrap (add the extent where the entry is negative) is the iota: no entry is negative. -/
theorem wrap_apply (hb : S_.BroadcastsInDim S4096 (![] : Fin 0 → Fin S4096.rank)) (t : Fin 4096) :
    select (cmpi .slt (iotaInDim S4096 32 0) (broadcastInDim S4096 ![] hb (constantI S_ 32 0#32)))
        (addi (iotaInDim S4096 32 0) (broadcastInDim S4096 ![] hb (constantI S_ 32 4096#32)))
        (iotaInDim S4096 32 0) (ix1 t)
      = BitVec.ofNat 32 t.val := by
  rw [select_apply]
  have hc : cmpi .slt (iotaInDim S4096 32 0) (broadcastInDim S4096 ![] hb (constantI S_ 32 0#32)) (ix1 t) = 0#1 := by
    show IntOp.cmpi .slt (iotaInDim S4096 32 0 (ix1 t)) (broadcastInDim S4096 ![] hb (constantI S_ 32 0#32) (ix1 t)) = 0#1
    rw [broadcastInDim_scalar_apply, constantI_apply, iotaInDim_apply]
    show BitVec.ofBool ((BitVec.ofNat 32 t.val).slt 0#32) = 0#1
    rw [slt_zero_ofNat (by have := t.isLt; omega)]
    rfl
  rw [hc, select_zero]
  rfl

/-- The wrapped row numbers, read at `t`. -/
theorem wrapIota_apply (t : Fin 4096) : Cert.ReferenceIdeal.RefRun.wrapIota (F := Ideal) (ix1 t) = BitVec.ofNat 32 t.val := by
  unfold Cert.ReferenceIdeal.RefRun.wrapIota Cert.ReferenceIdeal.RefRun.rowIota
  exact wrap_apply _ t

/-- Row `t` of the scatter's index array is `(t, t)`. -/
theorem diagIdx_apply (t : Fin 4096) (e : Fin 2) :
    Cert.ReferenceIdeal.RefRun.diagIdx (F := Ideal) (ix2 t e) = BitVec.ofNat 32 t.val := by
  unfold Cert.ReferenceIdeal.RefRun.diagIdx
  dsimp only
  match e with
  | ⟨0, _⟩ =>
    rw [concatenate_pair_apply_left (s₁ := S4096x1) (s₂ := S4096x1) (1 : Fin S4096x2.rank) _ _ _ (ix2 t ⟨0, by omega⟩) rfl (ix2 t 0)
      (fun b => by match b with | ⟨0, _⟩ => rfl | ⟨1, _⟩ => rfl)]
    rw [broadcastInDim_apply _ _ _ _ (ix1 t) (fun a => by match a with | ⟨0, _⟩ => rfl)]
    exact wrapIota_apply t
  | ⟨1, _⟩ =>
    rw [concatenate_pair_apply_right (s₁ := S4096x1) (s₂ := S4096x1) (1 : Fin S4096x2.rank) _ _ _ (ix2 t ⟨1, by omega⟩) rfl rfl (ix2 t 0)
      (fun b hb => by match b with | ⟨0, _⟩ => rfl | ⟨1, _⟩ => exact absurd rfl hb) rfl]
    rw [broadcastInDim_apply _ _ _ _ (ix1 t) (fun a => by match a with | ⟨0, _⟩ => rfl)]
    exact wrapIota_apply t

/-- Every update is zero. -/
theorem diagUpd_apply (t : Fin 4096) : Cert.ReferenceIdeal.RefRun.diagUpd (F := Ideal) (ix1 t) = 0 := by
  unfold Cert.ReferenceIdeal.RefRun.diagUpd
  dsimp only
  rw [broadcastInDim_scalar_apply, constant_apply, Ideal.ofBits_zero_f32]

/-- The closing scatter writes 0 on the diagonal and keeps the operand elsewhere. -/
theorem scatter_diag (x : (⟨S4096x4096, .f32⟩ : BufTy).Contents (Elt Ideal)) (i j : Fin 4096) :
    Host.scatter scatter_S4096x4096_S4096x2_S4096_n_01_01_1 (fun _ b => b) x
        (Cert.ReferenceIdeal.RefRun.diagIdx (F := Ideal)) (Cert.ReferenceIdeal.RefRun.diagUpd (F := Ideal)) (ix2 i j)
      = if i = j then 0 else x (ix2 i j) :=
  Cert.LibScatterDiag.scatter_diag (N := 4096) scatter_S4096x4096_S4096x2_S4096_n_01_01_1 rfl rfl rfl rfl (by norm_num)
    x _ _ 0 diagIdx_apply diagUpd_apply i j

end Cert.ReferenceIdeal.RefDiag

end
-- ==== Proof.lean ====
/-
  The certificate of the pairwise rotated-box score kernel against its array reference.

  Both programs first compute, by the same host lines, each box's four corners and two edge axes.  The tile program
  then cuts them into coordinate tables and, tile by tile, computes for every ordered pair of boxes the least over four
  axes of a one-dimensional generalized IoU of projected intervals, clips it at 0 and zeroes the diagonal by comparing
  the global row and column numbers.  The array program contracts corners with axes over the coordinate, folds
  min / max from ±∞, combines the same four axis scores in another order, clips, and writes 0 on the diagonal by a
  scatter at the indices (b, b).  On the extended reals the two are the same function of the corners and the axes
  (Proof/Bridge.lean): only commutativity and associativity of +, ·, min, max are used, so the precondition is not opened.

  The frames of the two tile programs are the frame certificates of the tile pipeline (Proof/FramePKernel.lean,
  Proof/FramePKernelIdeal.lean); the array program's frame is its run (Proof/RefRun.lean) with the result dropped.
  The idealization rewrote nothing, so `preserves` is trivial.
-/
import proofs.«131896_j59760174957246_2_alg».proof.Defs
import proofs.«131896_j59760174957246_2_alg».proof.Proof.Gen.Kernel
import proofs.«131896_j59760174957246_2_alg».proof.Proof.Gen.KernelIdeal
import proofs.«131896_j59760174957246_2_alg».proof.Proof.Gen.ReferenceIdeal
import proofs.«131896_j59760174957246_2_alg».proof.Proof.Gen.Pre_finite_inputs
import proofs.«131896_j59760174957246_2_alg».proof.Proof.FramePKernel
import proofs.«131896_j59760174957246_2_alg».proof.Proof.KVal
import proofs.«131896_j59760174957246_2_alg».proof.Proof.Link
import proofs.«131896_j59760174957246_2_alg».proof.Proof.RefRun
import proofs.«131896_j59760174957246_2_alg».proof.Proof.RefOut
import proofs.«131896_j59760174957246_2_alg».proof.Proof.RefScores
import proofs.«131896_j59760174957246_2_alg».proof.Proof.RefDiag
import proofs.«131896_j59760174957246_2_alg».proof.Proof.Bridge
import Idealize.ShloMosaic.Adequacy
import Idealize.ShloMosaic.Init

noncomputable section

namespace Cert.Proof

open Idealize.ShloMosaic Idealize.ShloMosaic.TcCoe Idealize.ShloMosaic.ValueIdx Idealize.SL.Sem

theorem frame_k : Cert.frame_Kernel := fun m ρ _ => Cert.Kernel.GenP.frame m ρ

theorem frame_ki : Cert.frame_KernelIdeal := fun m ρ _ => Cert.KernelIdeal.GenP.frame m ρ

/-- The array program's frame: its run, read at the argument, which no operation writes. -/
theorem frame_ri : Cert.frame_ReferenceIdeal := fun m ρ _ =>
  (θ_run Cert.ReferenceIdeal.defs _ _).mono
    (fun _ h c => (h c Cert.ReferenceIdeal.main_arg0).trans (Cert.ReferenceIdeal.RefRun.arg0_eq _))
    (Cert.ReferenceIdeal.RefRun.run_main (F := Ideal) m ρ)

theorem preserves : Cert.preserves_Kernel_KernelIdeal := trivial

/-- Both result arrays end at the score array of the corners and axes of the same boxes: entry (i, j) of the array
    program's result is its scatter of 0 on the diagonal over its clipped least axis score, which is the tile
    program's arrangement of the same number. -/
theorem algebraic : Cert.algebraic_KernelIdeal_ReferenceIdeal := by
  intro m ρ m' ρ' _ hagree
  refine ⟨fun c => Cert.KernelIdeal.KVal.scoreArr m c, Cert.KernelIdeal.KVal.run m ρ, ?_⟩
  refine (θ_run Cert.ReferenceIdeal.defs _ _).mono (fun _ h c => ⟨(h c Cert.ReferenceIdeal.main_v111).trans ?_,
      (h c Cert.ReferenceIdeal.main_arg0).trans (Cert.ReferenceIdeal.RefRun.arg0_eq _)⟩)
    (Cert.ReferenceIdeal.RefRun.run_main (F := Ideal) m' ρ')
  rw [Cert.ReferenceIdeal.RefRun.out_eq]
  funext idx
  obtain ⟨i, j, rfl⟩ : ∃ (i j : Fin 4096), idx = ix2 i j := ⟨idx 0, idx 1, eq_ix2 idx⟩
  rw [Cert.ReferenceIdeal.RefDiag.scatter_diag, Cert.ReferenceIdeal.RefScores.scores_apply]
  refine Eq.trans ?_ (Cert.KernelIdeal.KVal.scoreArr_apply m c (ix2 i j) i j rfl rfl).symm
  rw [Cert.Link.axes_eq, Cert.Link.corners_eq]
  have hm : StableHlo.launchContents m' c (Cert.ReferenceIdeal.main_arg0 : DevRef Cert.ReferenceIdeal.τ Cert.ReferenceIdeal.sig)
      = m ((c.tc : Thread Cert.KernelIdeal.nD Cert.KernelIdeal.τ).loc Cert.KernelIdeal.main_arg0) := hagree c
  rw [hm]
  exact Cert.MGIoU.rval_eq_kAt _ _ i j

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
